-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S128x256x1x1 : Shape := ⟨4, ![128, 256, 1, 1]⟩
abbrev S128 : Shape := ⟨1, ![128]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S128x256x1x1 : S_.BroadcastsInDim S128x256x1x1 (![] : Fin 0 → Fin S128x256x1x1.rank)
  reducesTo_S128x256x1x1_S_d0_1_2_3 : S128x256x1x1.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x256x32x32 .f32) (main_arg1 : FVec F S128x256x1x1 .f32) (main_arg2 : FVec F S128 .f32) (main_arg3 : FVec F S128 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S128x256x1x1 .f32 := Host.absf main_arg1
  let main_cst_0 : FVec F S_ .f32 := constant S_ .f32 0x7F800000#32
  let main_v5 : FVec F S128x256x1x1 .f32 := broadcastInDim S128x256x1x1 ![] bcast_S_S128x256x1x1 main_cst_0
  let main_v6 : IVec S128x256x1x1 1 := cmpf .olt main_v4 main_v5
  let main_c_1 : IVec S_ 1 := constantI S_ 1 1#1
  let main_v7 : IVec S_ 1 := (fun x v => Host.reduce IntOp.andi x v reducesTo_S128x256x1x1_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x256x32x32 : Shape := ⟨4, ![32, 256, 32, 32]⟩
abbrev S128x256x1x1 : Shape := ⟨4, ![128, 256, 1, 1]⟩
abbrev S128 : Shape := ⟨1, ![128]⟩
abbrev S32x64 : Shape := ⟨2, ![32, 64]⟩
abbrev S32x256x1024 : Shape := ⟨3, ![32, 256, 1024]⟩
abbrev S128x256 : Shape := ⟨2, ![128, 256]⟩
abbrev S32x128x1024 : Shape := ⟨3, ![32, 128, 1024]⟩
abbrev S32x128x1 : Shape := ⟨3, ![32, 128, 1]⟩
abbrev S1x256x1024 : Shape := ⟨3, ![1, 256, 1024]⟩
abbrev S1x128x1024 : Shape := ⟨3, ![1, 128, 1024]⟩
abbrev S1x128x1 : Shape := ⟨3, ![1, 128, 1]⟩
abbrev S256x1024 : Shape := ⟨2, ![256, 1024]⟩
abbrev S128x1024 : Shape := ⟨2, ![128, 1024]⟩
abbrev S128x1 : Shape := ⟨2, ![128, 1]⟩
abbrev S_ : Shape := ⟨0, ![]⟩
abbrev S32x128x32x32 : Shape := ⟨4, ![32, 128, 32, 32]⟩
abbrev S128x1x1 : Shape := ⟨3, ![128, 1, 1]⟩
abbrev S32x128x64x64 : Shape := ⟨4, ![32, 128, 64, 64]⟩
abbrev S1x128x32x32 : Shape := ⟨4, ![1, 128, 32, 32]⟩
abbrev S1x128x64x64 : Shape := ⟨4, ![1, 128, 64, 64]⟩
abbrev S128x32x32 : Shape := ⟨3, ![128, 32, 32]⟩
abbrev S4096x32 : Shape := ⟨2, ![4096, 32]⟩
abbrev S4096x64 : Shape := ⟨2, ![4096, 64]⟩
abbrev S128x32x64 : Shape := ⟨3, ![128, 32, 64]⟩
abbrev S128x64x32 : Shape := ⟨3, ![128, 64, 32]⟩
abbrev S8192x32 : Shape := ⟨2, ![8192, 32]⟩
abbrev S8192x64 : Shape := ⟨2, ![8192, 64]⟩
abbrev S128x64x64 : Shape := ⟨3, ![128, 64, 64]⟩

abbrev nBuf : Space → Nat
  | .hbm => 39
  | .vmem => 17
  | .smem => 0
  | _ => 0

abbrev bufTy : (tb : Table) → Fin (tcTables nBuf tb) → BufTy
  | .hbm, ⟨0, _⟩ => ⟨S32x256x32x32, .f32⟩
  | .hbm, ⟨1, _⟩ => ⟨S128x256x1x1, .f32⟩
  | .hbm, ⟨2, _⟩ => ⟨S128, .f32⟩
  | .hbm, ⟨3, _⟩ => ⟨S128, .f32⟩
  | .hbm, ⟨4, _⟩ => ⟨S32x64, .f32⟩
  | .hbm, ⟨5, _⟩ => ⟨S32x64, .f32⟩
  | .hbm, ⟨6, _⟩ => ⟨S32x256x1024, .f32⟩
  | .hbm, ⟨7, _⟩ => ⟨S128x256, .f32⟩
  | .hbm, ⟨8, _⟩ => ⟨S32x128x1024, .f32⟩
  | .hbm, ⟨9, _⟩ => ⟨S32x128x1, .f32⟩
  | .hbm, ⟨10, _⟩ => ⟨S32x128x1, .f32⟩
  | .hbm, ⟨11, _⟩ => ⟨S_, .f32⟩
  | .hbm, ⟨12, _⟩ => ⟨S128x1, .f32⟩
  | .hbm, ⟨13, _⟩ => ⟨S128, .f32⟩
  | .hbm, ⟨14, _⟩ => ⟨S_, .f32⟩
  | .hbm, ⟨15, _⟩ => ⟨S128x1, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S32x128x32x32, .f32⟩
  | .hbm, ⟨36, _⟩ => ⟨S128x1x1, .f32⟩
  | .hbm, ⟨37, _⟩ => ⟨S128x1x1, .f32⟩
  | .hbm, ⟨38, _⟩ => ⟨S32x128x64x64, .f32⟩
  | .local _ .vmem, ⟨0, _⟩ => ⟨S1x256x1024, .f32⟩
  | .local _ .vmem, ⟨1, _⟩ => ⟨S1x256x1024, .f32⟩
  | .local _ .vmem, ⟨2, _⟩ => ⟨S128x256, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x32x32, .f32⟩
  | .local _ .vmem, ⟨10, _⟩ => ⟨S1x128x32x32, .f32⟩
  | .local _ .vmem, ⟨11, _⟩ => ⟨S128x1x1, .f32⟩
  | .local _ .vmem, ⟨12, _⟩ => ⟨S128x1x1, .f32⟩
  | .local _ .vmem, ⟨13, _⟩ => ⟨S32x64, .f32⟩
  | .local _ .vmem, ⟨14, _⟩ => ⟨S32x64, .f32⟩
  | .local _ .vmem, ⟨15, _⟩ => ⟨S1x128x64x64, .f32⟩
  | .local _ .vmem, ⟨16, _⟩ => ⟨S1x128x64x64, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x128x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S32x256x32x32_S32x256x1024 : S32x256x32x32.ShapeCasts S32x256x1024
  shapeCasts_S128x256x1x1_S128x256 : S128x256x1x1.ShapeCasts S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  reduces_S128x1024_S128 : S128x1024.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S32x128x1_S128x1_d0 : S32x128x1.ReducesTo [0] S128x1
  h_S_ : 0 < S_.numel
  shapeCasts_S128x1_S128 : S128x1.ShapeCasts S128
  bcast_S_S128 : S_.BroadcastsInDim S128 (![] : Fin 0 → Fin S128.rank)
  shapeCasts_S32x128x1024_S32x128x32x32 : S32x128x1024.ShapeCasts S32x128x32x32
  shapeCasts_S128_S128x1x1 : S128.ShapeCasts S128x1x1
  inb_S1x128x32x32_S1x128x32x32_0_0_0_0 : ∀ a, (![0, 0, 0, 0] : Fin 4 → Nat) a + S1x128x32x32.size a ≤ S1x128x32x32.size a
  h_S1x128x32x32 : 0 < S1x128x32x32.numel
  shapeCasts_S1x128x32x32_S128x32x32 : S1x128x32x32.ShapeCasts S128x32x32
  inb_S128x1x1_S128x1x1_0_0_0 : ∀ a, (![0, 0, 0] : Fin 3 → Nat) a + S128x1x1.size a ≤ S128x1x1.size a
  h_S128x1x1 : 0 < S128x1x1.numel
  shapeCasts_S128x1x1_S128x1x1 : S128x1x1.ShapeCasts S128x1x1
  broadcasts_S128x1x1_S128x32x32 : S128x1x1.Broadcasts S128x32x32
  transposes_S128x32x32_p0_2_1_S128x32x32 : S128x32x32.Transposes [0, 2, 1] S128x32x32
  shapeCasts_S128x32x32_S4096x32 : S128x32x32.ShapeCasts S4096x32
  inb_S32x64_S32x64_0_0 : ∀ a, (![0, 0] : Fin 2 → Nat) a + S32x64.size a ≤ S32x64.size a
  h_S32x64 : 0 < S32x64.numel
  shapeCasts_S4096x64_S128x32x64 : S4096x64.ShapeCasts S128x32x64
  transposes_S128x32x64_p0_2_1_S128x64x32 : S128x32x64.Transposes [0, 2, 1] S128x64x32
  shapeCasts_S128x64x32_S8192x32 : S128x64x32.ShapeCasts S8192x32
  shapeCasts_S8192x64_S128x64x64 : S8192x64.ShapeCasts S128x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  shapeCasts_S128x64x64_S1x128x64x64 : S128x64x64.ShapeCasts S1x128x64x64
  dot_S128x256_S256x1024_S128x1024_1_0_0_1_n_n_wf : DotDims.WF S128x256 S256x1024 S128x1024 [1] [0] [0] [1] [] []
  dot_S4096x32_S32x64_S4096x64_1_0_0_1_n_n_wf : DotDims.WF S4096x32 S32x64 S4096x64 [1] [0] [0] [1] [] []
  dot_S8192x32_S32x64_S8192x64_1_0_0_1_n_n_wf : DotDims.WF S8192x32 S32x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S32x128x1024.size a
  hwx0_2 : ∀ i : grid0.Coords, EltTy.bits .f32 = 32 ∨ (Rect.block (s := S32x128x1024) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S32x128x1.size a
  hwx0_3 : ∀ i : grid0.Coords, EltTy.bits .f32 = 32 ∨ (Rect.block (s := S32x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S32x128x1.size a
  hwx0_4 : ∀ i : grid0.Coords, EltTy.bits .f32 = 32 ∨ (Rect.block (s := S32x128x1) S1x128x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x32x32.size a ≤ S32x128x32x32.size a
  hwx1_0 : ∀ i : grid1.Coords, EltTy.bits .f32 = 32 ∨ (Rect.block (s := S32x128x32x32) S1x128x32x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1x1.size a ≤ S128x1x1.size a
  hwx1_1 : ∀ i : grid1.Coords, EltTy.bits .f32 = 32 ∨ (Rect.block (s := S128x1x1) S128x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1x1.size a ≤ S128x1x1.size a
  hwx1_2 : ∀ i : grid1.Coords, EltTy.bits .f32 = 32 ∨ (Rect.block (s := S128x1x1) S128x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x64x64.size a ≤ S32x128x64x64.size a
  hwx1_5 : ∀ i : grid1.Coords, EltTy.bits .f32 = 32 ∨ (Rect.block (s := S32x128x64x64) S1x128x64x64.size (cc1_transform_5 i) (hinb1_5 i)).WholeWords (EltTy.packing .f32)

variable [Facts₀]

def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S1x128x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_cst) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_cst_0) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128x64x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x256x32x32 : Shape := ⟨4, ![32, 256, 32, 32]⟩
abbrev S128x256x1x1 : Shape := ⟨4, ![128, 256, 1, 1]⟩
abbrev S128 : Shape := ⟨1, ![128]⟩
abbrev S64x32 : Shape := ⟨2, ![64, 32]⟩
abbrev S32x64 : Shape := ⟨2, ![32, 64]⟩
abbrev S128x256 : Shape := ⟨2, ![128, 256]⟩
abbrev S32x256x1024 : Shape := ⟨3, ![32, 256, 1024]⟩
abbrev S32x1x128x1 : Shape := ⟨4, ![32, 1, 128, 1]⟩
abbrev S1x256x1024 : Shape := ⟨3, ![1, 256, 1024]⟩
abbrev S1x1x128x1 : Shape := ⟨4, ![1, 1, 128, 1]⟩
abbrev S256x1024 : Shape := ⟨2, ![256, 1024]⟩
abbrev S128x1024 : Shape := ⟨2, ![128, 1024]⟩
abbrev S128x1 : Shape := ⟨2, ![128, 1]⟩
abbrev S_ : Shape := ⟨0, ![]⟩
abbrev S128x1x1 : Shape := ⟨3, ![128, 1, 1]⟩
abbrev S32x128x64x64 : Shape := ⟨4, ![32, 128, 64, 64]⟩
abbrev S1x256x32x32 : Shape := ⟨4, ![1, 256, 32, 32]⟩
abbrev S1x256x1x1 : Shape := ⟨4, ![1, 256, 1, 1]⟩
abbrev S1x1x1 : Shape := ⟨3, ![1, 1, 1]⟩
abbrev S1x1x64x64 : Shape := ⟨4, ![1, 1, 64, 64]⟩
abbrev S1x1x32x32 : Shape := ⟨4, ![1, 1, 32, 32]⟩
abbrev S32x32 : Shape := ⟨2, ![32, 32]⟩
abbrev S1x1x1x1 : Shape := ⟨4, ![1, 1, 1, 1]⟩
abbrev S1x1 : Shape := ⟨2, ![1, 1]⟩
abbrev S64x64 : Shape := ⟨2, ![64, 64]⟩

abbrev nBuf : Space → Nat
  | .hbm => 38
  | .vmem => 19
  | .smem => 0
  | _ => 0

abbrev bufTy : (tb : Table) → Fin (tcTables nBuf tb) → BufTy
  | .hbm, ⟨0, _⟩ => ⟨S32x256x32x32, .f32⟩
  | .hbm, ⟨1, _⟩ => ⟨S128x256x1x1, .f32⟩
  | .hbm, ⟨2, _⟩ => ⟨S128, .f32⟩
  | .hbm, ⟨3, _⟩ => ⟨S128, .f32⟩
  | .hbm, ⟨4, _⟩ => ⟨S64x32, .f32⟩
  | .hbm, ⟨5, _⟩ => ⟨S32x64, .f32⟩
  | .hbm, ⟨6, _⟩ => ⟨S128x256, .f32⟩
  | .hbm, ⟨7, _⟩ => ⟨S128x256x1x1, .f32⟩
  | .hbm, ⟨8, _⟩ => ⟨S32x256x1024, .f32⟩
  | .hbm, ⟨9, _⟩ => ⟨S32x1x128x1, .f32⟩
  | .hbm, ⟨10, _⟩ => ⟨S32x1x128x1, .f32⟩
  | .hbm, ⟨11, _⟩ => ⟨S_, .f32⟩
  | .hbm, ⟨12, _⟩ => ⟨S128x1, .f32⟩
  | .hbm, ⟨13, _⟩ => ⟨S128, .f32⟩
  | .hbm, ⟨14, _⟩ => ⟨S_, .f32⟩
  | .hbm, ⟨15, _⟩ => ⟨S128x1, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128x1x1, .f32⟩
  | .hbm, ⟨36, _⟩ => ⟨S128x1x1, .f32⟩
  | .hbm, ⟨37, _⟩ => ⟨S32x128x64x64, .f32⟩
  | .local _ .vmem, ⟨0, _⟩ => ⟨S1x256x1024, .f32⟩
  | .local _ .vmem, ⟨1, _⟩ => ⟨S1x256x1024, .f32⟩
  | .local _ .vmem, ⟨2, _⟩ => ⟨S128x256, .f32⟩
  | .local _ .vmem, ⟨3, _⟩ => ⟨S1x1x128x1, .f32⟩
  | .local _ .vmem, ⟨4, _⟩ => ⟨S1x1x128x1, .f32⟩
  | .local _ .vmem, ⟨5, _⟩ => ⟨S1x1x128x1, .f32⟩
  | .local _ .vmem, ⟨6, _⟩ => ⟨S1x1x128x1, .f32⟩
  | .local _ .vmem, ⟨7, _⟩ => ⟨S1x256x32x32, .f32⟩
  | .local _ .vmem, ⟨8, _⟩ => ⟨S1x256x32x32, .f32⟩
  | .local _ .vmem, ⟨9, _⟩ => ⟨S1x256x1x1, .f32⟩
  | .local _ .vmem, ⟨10, _⟩ => ⟨S1x256x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S64x32, .f32⟩
  | .local _ .vmem, ⟨16, _⟩ => ⟨S32x64, .f32⟩
  | .local _ .vmem, ⟨17, _⟩ => ⟨S1x1x64x64, .f32⟩
  | .local _ .vmem, ⟨18, _⟩ => ⟨S1x1x64x64, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 128], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S128x256x1x1_S128x256 : S128x256x1x1.ShapeCasts S128x256
  shapeCasts_S128x256_S128x256x1x1 : S128x256.ShapeCasts S128x256x1x1
  shapeCasts_S32x256x32x32_S32x256x1024 : S32x256x32x32.ShapeCasts S32x256x1024
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S128x1024_S128 : S128x1024.Reduces [1] S128
  shapeCasts_S128_S128x1 : S128.ShapeCasts S128x1
  inb_S1x1x128x1_S1x1x128x1_0_0_0_0 : ∀ a, (![0, 0, 0, 0] : Fin 4 → Nat) a + S1x1x128x1.size a ≤ S1x1x128x1.size a
  h_S1x1x128x1 : 0 < S1x1x128x1.numel
  shapeCasts_S1x1x128x1_S128x1 : S1x1x128x1.ShapeCasts S128x1
  shapeCasts_S128x1_S1x1x128x1 : S128x1.ShapeCasts S1x1x128x1
  reducesTo_S32x1x128x1_S128x1_d0_1 : S32x1x128x1.ReducesTo [0, 1] S128x1
  h_S_ : 0 < S_.numel
  shapeCasts_S128x1_S128 : S128x1.ShapeCasts S128
  bcast_S_S128 : S_.BroadcastsInDim S128 (![] : Fin 0 → Fin S128.rank)
  shapeCasts_S128_S128x1x1 : S128.ShapeCasts S128x1x1
  inb_S1x256x32x32_S1x1x32x32_0_0_0_0 : ∀ a, (![0, 0, 0, 0] : Fin 4 → Nat) a + S1x1x32x32.size a ≤ S1x256x32x32.size a
  h_S1x1x32x32 : 0 < S1x1x32x32.numel
  shapeCasts_S1x1x32x32_S32x32 : S1x1x32x32.ShapeCasts S32x32
  inb_S1x256x1x1_S1x1x1x1_0_0_0_0 : ∀ a, (![0, 0, 0, 0] : Fin 4 → Nat) a + S1x1x1x1.size a ≤ S1x256x1x1.size a
  h_S1x1x1x1 : 0 < S1x1x1x1.numel
  shapeCasts_S1x1x1x1_S1x1 : S1x1x1x1.ShapeCasts S1x1
  broadcasts_S1x1_S32x32 : S1x1.Broadcasts S32x32
  inb_S1x256x32x32_S1x1x32x32_0_1_0_0 : ∀ a, (![0, 1, 0, 0] : Fin 4 → Nat) a + S1x1x32x32.size a ≤ S1x256x32x32.size a
  inb_S1x256x1x1_S1x1x1x1_0_1_0_0 : ∀ a, (![0, 1, 0, 0] : Fin 4 → Nat) a + S1x1x1x1.size a ≤ S1x256x1x1.size a
  inb_S1x256x32x32_S1x1x32x32_0_2_0_0 : ∀ a, (![0, 2, 0, 0] : Fin 4 → Nat) a + S1x1x32x32.size a ≤ S1x256x32x32.size a
  inb_S1x256x1x1_S1x1x1x1_0_2_0_0 : ∀ a, (![0, 2, 0, 0] : Fin 4 → Nat) a + S1x1x1x1.size a ≤ S1x256x1x1.size a
  inb_S1x256x32x32_S1x1x32x32_0_3_0_0 : ∀ a, (![0, 3, 0, 0] : Fin 4 → Nat) a + S1x1x32x32.size a ≤ S1x256x32x32.size a
  inb_S1x256x1x1_S1x1x1x1_0_3_0_0 : ∀ a, (![0, 3, 0, 0] : Fin 4 → Nat) a + S1x1x1x1.size a ≤ S1x256x1x1.size a
  inb_S1x256x32x32_S1x1x32x32_0_4_0_0 : ∀ a, (![0, 4, 0, 0] : Fin 4 → Nat) a + S1x1x32x32.size a ≤ S1x256x32x32.size a
  inb_S1x256x1x1_S1x1x1x1_0_4_0_0 : ∀ a, (![0, 4, 0, 0] : Fin 4 → Nat) a + S1x1x1x1.size a ≤ S1x256x1x1.size a
  inb_S1x256x32x32_S1x1x32x32_0_5_0_0 : ∀ a, (![0, 5, 0, 0] : Fin 4 → Nat) a + S1x1x32x32.size a ≤ S1x256x32x32.size a
  inb_S1x256x1x1_S1x1x1x1_0_5_0_0 : ∀ a, (![0, 5, 0, 0] : Fin 4 → Nat) a + S1x1x1x1.size a ≤ S1x256x1x1.size a
  inb_S1x256x32x32_S1x1x32x32_0_6_0_0 : ∀ a, (![0, 6, 0, 0] : Fin 4 → Nat) a + S1x1x32x32.size a ≤ S1x256x32x32.size a
  inb_S1x256x1x1_S1x1x1x1_0_6_0_0 : ∀ a, (![0, 6, 0, 0] : Fin 4 → Nat) a + S1x1x1x1.size a ≤ S1x256x1x1.size a
  inb_S1x256x32x32_S1x1x32x32_0_7_0_0 : ∀ a, (![0, 7, 0, 0] : Fin 4 → Nat) a + S1x1x32x32.size a ≤ S1x256x32x32.size a
  inb_S1x256x1x1_S1x1x1x1_0_7_0_0 : ∀ a, (![0, 7, 0, 0] : Fin 4 → Nat) a + S1x1x1x1.size a ≤ S1x256x1x1.size a
  inb_S1x256x32x32_S1x1x32x32_0_8_0_0 : ∀ a, (![0, 8, 0, 0] : Fin 4 → Nat) a + S1x1x32x32.size a ≤ S1x256x32x32.size a
  inb_S1x256x1x1_S1x1x1x1_0_8_0_0 : ∀ a, (![0, 8, 0, 0] : Fin 4 → Nat) a + S1x1x1x1.size a ≤ S1x256x1x1.size a
  inb_S1x256x32x32_S1x1x32x32_0_9_0_0 : ∀ a, (![0, 9, 0, 0] : Fin 4 → Nat) a + S1x1x32x32.size a ≤ S1x256x32x32.size a
  inb_S1x256x1x1_S1x1x1x1_0_9_0_0 : ∀ a, (![0, 9, 0, 0] : Fin 4 → Nat) a + S1x1x1x1.size a ≤ S1x256x1x1.size a
  inb_S1x256x32x32_S1x1x32x32_0_10_0_0 : ∀ a, (![0, 10, 0, 0] : Fin 4 → Nat) a + S1x1x32x32.size a ≤ S1x256x32x32.size a
  inb_S1x256x1x1_S1x1x1x1_0_10_0_0 : ∀ a, (![0, 10, 0, 0] : Fin 4 → Nat) a + S1x1x1x1.size a ≤ S1x256x1x1.size a
  inb_S1x256x32x32_S1x1x32x32_0_11_0_0 : ∀ a, (![0, 11, 0, 0] : Fin 4 → Nat) a + S1x1x32x32.size a ≤ S1x256x32x32.size a
  inb_S1x256x1x1_S1x1x1x1_0_11_0_0 : ∀ a, (![0, 11, 0, 0] : Fin 4 → Nat) a + S1x1x1x1.size a ≤ S1x256x1x1.size a
  inb_S1x256x32x32_S1x1x32x32_0_12_0_0 : ∀ a, (![0, 12, 0, 0] : Fin 4 → Nat) a + S1x1x32x32.size a ≤ S1x256x32x32.size a
  inb_S1x256x1x1_S1x1x1x1_0_12_0_0 : ∀ a, (![0, 12, 0, 0] : Fin 4 → Nat) a + S1x1x1x1.size a ≤ S1x256x1x1.size a
  inb_S1x256x32x32_S1x1x32x32_0_13_0_0 : ∀ a, (![0, 13, 0, 0] : Fin 4 → Nat) a + S1x1x32x32.size a ≤ S1x256x32x32.size a
  inb_S1x256x1x1_S1x1x1x1_0_13_0_0 : ∀ a, (![0, 13, 0, 0] : Fin 4 → Nat) a + S1x1x1x1.size a ≤ S1x256x1x1.size a
  inb_S1x256x32x32_S1x1x32x32_0_14_0_0 : ∀ a, (![0, 14, 0, 0] : Fin 4 → Nat) a + S1x1x32x32.size a ≤ S1x256x32x32.size a
  inb_S1x256x1x1_S1x1x1x1_0_14_0_0 : ∀ a, (![0, 14, 0, 0] : Fin 4 → Nat) a + S1x1x1x1.size a ≤ S1x256x1x1.size a
  inb_S1x256x32x32_S1x1x32x32_0_15_0_0 : ∀ a, (![0, 15, 0, 0] : Fin 4 → Nat) a + S1x1x32x32.size a ≤ S1x256x32x32.size a
  inb_S1x256x1x1_S1x1x1x1_0_15_0_0 : ∀ a, (![0, 15, 0, 0] : Fin 4 → Nat) a + S1x1x1x1.size a ≤ S1x256x1x1.size a
  inb_S1x256x32x32_S1x1x32x32_0_16_0_0 : ∀ a, (![0, 16, 0, 0] : Fin 4 → Nat) a + S1x1x32x32.size a ≤ S1x256x32x32.size a
  inb_S1x256x1x1_S1x1x1x1_0_16_0_0 : ∀ a, (![0, 16, 0, 0] : Fin 4 → Nat) a + S1x1x1x1.size a ≤ S1x256x1x1.size a
  inb_S1x256x32x32_S1x1x32x32_0_17_0_0 : ∀ a, (![0, 17, 0, 0] : Fin 4 → Nat) a + S1x1x32x32.size a ≤ S1x256x32x32.size a
  inb_S1x256x1x1_S1x1x1x1_0_17_0_0 : ∀ a, (![0, 17, 0, 0] : Fin 4 → Nat) a + S1x1x1x1.size a ≤ S1x256x1x1.size a
  inb_S1x256x32x32_S1x1x32x32_0_18_0_0 : ∀ a, (![0, 18, 0, 0] : Fin 4 → Nat) a + S1x1x32x32.size a ≤ S1x256x32x32.size a
  inb_S1x256x1x1_S1x1x1x1_0_18_0_0 : ∀ a, (![0, 18, 0, 0] : Fin 4 → Nat) a + S1x1x1x1.size a ≤ S1x256x1x1.size a
  inb_S1x256x32x32_S1x1x32x32_0_19_0_0 : ∀ a, (![0, 19, 0, 0] : Fin 4 → Nat) a + S1x1x32x32.size a ≤ S1x256x32x32.size a
  inb_S1x256x1x1_S1x1x1x1_0_19_0_0 : ∀ a, (![0, 19, 0, 0] : Fin 4 → Nat) a + S1x1x1x1.size a ≤ S1x256x1x1.size a
  inb_S1x256x32x32_S1x1x32x32_0_20_0_0 : ∀ a, (![0, 20, 0, 0] : Fin 4 → Nat) a + S1x1x32x32.size a ≤ S1x256x32x32.size a
  inb_S1x256x1x1_S1x1x1x1_0_20_0_0 : ∀ a, (![0, 20, 0, 0] : Fin 4 → Nat) a + S1x1x1x1.size a ≤ S1x256x1x1.size a
  inb_S1x256x32x32_S1x1x32x32_0_21_0_0 : ∀ a, (![0, 21, 0, 0] : Fin 4 → Nat) a + S1x1x32x32.size a ≤ S1x256x32x32.size a
  inb_S1x256x1x1_S1x1x1x1_0_21_0_0 : ∀ a, (![0, 21, 0, 0] : Fin 4 → Nat) a + S1x1x1x1.size a ≤ S1x256x1x1.size a
  inb_S1x256x32x32_S1x1x32x32_0_22_0_0 : ∀ a, (![0, 22, 0, 0] : Fin 4 → Nat) a + S1x1x32x32.size a ≤ S1x256x32x32.size a
  inb_S1x256x1x1_S1x1x1x1_0_22_0_0 : ∀ a, (![0, 22, 0, 0] : Fin 4 → Nat) a + S1x1x1x1.size a ≤ S1x256x1x1.size a
  inb_S1x256x32x32_S1x1x32x32_0_23_0_0 : ∀ a, (![0, 23, 0, 0] : Fin 4 → Nat) a + S1x1x32x32.size a ≤ S1x256x32x32.size a
  inb_S1x256x1x1_S1x1x1x1_0_23_0_0 : ∀ a, (![0, 23, 0, 0] : Fin 4 → Nat) a + S1x1x1x1.size a ≤ S1x256x1x1.size a
  inb_S1x256x32x32_S1x1x32x32_0_24_0_0 : ∀ a, (![0, 24, 0, 0] : Fin 4 → Nat) a + S1x1x32x32.size a ≤ S1x256x32x32.size a
  inb_S1x256x1x1_S1x1x1x1_0_24_0_0 : ∀ a, (![0, 24, 0, 0] : Fin 4 → Nat) a + S1x1x1x1.size a ≤ S1x256x1x1.size a
  inb_S1x256x32x32_S1x1x32x32_0_25_0_0 : ∀ a, (![0, 25, 0, 0] : Fin 4 → Nat) a + S1x1x32x32.size a ≤ S1x256x32x32.size a
  inb_S1x256x1x1_S1x1x1x1_0_25_0_0 : ∀ a, (![0, 25, 0, 0] : Fin 4 → Nat) a + S1x1x1x1.size a ≤ S1x256x1x1.size a
  inb_S1x256x32x32_S1x1x32x32_0_26_0_0 : ∀ a, (![0, 26, 0, 0] : Fin 4 → Nat) a + S1x1x32x32.size a ≤ S1x256x32x32.size a
  inb_S1x256x1x1_S1x1x1x1_0_26_0_0 : ∀ a, (![0, 26, 0, 0] : Fin 4 → Nat) a + S1x1x1x1.size a ≤ S1x256x1x1.size a
  inb_S1x256x32x32_S1x1x32x32_0_27_0_0 : ∀ a, (![0, 27, 0, 0] : Fin 4 → Nat) a + S1x1x32x32.size a ≤ S1x256x32x32.size a
  inb_S1x256x1x1_S1x1x1x1_0_27_0_0 : ∀ a, (![0, 27, 0, 0] : Fin 4 → Nat) a + S1x1x1x1.size a ≤ S1x256x1x1.size a
  inb_S1x256x32x32_S1x1x32x32_0_28_0_0 : ∀ a, (![0, 28, 0, 0] : Fin 4 → Nat) a + S1x1x32x32.size a ≤ S1x256x32x32.size a
  inb_S1x256x1x1_S1x1x1x1_0_28_0_0 : ∀ a, (![0, 28, 0, 0] : Fin 4 → Nat) a + S1x1x1x1.size a ≤ S1x256x1x1.size a
  inb_S1x256x32x32_S1x1x32x32_0_29_0_0 : ∀ a, (![0, 29, 0, 0] : Fin 4 → Nat) a + S1x1x32x32.size a ≤ S1x256x32x32.size a
  inb_S1x256x1x1_S1x1x1x1_0_29_0_0 : ∀ a, (![0, 29, 0, 0] : Fin 4 → Nat) a + S1x1x1x1.size a ≤ S1x256x1x1.size a
  inb_S1x256x32x32_S1x1x32x32_0_30_0_0 : ∀ a, (![0, 30, 0, 0] : Fin 4 → Nat) a + S1x1x32x32.size a ≤ S1x256x32x32.size a
  inb_S1x256x1x1_S1x1x1x1_0_30_0_0 : ∀ a, (![0, 30, 0, 0] : Fin 4 → Nat) a + S1x1x1x1.size a ≤ S1x256x1x1.size a
  inb_S1x256x32x32_S1x1x32x32_0_31_0_0 : ∀ a, (![0, 31, 0, 0] : Fin 4 → Nat) a + S1x1x32x32.size a ≤ S1x256x32x32.size a
  inb_S1x256x1x1_S1x1x1x1_0_31_0_0 : ∀ a, (![0, 31, 0, 0] : Fin 4 → Nat) a + S1x1x1x1.size a ≤ S1x256x1x1.size a
  inb_S1x256x32x32_S1x1x32x32_0_32_0_0 : ∀ a, (![0, 32, 0, 0] : Fin 4 → Nat) a + S1x1x32x32.size a ≤ S1x256x32x32.size a
  inb_S1x256x1x1_S1x1x1x1_0_32_0_0 : ∀ a, (![0, 32, 0, 0] : Fin 4 → Nat) a + S1x1x1x1.size a ≤ S1x256x1x1.size a
  inb_S1x256x32x32_S1x1x32x32_0_33_0_0 : ∀ a, (![0, 33, 0, 0] : Fin 4 → Nat) a + S1x1x32x32.size a ≤ S1x256x32x32.size a
  inb_S1x256x1x1_S1x1x1x1_0_33_0_0 : ∀ a, (![0, 33, 0, 0] : Fin 4 → Nat) a + S1x1x1x1.size a ≤ S1x256x1x1.size a
  inb_S1x256x32x32_S1x1x32x32_0_34_0_0 : ∀ a, (![0, 34, 0, 0] : Fin 4 → Nat) a + S1x1x32x32.size a ≤ S1x256x32x32.size a
  inb_S1x256x1x1_S1x1x1x1_0_34_0_0 : ∀ a, (![0, 34, 0, 0] : Fin 4 → Nat) a + S1x1x1x1.size a ≤ S1x256x1x1.size a
  inb_S1x256x32x32_S1x1x32x32_0_35_0_0 : ∀ a, (![0, 35, 0, 0] : Fin 4 → Nat) a + S1x1x32x32.size a ≤ S1x256x32x32.size a
  inb_S1x256x1x1_S1x1x1x1_0_35_0_0 : ∀ a, (![0, 35, 0, 0] : Fin 4 → Nat) a + S1x1x1x1.size a ≤ S1x256x1x1.size a
  inb_S1x256x32x32_S1x1x32x32_0_36_0_0 : ∀ a, (![0, 36, 0, 0] : Fin 4 → Nat) a + S1x1x32x32.size a ≤ S1x256x32x32.size a
  inb_S1x256x1x1_S1x1x1x1_0_36_0_0 : ∀ a, (![0, 36, 0, 0] : Fin 4 → Nat) a + S1x1x1x1.size a ≤ S1x256x1x1.size a
  inb_S1x256x32x32_S1x1x32x32_0_37_0_0 : ∀ a, (![0, 37, 0, 0] : Fin 4 → Nat) a + S1x1x32x32.size a ≤ S1x256x32x32.size a
  inb_S1x256x1x1_S1x1x1x1_0_37_0_0 : ∀ a, (![0, 37, 0, 0] : Fin 4 → Nat) a + S1x1x1x1.size a ≤ S1x256x1x1.size a
  inb_S1x256x32x32_S1x1x32x32_0_38_0_0 : ∀ a, (![0, 38, 0, 0] : Fin 4 → Nat) a + S1x1x32x32.size a ≤ S1x256x32x32.size a
  inb_S1x256x1x1_S1x1x1x1_0_38_0_0 : ∀ a, (![0, 38, 0, 0] : Fin 4 → Nat) a + S1x1x1x1.size a ≤ S1x256x1x1.size a
  inb_S1x256x32x32_S1x1x32x32_0_39_0_0 : ∀ a, (![0, 39, 0, 0] : Fin 4 → Nat) a + S1x1x32x32.size a ≤ S1x256x32x32.size a
  inb_S1x256x1x1_S1x1x1x1_0_39_0_0 : ∀ a, (![0, 39, 0, 0] : Fin 4 → Nat) a + S1x1x1x1.size a ≤ S1x256x1x1.size a
  inb_S1x256x32x32_S1x1x32x32_0_40_0_0 : ∀ a, (![0, 40, 0, 0] : Fin 4 → Nat) a + S1x1x32x32.size a ≤ S1x256x32x32.size a
  inb_S1x256x1x1_S1x1x1x1_0_40_0_0 : ∀ a, (![0, 40, 0, 0] : Fin 4 → Nat) a + S1x1x1x1.size a ≤ S1x256x1x1.size a
  inb_S1x256x32x32_S1x1x32x32_0_41_0_0 : ∀ a, (![0, 41, 0, 0] : Fin 4 → Nat) a + S1x1x32x32.size a ≤ S1x256x32x32.size a
  inb_S1x256x1x1_S1x1x1x1_0_41_0_0 : ∀ a, (![0, 41, 0, 0] : Fin 4 → Nat) a + S1x1x1x1.size a ≤ S1x256x1x1.size a
  inb_S1x256x32x32_S1x1x32x32_0_42_0_0 : ∀ a, (![0, 42, 0, 0] : Fin 4 → Nat) a + S1x1x32x32.size a ≤ S1x256x32x32.size a
  inb_S1x256x1x1_S1x1x1x1_0_42_0_0 : ∀ a, (![0, 42, 0, 0] : Fin 4 → Nat) a + S1x1x1x1.size a ≤ S1x256x1x1.size a
  inb_S1x256x32x32_S1x1x32x32_0_43_0_0 : ∀ a, (![0, 43, 0, 0] : Fin 4 → Nat) a + S1x1x32x32.size a ≤ S1x256x32x32.size a
  inb_S1x256x1x1_S1x1x1x1_0_43_0_0 : ∀ a, (![0, 43, 0, 0] : Fin 4 → Nat) a + S1x1x1x1.size a ≤ S1x256x1x1.size a
  inb_S1x256x32x32_S1x1x32x32_0_44_0_0 : ∀ a, (![0, 44, 0, 0] : Fin 4 → Nat) a + S1x1x32x32.size a ≤ S1x256x32x32.size a
  inb_S1x256x1x1_S1x1x1x1_0_44_0_0 : ∀ a, (![0, 44, 0, 0] : Fin 4 → Nat) a + S1x1x1x1.size a ≤ S1x256x1x1.size a
  inb_S1x256x32x32_S1x1x32x32_0_45_0_0 : ∀ a, (![0, 45, 0, 0] : Fin 4 → Nat) a + S1x1x32x32.size a ≤ S1x256x32x32.size a
  inb_S1x256x1x1_S1x1x1x1_0_45_0_0 : ∀ a, (![0, 45, 0, 0] : Fin 4 → Nat) a + S1x1x1x1.size a ≤ S1x256x1x1.size a
  inb_S1x256x32x32_S1x1x32x32_0_46_0_0 : ∀ a, (![0, 46, 0, 0] : Fin 4 → Nat) a + S1x1x32x32.size a ≤ S1x256x32x32.size a
  inb_S1x256x1x1_S1x1x1x1_0_46_0_0 : ∀ a, (![0, 46, 0, 0] : Fin 4 → Nat) a + S1x1x1x1.size a ≤ S1x256x1x1.size a
  inb_S1x256x32x32_S1x1x32x32_0_47_0_0 : ∀ a, (![0, 47, 0, 0] : Fin 4 → Nat) a + S1x1x32x32.size a ≤ S1x256x32x32.size a
  inb_S1x256x1x1_S1x1x1x1_0_47_0_0 : ∀ a, (![0, 47, 0, 0] : Fin 4 → Nat) a + S1x1x1x1.size a ≤ S1x256x1x1.size a
  inb_S1x256x32x32_S1x1x32x32_0_48_0_0 : ∀ a, (![0, 48, 0, 0] : Fin 4 → Nat) a + S1x1x32x32.size a ≤ S1x256x32x32.size a
  inb_S1x256x1x1_S1x1x1x1_0_48_0_0 : ∀ a, (![0, 48, 0, 0] : Fin 4 → Nat) a + S1x1x1x1.size a ≤ S1x256x1x1.size a
  inb_S1x256x32x32_S1x1x32x32_0_49_0_0 : ∀ a, (![0, 49, 0, 0] : Fin 4 → Nat) a + S1x1x32x32.size a ≤ S1x256x32x32.size a
  inb_S1x256x1x1_S1x1x1x1_0_49_0_0 : ∀ a, (![0, 49, 0, 0] : Fin 4 → Nat) a + S1x1x1x1.size a ≤ S1x256x1x1.size a
  inb_S1x256x32x32_S1x1x32x32_0_50_0_0 : ∀ a, (![0, 50, 0, 0] : Fin 4 → Nat) a + S1x1x32x32.size a ≤ S1x256x32x32.size a
  inb_S1x256x1x1_S1x1x1x1_0_50_0_0 : ∀ a, (![0, 50, 0, 0] : Fin 4 → Nat) a + S1x1x1x1.size a ≤ S1x256x1x1.size a
  inb_S1x256x32x32_S1x1x32x32_0_51_0_0 : ∀ a, (![0, 51, 0, 0] : Fin 4 → Nat) a + S1x1x32x32.size a ≤ S1x256x32x32.size a
  inb_S1x256x1x1_S1x1x1x1_0_51_0_0 : ∀ a, (![0, 51, 0, 0] : Fin 4 → Nat) a + S1x1x1x1.size a ≤ S1x256x1x1.size a
  inb_S1x256x32x32_S1x1x32x32_0_52_0_0 : ∀ a, (![0, 52, 0, 0] : Fin 4 → Nat) a + S1x1x32x32.size a ≤ S1x256x32x32.size a
  inb_S1x256x1x1_S1x1x1x1_0_52_0_0 : ∀ a, (![0, 52, 0, 0] : Fin 4 → Nat) a + S1x1x1x1.size a ≤ S1x256x1x1.size a
  inb_S1x256x32x32_S1x1x32x32_0_53_0_0 : ∀ a, (![0, 53, 0, 0] : Fin 4 → Nat) a + S1x1x32x32.size a ≤ S1x256x32x32.size a
  inb_S1x256x1x1_S1x1x1x1_0_53_0_0 : ∀ a, (![0, 53, 0, 0] : Fin 4 → Nat) a + S1x1x1x1.size a ≤ S1x256x1x1.size a
  inb_S1x256x32x32_S1x1x32x32_0_54_0_0 : ∀ a, (![0, 54, 0, 0] : Fin 4 → Nat) a + S1x1x32x32.size a ≤ S1x256x32x32.size a
  inb_S1x256x1x1_S1x1x1x1_0_54_0_0 : ∀ a, (![0, 54, 0, 0] : Fin 4 → Nat) a + S1x1x1x1.size a ≤ S1x256x1x1.size a
  inb_S1x256x32x32_S1x1x32x32_0_55_0_0 : ∀ a, (![0, 55, 0, 0] : Fin 4 → Nat) a + S1x1x32x32.size a ≤ S1x256x32x32.size a
  inb_S1x256x1x1_S1x1x1x1_0_55_0_0 : ∀ a, (![0, 55, 0, 0] : Fin 4 → Nat) a + S1x1x1x1.size a ≤ S1x256x1x1.size a
  inb_S1x256x32x32_S1x1x32x32_0_56_0_0 : ∀ a, (![0, 56, 0, 0] : Fin 4 → Nat) a + S1x1x32x32.size a ≤ S1x256x32x32.size a
  inb_S1x256x1x1_S1x1x1x1_0_56_0_0 : ∀ a, (![0, 56, 0, 0] : Fin 4 → Nat) a + S1x1x1x1.size a ≤ S1x256x1x1.size a
  inb_S1x256x32x32_S1x1x32x32_0_57_0_0 : ∀ a, (![0, 57, 0, 0] : Fin 4 → Nat) a + S1x1x32x32.size a ≤ S1x256x32x32.size a
  inb_S1x256x1x1_S1x1x1x1_0_57_0_0 : ∀ a, (![0, 57, 0, 0] : Fin 4 → Nat) a + S1x1x1x1.size a ≤ S1x256x1x1.size a
  inb_S1x256x32x32_S1x1x32x32_0_58_0_0 : ∀ a, (![0, 58, 0, 0] : Fin 4 → Nat) a + S1x1x32x32.size a ≤ S1x256x32x32.size a
  inb_S1x256x1x1_S1x1x1x1_0_58_0_0 : ∀ a, (![0, 58, 0, 0] : Fin 4 → Nat) a + S1x1x1x1.size a ≤ S1x256x1x1.size a
  inb_S1x256x32x32_S1x1x32x32_0_59_0_0 : ∀ a, (![0, 59, 0, 0] : Fin 4 → Nat) a + S1x1x32x32.size a ≤ S1x256x32x32.size a
  inb_S1x256x1x1_S1x1x1x1_0_59_0_0 : ∀ a, (![0, 59, 0, 0] : Fin 4 → Nat) a + S1x1x1x1.size a ≤ S1x256x1x1.size a
  inb_S1x256x32x32_S1x1x32x32_0_60_0_0 : ∀ a, (![0, 60, 0, 0] : Fin 4 → Nat) a + S1x1x32x32.size a ≤ S1x256x32x32.size a
  inb_S1x256x1x1_S1x1x1x1_0_60_0_0 : ∀ a, (![0, 60, 0, 0] : Fin 4 → Nat) a + S1x1x1x1.size a ≤ S1x256x1x1.size a
  inb_S1x256x32x32_S1x1x32x32_0_61_0_0 : ∀ a, (![0, 61, 0, 0] : Fin 4 → Nat) a + S1x1x32x32.size a ≤ S1x256x32x32.size a
  inb_S1x256x1x1_S1x1x1x1_0_61_0_0 : ∀ a, (![0, 61, 0, 0] : Fin 4 → Nat) a + S1x1x1x1.size a ≤ S1x256x1x1.size a
  inb_S1x256x32x32_S1x1x32x32_0_62_0_0 : ∀ a, (![0, 62, 0, 0] : Fin 4 → Nat) a + S1x1x32x32.size a ≤ S1x256x32x32.size a
  inb_S1x256x1x1_S1x1x1x1_0_62_0_0 : ∀ a, (![0, 62, 0, 0] : Fin 4 → Nat) a + S1x1x1x1.size a ≤ S1x256x1x1.size a
  inb_S1x256x32x32_S1x1x32x32_0_63_0_0 : ∀ a, (![0, 63, 0, 0] : Fin 4 → Nat) a + S1x1x32x32.size a ≤ S1x256x32x32.size a
  inb_S1x256x1x1_S1x1x1x1_0_63_0_0 : ∀ a, (![0, 63, 0, 0] : Fin 4 → Nat) a + S1x1x1x1.size a ≤ S1x256x1x1.size a
  inb_S1x256x32x32_S1x1x32x32_0_64_0_0 : ∀ a, (![0, 64, 0, 0] : Fin 4 → Nat) a + S1x1x32x32.size a ≤ S1x256x32x32.size a
  inb_S1x256x1x1_S1x1x1x1_0_64_0_0 : ∀ a, (![0, 64, 0, 0] : Fin 4 → Nat) a + S1x1x1x1.size a ≤ S1x256x1x1.size a
  inb_S1x256x32x32_S1x1x32x32_0_65_0_0 : ∀ a, (![0, 65, 0, 0] : Fin 4 → Nat) a + S1x1x32x32.size a ≤ S1x256x32x32.size a
  inb_S1x256x1x1_S1x1x1x1_0_65_0_0 : ∀ a, (![0, 65, 0, 0] : Fin 4 → Nat) a + S1x1x1x1.size a ≤ S1x256x1x1.size a
  inb_S1x256x32x32_S1x1x32x32_0_66_0_0 : ∀ a, (![0, 66, 0, 0] : Fin 4 → Nat) a + S1x1x32x32.size a ≤ S1x256x32x32.size a
  inb_S1x256x1x1_S1x1x1x1_0_66_0_0 : ∀ a, (![0, 66, 0, 0] : Fin 4 → Nat) a + S1x1x1x1.size a ≤ S1x256x1x1.size a
  inb_S1x256x32x32_S1x1x32x32_0_67_0_0 : ∀ a, (![0, 67, 0, 0] : Fin 4 → Nat) a + S1x1x32x32.size a ≤ S1x256x32x32.size a
  inb_S1x256x1x1_S1x1x1x1_0_67_0_0 : ∀ a, (![0, 67, 0, 0] : Fin 4 → Nat) a + S1x1x1x1.size a ≤ S1x256x1x1.size a
  inb_S1x256x32x32_S1x1x32x32_0_68_0_0 : ∀ a, (![0, 68, 0, 0] : Fin 4 → Nat) a + S1x1x32x32.size a ≤ S1x256x32x32.size a
  inb_S1x256x1x1_S1x1x1x1_0_68_0_0 : ∀ a, (![0, 68, 0, 0] : Fin 4 → Nat) a + S1x1x1x1.size a ≤ S1x256x1x1.size a
  inb_S1x256x32x32_S1x1x32x32_0_69_0_0 : ∀ a, (![0, 69, 0, 0] : Fin 4 → Nat) a + S1x1x32x32.size a ≤ S1x256x32x32.size a
  inb_S1x256x1x1_S1x1x1x1_0_69_0_0 : ∀ a, (![0, 69, 0, 0] : Fin 4 → Nat) a + S1x1x1x1.size a ≤ S1x256x1x1.size a
  inb_S1x256x32x32_S1x1x32x32_0_70_0_0 : ∀ a, (![0, 70, 0, 0] : Fin 4 → Nat) a + S1x1x32x32.size a ≤ S1x256x32x32.size a
  inb_S1x256x1x1_S1x1x1x1_0_70_0_0 : ∀ a, (![0, 70, 0, 0] : Fin 4 → Nat) a + S1x1x1x1.size a ≤ S1x256x1x1.size a
  inb_S1x256x32x32_S1x1x32x32_0_71_0_0 : ∀ a, (![0, 71, 0, 0] : Fin 4 → Nat) a + S1x1x32x32.size a ≤ S1x256x32x32.size a
  inb_S1x256x1x1_S1x1x1x1_0_71_0_0 : ∀ a, (![0, 71, 0, 0] : Fin 4 → Nat) a + S1x1x1x1.size a ≤ S1x256x1x1.size a
  inb_S1x256x32x32_S1x1x32x32_0_72_0_0 : ∀ a, (![0, 72, 0, 0] : Fin 4 → Nat) a + S1x1x32x32.size a ≤ S1x256x32x32.size a
  inb_S1x256x1x1_S1x1x1x1_0_72_0_0 : ∀ a, (![0, 72, 0, 0] : Fin 4 → Nat) a + S1x1x1x1.size a ≤ S1x256x1x1.size a
  inb_S1x256x32x32_S1x1x32x32_0_73_0_0 : ∀ a, (![0, 73, 0, 0] : Fin 4 → Nat) a + S1x1x32x32.size a ≤ S1x256x32x32.size a
  inb_S1x256x1x1_S1x1x1x1_0_73_0_0 : ∀ a, (![0, 73, 0, 0] : Fin 4 → Nat) a + S1x1x1x1.size a ≤ S1x256x1x1.size a
  inb_S1x256x32x32_S1x1x32x32_0_74_0_0 : ∀ a, (![0, 74, 0, 0] : Fin 4 → Nat) a + S1x1x32x32.size a ≤ S1x256x32x32.size a
  inb_S1x256x1x1_S1x1x1x1_0_74_0_0 : ∀ a, (![0, 74, 0, 0] : Fin 4 → Nat) a + S1x1x1x1.size a ≤ S1x256x1x1.size a
  inb_S1x256x32x32_S1x1x32x32_0_75_0_0 : ∀ a, (![0, 75, 0, 0] : Fin 4 → Nat) a + S1x1x32x32.size a ≤ S1x256x32x32.size a
  inb_S1x256x1x1_S1x1x1x1_0_75_0_0 : ∀ a, (![0, 75, 0, 0] : Fin 4 → Nat) a + S1x1x1x1.size a ≤ S1x256x1x1.size a
  inb_S1x256x32x32_S1x1x32x32_0_76_0_0 : ∀ a, (![0, 76, 0, 0] : Fin 4 → Nat) a + S1x1x32x32.size a ≤ S1x256x32x32.size a
  inb_S1x256x1x1_S1x1x1x1_0_76_0_0 : ∀ a, (![0, 76, 0, 0] : Fin 4 → Nat) a + S1x1x1x1.size a ≤ S1x256x1x1.size a
  inb_S1x256x32x32_S1x1x32x32_0_77_0_0 : ∀ a, (![0, 77, 0, 0] : Fin 4 → Nat) a + S1x1x32x32.size a ≤ S1x256x32x32.size a
  inb_S1x256x1x1_S1x1x1x1_0_77_0_0 : ∀ a, (![0, 77, 0, 0] : Fin 4 → Nat) a + S1x1x1x1.size a ≤ S1x256x1x1.size a
  inb_S1x256x32x32_S1x1x32x32_0_78_0_0 : ∀ a, (![0, 78, 0, 0] : Fin 4 → Nat) a + S1x1x32x32.size a ≤ S1x256x32x32.size a
  inb_S1x256x1x1_S1x1x1x1_0_78_0_0 : ∀ a, (![0, 78, 0, 0] : Fin 4 → Nat) a + S1x1x1x1.size a ≤ S1x256x1x1.size a
  inb_S1x256x32x32_S1x1x32x32_0_79_0_0 : ∀ a, (![0, 79, 0, 0] : Fin 4 → Nat) a + S1x1x32x32.size a ≤ S1x256x32x32.size a
  inb_S1x256x1x1_S1x1x1x1_0_79_0_0 : ∀ a, (![0, 79, 0, 0] : Fin 4 → Nat) a + S1x1x1x1.size a ≤ S1x256x1x1.size a
  inb_S1x256x32x32_S1x1x32x32_0_80_0_0 : ∀ a, (![0, 80, 0, 0] : Fin 4 → Nat) a + S1x1x32x32.size a ≤ S1x256x32x32.size a
  inb_S1x256x1x1_S1x1x1x1_0_80_0_0 : ∀ a, (![0, 80, 0, 0] : Fin 4 → Nat) a + S1x1x1x1.size a ≤ S1x256x1x1.size a
  inb_S1x256x32x32_S1x1x32x32_0_81_0_0 : ∀ a, (![0, 81, 0, 0] : Fin 4 → Nat) a + S1x1x32x32.size a ≤ S1x256x32x32.size a
  inb_S1x256x1x1_S1x1x1x1_0_81_0_0 : ∀ a, (![0, 81, 0, 0] : Fin 4 → Nat) a + S1x1x1x1.size a ≤ S1x256x1x1.size a
  inb_S1x256x32x32_S1x1x32x32_0_82_0_0 : ∀ a, (![0, 82, 0, 0] : Fin 4 → Nat) a + S1x1x32x32.size a ≤ S1x256x32x32.size a
  inb_S1x256x1x1_S1x1x1x1_0_82_0_0 : ∀ a, (![0, 82, 0, 0] : Fin 4 → Nat) a + S1x1x1x1.size a ≤ S1x256x1x1.size a
  inb_S1x256x32x32_S1x1x32x32_0_83_0_0 : ∀ a, (![0, 83, 0, 0] : Fin 4 → Nat) a + S1x1x32x32.size a ≤ S1x256x32x32.size a
  inb_S1x256x1x1_S1x1x1x1_0_83_0_0 : ∀ a, (![0, 83, 0, 0] : Fin 4 → Nat) a + S1x1x1x1.size a ≤ S1x256x1x1.size a
  inb_S1x256x32x32_S1x1x32x32_0_84_0_0 : ∀ a, (![0, 84, 0, 0] : Fin 4 → Nat) a + S1x1x32x32.size a ≤ S1x256x32x32.size a
  inb_S1x256x1x1_S1x1x1x1_0_84_0_0 : ∀ a, (![0, 84, 0, 0] : Fin 4 → Nat) a + S1x1x1x1.size a ≤ S1x256x1x1.size a
  inb_S1x256x32x32_S1x1x32x32_0_85_0_0 : ∀ a, (![0, 85, 0, 0] : Fin 4 → Nat) a + S1x1x32x32.size a ≤ S1x256x32x32.size a
  inb_S1x256x1x1_S1x1x1x1_0_85_0_0 : ∀ a, (![0, 85, 0, 0] : Fin 4 → Nat) a + S1x1x1x1.size a ≤ S1x256x1x1.size a
  inb_S1x256x32x32_S1x1x32x32_0_86_0_0 : ∀ a, (![0, 86, 0, 0] : Fin 4 → Nat) a + S1x1x32x32.size a ≤ S1x256x32x32.size a
  inb_S1x256x1x1_S1x1x1x1_0_86_0_0 : ∀ a, (![0, 86, 0, 0] : Fin 4 → Nat) a + S1x1x1x1.size a ≤ S1x256x1x1.size a
  inb_S1x256x32x32_S1x1x32x32_0_87_0_0 : ∀ a, (![0, 87, 0, 0] : Fin 4 → Nat) a + S1x1x32x32.size a ≤ S1x256x32x32.size a
  inb_S1x256x1x1_S1x1x1x1_0_87_0_0 : ∀ a, (![0, 87, 0, 0] : Fin 4 → Nat) a + S1x1x1x1.size a ≤ S1x256x1x1.size a
  inb_S1x256x32x32_S1x1x32x32_0_88_0_0 : ∀ a, (![0, 88, 0, 0] : Fin 4 → Nat) a + S1x1x32x32.size a ≤ S1x256x32x32.size a
  inb_S1x256x1x1_S1x1x1x1_0_88_0_0 : ∀ a, (![0, 88, 0, 0] : Fin 4 → Nat) a + S1x1x1x1.size a ≤ S1x256x1x1.size a
  inb_S1x256x32x32_S1x1x32x32_0_89_0_0 : ∀ a, (![0, 89, 0, 0] : Fin 4 → Nat) a + S1x1x32x32.size a ≤ S1x256x32x32.size a
  inb_S1x256x1x1_S1x1x1x1_0_89_0_0 : ∀ a, (![0, 89, 0, 0] : Fin 4 → Nat) a + S1x1x1x1.size a ≤ S1x256x1x1.size a
  inb_S1x256x32x32_S1x1x32x32_0_90_0_0 : ∀ a, (![0, 90, 0, 0] : Fin 4 → Nat) a + S1x1x32x32.size a ≤ S1x256x32x32.size a
  inb_S1x256x1x1_S1x1x1x1_0_90_0_0 : ∀ a, (![0, 90, 0, 0] : Fin 4 → Nat) a + S1x1x1x1.size a ≤ S1x256x1x1.size a
  inb_S1x256x32x32_S1x1x32x32_0_91_0_0 : ∀ a, (![0, 91, 0, 0] : Fin 4 → Nat) a + S1x1x32x32.size a ≤ S1x256x32x32.size a
  inb_S1x256x1x1_S1x1x1x1_0_91_0_0 : ∀ a, (![0, 91, 0, 0] : Fin 4 → Nat) a + S1x1x1x1.size a ≤ S1x256x1x1.size a
  inb_S1x256x32x32_S1x1x32x32_0_92_0_0 : ∀ a, (![0, 92, 0, 0] : Fin 4 → Nat) a + S1x1x32x32.size a ≤ S1x256x32x32.size a
  inb_S1x256x1x1_S1x1x1x1_0_92_0_0 : ∀ a, (![0, 92, 0, 0] : Fin 4 → Nat) a + S1x1x1x1.size a ≤ S1x256x1x1.size a
  inb_S1x256x32x32_S1x1x32x32_0_93_0_0 : ∀ a, (![0, 93, 0, 0] : Fin 4 → Nat) a + S1x1x32x32.size a ≤ S1x256x32x32.size a
  inb_S1x256x1x1_S1x1x1x1_0_93_0_0 : ∀ a, (![0, 93, 0, 0] : Fin 4 → Nat) a + S1x1x1x1.size a ≤ S1x256x1x1.size a
  inb_S1x256x32x32_S1x1x32x32_0_94_0_0 : ∀ a, (![0, 94, 0, 0] : Fin 4 → Nat) a + S1x1x32x32.size a ≤ S1x256x32x32.size a
  inb_S1x256x1x1_S1x1x1x1_0_94_0_0 : ∀ a, (![0, 94, 0, 0] : Fin 4 → Nat) a + S1x1x1x1.size a ≤ S1x256x1x1.size a
  inb_S1x256x32x32_S1x1x32x32_0_95_0_0 : ∀ a, (![0, 95, 0, 0] : Fin 4 → Nat) a + S1x1x32x32.size a ≤ S1x256x32x32.size a
  inb_S1x256x1x1_S1x1x1x1_0_95_0_0 : ∀ a, (![0, 95, 0, 0] : Fin 4 → Nat) a + S1x1x1x1.size a ≤ S1x256x1x1.size a
  inb_S1x256x32x32_S1x1x32x32_0_96_0_0 : ∀ a, (![0, 96, 0, 0] : Fin 4 → Nat) a + S1x1x32x32.size a ≤ S1x256x32x32.size a
  inb_S1x256x1x1_S1x1x1x1_0_96_0_0 : ∀ a, (![0, 96, 0, 0] : Fin 4 → Nat) a + S1x1x1x1.size a ≤ S1x256x1x1.size a
  inb_S1x256x32x32_S1x1x32x32_0_97_0_0 : ∀ a, (![0, 97, 0, 0] : Fin 4 → Nat) a + S1x1x32x32.size a ≤ S1x256x32x32.size a
  inb_S1x256x1x1_S1x1x1x1_0_97_0_0 : ∀ a, (![0, 97, 0, 0] : Fin 4 → Nat) a + S1x1x1x1.size a ≤ S1x256x1x1.size a
  inb_S1x256x32x32_S1x1x32x32_0_98_0_0 : ∀ a, (![0, 98, 0, 0] : Fin 4 → Nat) a + S1x1x32x32.size a ≤ S1x256x32x32.size a
  inb_S1x256x1x1_S1x1x1x1_0_98_0_0 : ∀ a, (![0, 98, 0, 0] : Fin 4 → Nat) a + S1x1x1x1.size a ≤ S1x256x1x1.size a
  inb_S1x256x32x32_S1x1x32x32_0_99_0_0 : ∀ a, (![0, 99, 0, 0] : Fin 4 → Nat) a + S1x1x32x32.size a ≤ S1x256x32x32.size a
  inb_S1x256x1x1_S1x1x1x1_0_99_0_0 : ∀ a, (![0, 99, 0, 0] : Fin 4 → Nat) a + S1x1x1x1.size a ≤ S1x256x1x1.size a
  inb_S1x256x32x32_S1x1x32x32_0_100_0_0 : ∀ a, (![0, 100, 0, 0] : Fin 4 → Nat) a + S1x1x32x32.size a ≤ S1x256x32x32.size a
  inb_S1x256x1x1_S1x1x1x1_0_100_0_0 : ∀ a, (![0, 100, 0, 0] : Fin 4 → Nat) a + S1x1x1x1.size a ≤ S1x256x1x1.size a
  inb_S1x256x32x32_S1x1x32x32_0_101_0_0 : ∀ a, (![0, 101, 0, 0] : Fin 4 → Nat) a + S1x1x32x32.size a ≤ S1x256x32x32.size a
  inb_S1x256x1x1_S1x1x1x1_0_101_0_0 : ∀ a, (![0, 101, 0, 0] : Fin 4 → Nat) a + S1x1x1x1.size a ≤ S1x256x1x1.size a
  inb_S1x256x32x32_S1x1x32x32_0_102_0_0 : ∀ a, (![0, 102, 0, 0] : Fin 4 → Nat) a + S1x1x32x32.size a ≤ S1x256x32x32.size a
  inb_S1x256x1x1_S1x1x1x1_0_102_0_0 : ∀ a, (![0, 102, 0, 0] : Fin 4 → Nat) a + S1x1x1x1.size a ≤ S1x256x1x1.size a
  inb_S1x256x32x32_S1x1x32x32_0_103_0_0 : ∀ a, (![0, 103, 0, 0] : Fin 4 → Nat) a + S1x1x32x32.size a ≤ S1x256x32x32.size a
  inb_S1x256x1x1_S1x1x1x1_0_103_0_0 : ∀ a, (![0, 103, 0, 0] : Fin 4 → Nat) a + S1x1x1x1.size a ≤ S1x256x1x1.size a
  inb_S1x256x32x32_S1x1x32x32_0_104_0_0 : ∀ a, (![0, 104, 0, 0] : Fin 4 → Nat) a + S1x1x32x32.size a ≤ S1x256x32x32.size a
  inb_S1x256x1x1_S1x1x1x1_0_104_0_0 : ∀ a, (![0, 104, 0, 0] : Fin 4 → Nat) a + S1x1x1x1.size a ≤ S1x256x1x1.size a
  inb_S1x256x32x32_S1x1x32x32_0_105_0_0 : ∀ a, (![0, 105, 0, 0] : Fin 4 → Nat) a + S1x1x32x32.size a ≤ S1x256x32x32.size a
  inb_S1x256x1x1_S1x1x1x1_0_105_0_0 : ∀ a, (![0, 105, 0, 0] : Fin 4 → Nat) a + S1x1x1x1.size a ≤ S1x256x1x1.size a
  inb_S1x256x32x32_S1x1x32x32_0_106_0_0 : ∀ a, (![0, 106, 0, 0] : Fin 4 → Nat) a + S1x1x32x32.size a ≤ S1x256x32x32.size a
  inb_S1x256x1x1_S1x1x1x1_0_106_0_0 : ∀ a, (![0, 106, 0, 0] : Fin 4 → Nat) a + S1x1x1x1.size a ≤ S1x256x1x1.size a
  inb_S1x256x32x32_S1x1x32x32_0_107_0_0 : ∀ a, (![0, 107, 0, 0] : Fin 4 → Nat) a + S1x1x32x32.size a ≤ S1x256x32x32.size a
  inb_S1x256x1x1_S1x1x1x1_0_107_0_0 : ∀ a, (![0, 107, 0, 0] : Fin 4 → Nat) a + S1x1x1x1.size a ≤ S1x256x1x1.size a
  inb_S1x256x32x32_S1x1x32x32_0_108_0_0 : ∀ a, (![0, 108, 0, 0] : Fin 4 → Nat) a + S1x1x32x32.size a ≤ S1x256x32x32.size a
  inb_S1x256x1x1_S1x1x1x1_0_108_0_0 : ∀ a, (![0, 108, 0, 0] : Fin 4 → Nat) a + S1x1x1x1.size a ≤ S1x256x1x1.size a
  inb_S1x256x32x32_S1x1x32x32_0_109_0_0 : ∀ a, (![0, 109, 0, 0] : Fin 4 → Nat) a + S1x1x32x32.size a ≤ S1x256x32x32.size a
  inb_S1x256x1x1_S1x1x1x1_0_109_0_0 : ∀ a, (![0, 109, 0, 0] : Fin 4 → Nat) a + S1x1x1x1.size a ≤ S1x256x1x1.size a
  inb_S1x256x32x32_S1x1x32x32_0_110_0_0 : ∀ a, (![0, 110, 0, 0] : Fin 4 → Nat) a + S1x1x32x32.size a ≤ S1x256x32x32.size a
  inb_S1x256x1x1_S1x1x1x1_0_110_0_0 : ∀ a, (![0, 110, 0, 0] : Fin 4 → Nat) a + S1x1x1x1.size a ≤ S1x256x1x1.size a
  inb_S1x256x32x32_S1x1x32x32_0_111_0_0 : ∀ a, (![0, 111, 0, 0] : Fin 4 → Nat) a + S1x1x32x32.size a ≤ S1x256x32x32.size a
  inb_S1x256x1x1_S1x1x1x1_0_111_0_0 : ∀ a, (![0, 111, 0, 0] : Fin 4 → Nat) a + S1x1x1x1.size a ≤ S1x256x1x1.size a
  inb_S1x256x32x32_S1x1x32x32_0_112_0_0 : ∀ a, (![0, 112, 0, 0] : Fin 4 → Nat) a + S1x1x32x32.size a ≤ S1x256x32x32.size a
  inb_S1x256x1x1_S1x1x1x1_0_112_0_0 : ∀ a, (![0, 112, 0, 0] : Fin 4 → Nat) a + S1x1x1x1.size a ≤ S1x256x1x1.size a
  inb_S1x256x32x32_S1x1x32x32_0_113_0_0 : ∀ a, (![0, 113, 0, 0] : Fin 4 → Nat) a + S1x1x32x32.size a ≤ S1x256x32x32.size a
  inb_S1x256x1x1_S1x1x1x1_0_113_0_0 : ∀ a, (![0, 113, 0, 0] : Fin 4 → Nat) a + S1x1x1x1.size a ≤ S1x256x1x1.size a
  inb_S1x256x32x32_S1x1x32x32_0_114_0_0 : ∀ a, (![0, 114, 0, 0] : Fin 4 → Nat) a + S1x1x32x32.size a ≤ S1x256x32x32.size a
  inb_S1x256x1x1_S1x1x1x1_0_114_0_0 : ∀ a, (![0, 114, 0, 0] : Fin 4 → Nat) a + S1x1x1x1.size a ≤ S1x256x1x1.size a
  inb_S1x256x32x32_S1x1x32x32_0_115_0_0 : ∀ a, (![0, 115, 0, 0] : Fin 4 → Nat) a + S1x1x32x32.size a ≤ S1x256x32x32.size a
  inb_S1x256x1x1_S1x1x1x1_0_115_0_0 : ∀ a, (![0, 115, 0, 0] : Fin 4 → Nat) a + S1x1x1x1.size a ≤ S1x256x1x1.size a
  inb_S1x256x32x32_S1x1x32x32_0_116_0_0 : ∀ a, (![0, 116, 0, 0] : Fin 4 → Nat) a + S1x1x32x32.size a ≤ S1x256x32x32.size a
  inb_S1x256x1x1_S1x1x1x1_0_116_0_0 : ∀ a, (![0, 116, 0, 0] : Fin 4 → Nat) a + S1x1x1x1.size a ≤ S1x256x1x1.size a
  inb_S1x256x32x32_S1x1x32x32_0_117_0_0 : ∀ a, (![0, 117, 0, 0] : Fin 4 → Nat) a + S1x1x32x32.size a ≤ S1x256x32x32.size a
  inb_S1x256x1x1_S1x1x1x1_0_117_0_0 : ∀ a, (![0, 117, 0, 0] : Fin 4 → Nat) a + S1x1x1x1.size a ≤ S1x256x1x1.size a
  inb_S1x256x32x32_S1x1x32x32_0_118_0_0 : ∀ a, (![0, 118, 0, 0] : Fin 4 → Nat) a + S1x1x32x32.size a ≤ S1x256x32x32.size a
  inb_S1x256x1x1_S1x1x1x1_0_118_0_0 : ∀ a, (![0, 118, 0, 0] : Fin 4 → Nat) a + S1x1x1x1.size a ≤ S1x256x1x1.size a
  inb_S1x256x32x32_S1x1x32x32_0_119_0_0 : ∀ a, (![0, 119, 0, 0] : Fin 4 → Nat) a + S1x1x32x32.size a ≤ S1x256x32x32.size a
  inb_S1x256x1x1_S1x1x1x1_0_119_0_0 : ∀ a, (![0, 119, 0, 0] : Fin 4 → Nat) a + S1x1x1x1.size a ≤ S1x256x1x1.size a
  inb_S1x256x32x32_S1x1x32x32_0_120_0_0 : ∀ a, (![0, 120, 0, 0] : Fin 4 → Nat) a + S1x1x32x32.size a ≤ S1x256x32x32.size a
  inb_S1x256x1x1_S1x1x1x1_0_120_0_0 : ∀ a, (![0, 120, 0, 0] : Fin 4 → Nat) a + S1x1x1x1.size a ≤ S1x256x1x1.size a
  inb_S1x256x32x32_S1x1x32x32_0_121_0_0 : ∀ a, (![0, 121, 0, 0] : Fin 4 → Nat) a + S1x1x32x32.size a ≤ S1x256x32x32.size a
  inb_S1x256x1x1_S1x1x1x1_0_121_0_0 : ∀ a, (![0, 121, 0, 0] : Fin 4 → Nat) a + S1x1x1x1.size a ≤ S1x256x1x1.size a
  inb_S1x256x32x32_S1x1x32x32_0_122_0_0 : ∀ a, (![0, 122, 0, 0] : Fin 4 → Nat) a + S1x1x32x32.size a ≤ S1x256x32x32.size a
  inb_S1x256x1x1_S1x1x1x1_0_122_0_0 : ∀ a, (![0, 122, 0, 0] : Fin 4 → Nat) a + S1x1x1x1.size a ≤ S1x256x1x1.size a
  inb_S1x256x32x32_S1x1x32x32_0_123_0_0 : ∀ a, (![0, 123, 0, 0] : Fin 4 → Nat) a + S1x1x32x32.size a ≤ S1x256x32x32.size a
  inb_S1x256x1x1_S1x1x1x1_0_123_0_0 : ∀ a, (![0, 123, 0, 0] : Fin 4 → Nat) a + S1x1x1x1.size a ≤ S1x256x1x1.size a
  inb_S1x256x32x32_S1x1x32x32_0_124_0_0 : ∀ a, (![0, 124, 0, 0] : Fin 4 → Nat) a + S1x1x32x32.size a ≤ S1x256x32x32.size a
  inb_S1x256x1x1_S1x1x1x1_0_124_0_0 : ∀ a, (![0, 124, 0, 0] : Fin 4 → Nat) a + S1x1x1x1.size a ≤ S1x256x1x1.size a
  inb_S1x256x32x32_S1x1x32x32_0_125_0_0 : ∀ a, (![0, 125, 0, 0] : Fin 4 → Nat) a + S1x1x32x32.size a ≤ S1x256x32x32.size a
  inb_S1x256x1x1_S1x1x1x1_0_125_0_0 : ∀ a, (![0, 125, 0, 0] : Fin 4 → Nat) a + S1x1x1x1.size a ≤ S1x256x1x1.size a
  inb_S1x256x32x32_S1x1x32x32_0_126_0_0 : ∀ a, (![0, 126, 0, 0] : Fin 4 → Nat) a + S1x1x32x32.size a ≤ S1x256x32x32.size a
  inb_S1x256x1x1_S1x1x1x1_0_126_0_0 : ∀ a, (![0, 126, 0, 0] : Fin 4 → Nat) a + S1x1x1x1.size a ≤ S1x256x1x1.size a
  inb_S1x256x32x32_S1x1x32x32_0_127_0_0 : ∀ a, (![0, 127, 0, 0] : Fin 4 → Nat) a + S1x1x32x32.size a ≤ S1x256x32x32.size a
  inb_S1x256x1x1_S1x1x1x1_0_127_0_0 : ∀ a, (![0, 127, 0, 0] : Fin 4 → Nat) a + S1x1x1x1.size a ≤ S1x256x1x1.size a
  inb_S1x256x32x32_S1x1x32x32_0_128_0_0 : ∀ a, (![0, 128, 0, 0] : Fin 4 → Nat) a + S1x1x32x32.size a ≤ S1x256x32x32.size a
  inb_S1x256x1x1_S1x1x1x1_0_128_0_0 : ∀ a, (![0, 128, 0, 0] : Fin 4 → Nat) a + S1x1x1x1.size a ≤ S1x256x1x1.size a
  inb_S1x256x32x32_S1x1x32x32_0_129_0_0 : ∀ a, (![0, 129, 0, 0] : Fin 4 → Nat) a + S1x1x32x32.size a ≤ S1x256x32x32.size a
  inb_S1x256x1x1_S1x1x1x1_0_129_0_0 : ∀ a, (![0, 129, 0, 0] : Fin 4 → Nat) a + S1x1x1x1.size a ≤ S1x256x1x1.size a
  inb_S1x256x32x32_S1x1x32x32_0_130_0_0 : ∀ a, (![0, 130, 0, 0] : Fin 4 → Nat) a + S1x1x32x32.size a ≤ S1x256x32x32.size a
  inb_S1x256x1x1_S1x1x1x1_0_130_0_0 : ∀ a, (![0, 130, 0, 0] : Fin 4 → Nat) a + S1x1x1x1.size a ≤ S1x256x1x1.size a
  inb_S1x256x32x32_S1x1x32x32_0_131_0_0 : ∀ a, (![0, 131, 0, 0] : Fin 4 → Nat) a + S1x1x32x32.size a ≤ S1x256x32x32.size a
  inb_S1x256x1x1_S1x1x1x1_0_131_0_0 : ∀ a, (![0, 131, 0, 0] : Fin 4 → Nat) a + S1x1x1x1.size a ≤ S1x256x1x1.size a
  inb_S1x256x32x32_S1x1x32x32_0_132_0_0 : ∀ a, (![0, 132, 0, 0] : Fin 4 → Nat) a + S1x1x32x32.size a ≤ S1x256x32x32.size a
  inb_S1x256x1x1_S1x1x1x1_0_132_0_0 : ∀ a, (![0, 132, 0, 0] : Fin 4 → Nat) a + S1x1x1x1.size a ≤ S1x256x1x1.size a
  inb_S1x256x32x32_S1x1x32x32_0_133_0_0 : ∀ a, (![0, 133, 0, 0] : Fin 4 → Nat) a + S1x1x32x32.size a ≤ S1x256x32x32.size a
  inb_S1x256x1x1_S1x1x1x1_0_133_0_0 : ∀ a, (![0, 133, 0, 0] : Fin 4 → Nat) a + S1x1x1x1.size a ≤ S1x256x1x1.size a
  inb_S1x256x32x32_S1x1x32x32_0_134_0_0 : ∀ a, (![0, 134, 0, 0] : Fin 4 → Nat) a + S1x1x32x32.size a ≤ S1x256x32x32.size a
  inb_S1x256x1x1_S1x1x1x1_0_134_0_0 : ∀ a, (![0, 134, 0, 0] : Fin 4 → Nat) a + S1x1x1x1.size a ≤ S1x256x1x1.size a
  inb_S1x256x32x32_S1x1x32x32_0_135_0_0 : ∀ a, (![0, 135, 0, 0] : Fin 4 → Nat) a + S1x1x32x32.size a ≤ S1x256x32x32.size a
  inb_S1x256x1x1_S1x1x1x1_0_135_0_0 : ∀ a, (![0, 135, 0, 0] : Fin 4 → Nat) a + S1x1x1x1.size a ≤ S1x256x1x1.size a
  inb_S1x256x32x32_S1x1x32x32_0_136_0_0 : ∀ a, (![0, 136, 0, 0] : Fin 4 → Nat) a + S1x1x32x32.size a ≤ S1x256x32x32.size a
  inb_S1x256x1x1_S1x1x1x1_0_136_0_0 : ∀ a, (![0, 136, 0, 0] : Fin 4 → Nat) a + S1x1x1x1.size a ≤ S1x256x1x1.size a
  inb_S1x256x32x32_S1x1x32x32_0_137_0_0 : ∀ a, (![0, 137, 0, 0] : Fin 4 → Nat) a + S1x1x32x32.size a ≤ S1x256x32x32.size a
  inb_S1x256x1x1_S1x1x1x1_0_137_0_0 : ∀ a, (![0, 137, 0, 0] : Fin 4 → Nat) a + S1x1x1x1.size a ≤ S1x256x1x1.size a
  inb_S1x256x32x32_S1x1x32x32_0_138_0_0 : ∀ a, (![0, 138, 0, 0] : Fin 4 → Nat) a + S1x1x32x32.size a ≤ S1x256x32x32.size a
  inb_S1x256x1x1_S1x1x1x1_0_138_0_0 : ∀ a, (![0, 138, 0, 0] : Fin 4 → Nat) a + S1x1x1x1.size a ≤ S1x256x1x1.size a
  inb_S1x256x32x32_S1x1x32x32_0_139_0_0 : ∀ a, (![0, 139, 0, 0] : Fin 4 → Nat) a + S1x1x32x32.size a ≤ S1x256x32x32.size a
  inb_S1x256x1x1_S1x1x1x1_0_139_0_0 : ∀ a, (![0, 139, 0, 0] : Fin 4 → Nat) a + S1x1x1x1.size a ≤ S1x256x1x1.size a
  inb_S1x256x32x32_S1x1x32x32_0_140_0_0 : ∀ a, (![0, 140, 0, 0] : Fin 4 → Nat) a + S1x1x32x32.size a ≤ S1x256x32x32.size a
  inb_S1x256x1x1_S1x1x1x1_0_140_0_0 : ∀ a, (![0, 140, 0, 0] : Fin 4 → Nat) a + S1x1x1x1.size a ≤ S1x256x1x1.size a
  inb_S1x256x32x32_S1x1x32x32_0_141_0_0 : ∀ a, (![0, 141, 0, 0] : Fin 4 → Nat) a + S1x1x32x32.size a ≤ S1x256x32x32.size a
  inb_S1x256x1x1_S1x1x1x1_0_141_0_0 : ∀ a, (![0, 141, 0, 0] : Fin 4 → Nat) a + S1x1x1x1.size a ≤ S1x256x1x1.size a
  inb_S1x256x32x32_S1x1x32x32_0_142_0_0 : ∀ a, (![0, 142, 0, 0] : Fin 4 → Nat) a + S1x1x32x32.size a ≤ S1x256x32x32.size a
  inb_S1x256x1x1_S1x1x1x1_0_142_0_0 : ∀ a, (![0, 142, 0, 0] : Fin 4 → Nat) a + S1x1x1x1.size a ≤ S1x256x1x1.size a
  inb_S1x256x32x32_S1x1x32x32_0_143_0_0 : ∀ a, (![0, 143, 0, 0] : Fin 4 → Nat) a + S1x1x32x32.size a ≤ S1x256x32x32.size a
  inb_S1x256x1x1_S1x1x1x1_0_143_0_0 : ∀ a, (![0, 143, 0, 0] : Fin 4 → Nat) a + S1x1x1x1.size a ≤ S1x256x1x1.size a
  inb_S1x256x32x32_S1x1x32x32_0_144_0_0 : ∀ a, (![0, 144, 0, 0] : Fin 4 → Nat) a + S1x1x32x32.size a ≤ S1x256x32x32.size a
  inb_S1x256x1x1_S1x1x1x1_0_144_0_0 : ∀ a, (![0, 144, 0, 0] : Fin 4 → Nat) a + S1x1x1x1.size a ≤ S1x256x1x1.size a
  inb_S1x256x32x32_S1x1x32x32_0_145_0_0 : ∀ a, (![0, 145, 0, 0] : Fin 4 → Nat) a + S1x1x32x32.size a ≤ S1x256x32x32.size a
  inb_S1x256x1x1_S1x1x1x1_0_145_0_0 : ∀ a, (![0, 145, 0, 0] : Fin 4 → Nat) a + S1x1x1x1.size a ≤ S1x256x1x1.size a
  inb_S1x256x32x32_S1x1x32x32_0_146_0_0 : ∀ a, (![0, 146, 0, 0] : Fin 4 → Nat) a + S1x1x32x32.size a ≤ S1x256x32x32.size a
  inb_S1x256x1x1_S1x1x1x1_0_146_0_0 : ∀ a, (![0, 146, 0, 0] : Fin 4 → Nat) a + S1x1x1x1.size a ≤ S1x256x1x1.size a
  inb_S1x256x32x32_S1x1x32x32_0_147_0_0 : ∀ a, (![0, 147, 0, 0] : Fin 4 → Nat) a + S1x1x32x32.size a ≤ S1x256x32x32.size a
  inb_S1x256x1x1_S1x1x1x1_0_147_0_0 : ∀ a, (![0, 147, 0, 0] : Fin 4 → Nat) a + S1x1x1x1.size a ≤ S1x256x1x1.size a
  inb_S1x256x32x32_S1x1x32x32_0_148_0_0 : ∀ a, (![0, 148, 0, 0] : Fin 4 → Nat) a + S1x1x32x32.size a ≤ S1x256x32x32.size a
  inb_S1x256x1x1_S1x1x1x1_0_148_0_0 : ∀ a, (![0, 148, 0, 0] : Fin 4 → Nat) a + S1x1x1x1.size a ≤ S1x256x1x1.size a
  inb_S1x256x32x32_S1x1x32x32_0_149_0_0 : ∀ a, (![0, 149, 0, 0] : Fin 4 → Nat) a + S1x1x32x32.size a ≤ S1x256x32x32.size a
  inb_S1x256x1x1_S1x1x1x1_0_149_0_0 : ∀ a, (![0, 149, 0, 0] : Fin 4 → Nat) a + S1x1x1x1.size a ≤ S1x256x1x1.size a
  inb_S1x256x32x32_S1x1x32x32_0_150_0_0 : ∀ a, (![0, 150, 0, 0] : Fin 4 → Nat) a + S1x1x32x32.size a ≤ S1x256x32x32.size a
  inb_S1x256x1x1_S1x1x1x1_0_150_0_0 : ∀ a, (![0, 150, 0, 0] : Fin 4 → Nat) a + S1x1x1x1.size a ≤ S1x256x1x1.size a
  inb_S1x256x32x32_S1x1x32x32_0_151_0_0 : ∀ a, (![0, 151, 0, 0] : Fin 4 → Nat) a + S1x1x32x32.size a ≤ S1x256x32x32.size a
  inb_S1x256x1x1_S1x1x1x1_0_151_0_0 : ∀ a, (![0, 151, 0, 0] : Fin 4 → Nat) a + S1x1x1x1.size a ≤ S1x256x1x1.size a
  inb_S1x256x32x32_S1x1x32x32_0_152_0_0 : ∀ a, (![0, 152, 0, 0] : Fin 4 → Nat) a + S1x1x32x32.size a ≤ S1x256x32x32.size a
  inb_S1x256x1x1_S1x1x1x1_0_152_0_0 : ∀ a, (![0, 152, 0, 0] : Fin 4 → Nat) a + S1x1x1x1.size a ≤ S1x256x1x1.size a
  inb_S1x256x32x32_S1x1x32x32_0_153_0_0 : ∀ a, (![0, 153, 0, 0] : Fin 4 → Nat) a + S1x1x32x32.size a ≤ S1x256x32x32.size a
  inb_S1x256x1x1_S1x1x1x1_0_153_0_0 : ∀ a, (![0, 153, 0, 0] : Fin 4 → Nat) a + S1x1x1x1.size a ≤ S1x256x1x1.size a
  inb_S1x256x32x32_S1x1x32x32_0_154_0_0 : ∀ a, (![0, 154, 0, 0] : Fin 4 → Nat) a + S1x1x32x32.size a ≤ S1x256x32x32.size a
  inb_S1x256x1x1_S1x1x1x1_0_154_0_0 : ∀ a, (![0, 154, 0, 0] : Fin 4 → Nat) a + S1x1x1x1.size a ≤ S1x256x1x1.size a
  inb_S1x256x32x32_S1x1x32x32_0_155_0_0 : ∀ a, (![0, 155, 0, 0] : Fin 4 → Nat) a + S1x1x32x32.size a ≤ S1x256x32x32.size a
  inb_S1x256x1x1_S1x1x1x1_0_155_0_0 : ∀ a, (![0, 155, 0, 0] : Fin 4 → Nat) a + S1x1x1x1.size a ≤ S1x256x1x1.size a
  inb_S1x256x32x32_S1x1x32x32_0_156_0_0 : ∀ a, (![0, 156, 0, 0] : Fin 4 → Nat) a + S1x1x32x32.size a ≤ S1x256x32x32.size a
  inb_S1x256x1x1_S1x1x1x1_0_156_0_0 : ∀ a, (![0, 156, 0, 0] : Fin 4 → Nat) a + S1x1x1x1.size a ≤ S1x256x1x1.size a
  inb_S1x256x32x32_S1x1x32x32_0_157_0_0 : ∀ a, (![0, 157, 0, 0] : Fin 4 → Nat) a + S1x1x32x32.size a ≤ S1x256x32x32.size a
  inb_S1x256x1x1_S1x1x1x1_0_157_0_0 : ∀ a, (![0, 157, 0, 0] : Fin 4 → Nat) a + S1x1x1x1.size a ≤ S1x256x1x1.size a
  inb_S1x256x32x32_S1x1x32x32_0_158_0_0 : ∀ a, (![0, 158, 0, 0] : Fin 4 → Nat) a + S1x1x32x32.size a ≤ S1x256x32x32.size a
  inb_S1x256x1x1_S1x1x1x1_0_158_0_0 : ∀ a, (![0, 158, 0, 0] : Fin 4 → Nat) a + S1x1x1x1.size a ≤ S1x256x1x1.size a
  inb_S1x256x32x32_S1x1x32x32_0_159_0_0 : ∀ a, (![0, 159, 0, 0] : Fin 4 → Nat) a + S1x1x32x32.size a ≤ S1x256x32x32.size a
  inb_S1x256x1x1_S1x1x1x1_0_159_0_0 : ∀ a, (![0, 159, 0, 0] : Fin 4 → Nat) a + S1x1x1x1.size a ≤ S1x256x1x1.size a
  inb_S1x256x32x32_S1x1x32x32_0_160_0_0 : ∀ a, (![0, 160, 0, 0] : Fin 4 → Nat) a + S1x1x32x32.size a ≤ S1x256x32x32.size a
  inb_S1x256x1x1_S1x1x1x1_0_160_0_0 : ∀ a, (![0, 160, 0, 0] : Fin 4 → Nat) a + S1x1x1x1.size a ≤ S1x256x1x1.size a
  inb_S1x256x32x32_S1x1x32x32_0_161_0_0 : ∀ a, (![0, 161, 0, 0] : Fin 4 → Nat) a + S1x1x32x32.size a ≤ S1x256x32x32.size a
  inb_S1x256x1x1_S1x1x1x1_0_161_0_0 : ∀ a, (![0, 161, 0, 0] : Fin 4 → Nat) a + S1x1x1x1.size a ≤ S1x256x1x1.size a
  inb_S1x256x32x32_S1x1x32x32_0_162_0_0 : ∀ a, (![0, 162, 0, 0] : Fin 4 → Nat) a + S1x1x32x32.size a ≤ S1x256x32x32.size a
  inb_S1x256x1x1_S1x1x1x1_0_162_0_0 : ∀ a, (![0, 162, 0, 0] : Fin 4 → Nat) a + S1x1x1x1.size a ≤ S1x256x1x1.size a
  inb_S1x256x32x32_S1x1x32x32_0_163_0_0 : ∀ a, (![0, 163, 0, 0] : Fin 4 → Nat) a + S1x1x32x32.size a ≤ S1x256x32x32.size a
  inb_S1x256x1x1_S1x1x1x1_0_163_0_0 : ∀ a, (![0, 163, 0, 0] : Fin 4 → Nat) a + S1x1x1x1.size a ≤ S1x256x1x1.size a
  inb_S1x256x32x32_S1x1x32x32_0_164_0_0 : ∀ a, (![0, 164, 0, 0] : Fin 4 → Nat) a + S1x1x32x32.size a ≤ S1x256x32x32.size a
  inb_S1x256x1x1_S1x1x1x1_0_164_0_0 : ∀ a, (![0, 164, 0, 0] : Fin 4 → Nat) a + S1x1x1x1.size a ≤ S1x256x1x1.size a
  inb_S1x256x32x32_S1x1x32x32_0_165_0_0 : ∀ a, (![0, 165, 0, 0] : Fin 4 → Nat) a + S1x1x32x32.size a ≤ S1x256x32x32.size a
  inb_S1x256x1x1_S1x1x1x1_0_165_0_0 : ∀ a, (![0, 165, 0, 0] : Fin 4 → Nat) a + S1x1x1x1.size a ≤ S1x256x1x1.size a
  inb_S1x256x32x32_S1x1x32x32_0_166_0_0 : ∀ a, (![0, 166, 0, 0] : Fin 4 → Nat) a + S1x1x32x32.size a ≤ S1x256x32x32.size a
  inb_S1x256x1x1_S1x1x1x1_0_166_0_0 : ∀ a, (![0, 166, 0, 0] : Fin 4 → Nat) a + S1x1x1x1.size a ≤ S1x256x1x1.size a
  inb_S1x256x32x32_S1x1x32x32_0_167_0_0 : ∀ a, (![0, 167, 0, 0] : Fin 4 → Nat) a + S1x1x32x32.size a ≤ S1x256x32x32.size a
  inb_S1x256x1x1_S1x1x1x1_0_167_0_0 : ∀ a, (![0, 167, 0, 0] : Fin 4 → Nat) a + S1x1x1x1.size a ≤ S1x256x1x1.size a
  inb_S1x256x32x32_S1x1x32x32_0_168_0_0 : ∀ a, (![0, 168, 0, 0] : Fin 4 → Nat) a + S1x1x32x32.size a ≤ S1x256x32x32.size a
  inb_S1x256x1x1_S1x1x1x1_0_168_0_0 : ∀ a, (![0, 168, 0, 0] : Fin 4 → Nat) a + S1x1x1x1.size a ≤ S1x256x1x1.size a
  inb_S1x256x32x32_S1x1x32x32_0_169_0_0 : ∀ a, (![0, 169, 0, 0] : Fin 4 → Nat) a + S1x1x32x32.size a ≤ S1x256x32x32.size a
  inb_S1x256x1x1_S1x1x1x1_0_169_0_0 : ∀ a, (![0, 169, 0, 0] : Fin 4 → Nat) a + S1x1x1x1.size a ≤ S1x256x1x1.size a
  inb_S1x256x32x32_S1x1x32x32_0_170_0_0 : ∀ a, (![0, 170, 0, 0] : Fin 4 → Nat) a + S1x1x32x32.size a ≤ S1x256x32x32.size a
  inb_S1x256x1x1_S1x1x1x1_0_170_0_0 : ∀ a, (![0, 170, 0, 0] : Fin 4 → Nat) a + S1x1x1x1.size a ≤ S1x256x1x1.size a
  inb_S1x256x32x32_S1x1x32x32_0_171_0_0 : ∀ a, (![0, 171, 0, 0] : Fin 4 → Nat) a + S1x1x32x32.size a ≤ S1x256x32x32.size a
  inb_S1x256x1x1_S1x1x1x1_0_171_0_0 : ∀ a, (![0, 171, 0, 0] : Fin 4 → Nat) a + S1x1x1x1.size a ≤ S1x256x1x1.size a
  inb_S1x256x32x32_S1x1x32x32_0_172_0_0 : ∀ a, (![0, 172, 0, 0] : Fin 4 → Nat) a + S1x1x32x32.size a ≤ S1x256x32x32.size a
  inb_S1x256x1x1_S1x1x1x1_0_172_0_0 : ∀ a, (![0, 172, 0, 0] : Fin 4 → Nat) a + S1x1x1x1.size a ≤ S1x256x1x1.size a
  inb_S1x256x32x32_S1x1x32x32_0_173_0_0 : ∀ a, (![0, 173, 0, 0] : Fin 4 → Nat) a + S1x1x32x32.size a ≤ S1x256x32x32.size a
  inb_S1x256x1x1_S1x1x1x1_0_173_0_0 : ∀ a, (![0, 173, 0, 0] : Fin 4 → Nat) a + S1x1x1x1.size a ≤ S1x256x1x1.size a
  inb_S1x256x32x32_S1x1x32x32_0_174_0_0 : ∀ a, (![0, 174, 0, 0] : Fin 4 → Nat) a + S1x1x32x32.size a ≤ S1x256x32x32.size a
  inb_S1x256x1x1_S1x1x1x1_0_174_0_0 : ∀ a, (![0, 174, 0, 0] : Fin 4 → Nat) a + S1x1x1x1.size a ≤ S1x256x1x1.size a
  inb_S1x256x32x32_S1x1x32x32_0_175_0_0 : ∀ a, (![0, 175, 0, 0] : Fin 4 → Nat) a + S1x1x32x32.size a ≤ S1x256x32x32.size a
  inb_S1x256x1x1_S1x1x1x1_0_175_0_0 : ∀ a, (![0, 175, 0, 0] : Fin 4 → Nat) a + S1x1x1x1.size a ≤ S1x256x1x1.size a
  inb_S1x256x32x32_S1x1x32x32_0_176_0_0 : ∀ a, (![0, 176, 0, 0] : Fin 4 → Nat) a + S1x1x32x32.size a ≤ S1x256x32x32.size a
  inb_S1x256x1x1_S1x1x1x1_0_176_0_0 : ∀ a, (![0, 176, 0, 0] : Fin 4 → Nat) a + S1x1x1x1.size a ≤ S1x256x1x1.size a
  inb_S1x256x32x32_S1x1x32x32_0_177_0_0 : ∀ a, (![0, 177, 0, 0] : Fin 4 → Nat) a + S1x1x32x32.size a ≤ S1x256x32x32.size a
  inb_S1x256x1x1_S1x1x1x1_0_177_0_0 : ∀ a, (![0, 177, 0, 0] : Fin 4 → Nat) a + S1x1x1x1.size a ≤ S1x256x1x1.size a
  inb_S1x256x32x32_S1x1x32x32_0_178_0_0 : ∀ a, (![0, 178, 0, 0] : Fin 4 → Nat) a + S1x1x32x32.size a ≤ S1x256x32x32.size a
  inb_S1x256x1x1_S1x1x1x1_0_178_0_0 : ∀ a, (![0, 178, 0, 0] : Fin 4 → Nat) a + S1x1x1x1.size a ≤ S1x256x1x1.size a
  inb_S1x256x32x32_S1x1x32x32_0_179_0_0 : ∀ a, (![0, 179, 0, 0] : Fin 4 → Nat) a + S1x1x32x32.size a ≤ S1x256x32x32.size a
  inb_S1x256x1x1_S1x1x1x1_0_179_0_0 : ∀ a, (![0, 179, 0, 0] : Fin 4 → Nat) a + S1x1x1x1.size a ≤ S1x256x1x1.size a
  inb_S1x256x32x32_S1x1x32x32_0_180_0_0 : ∀ a, (![0, 180, 0, 0] : Fin 4 → Nat) a + S1x1x32x32.size a ≤ S1x256x32x32.size a
  inb_S1x256x1x1_S1x1x1x1_0_180_0_0 : ∀ a, (![0, 180, 0, 0] : Fin 4 → Nat) a + S1x1x1x1.size a ≤ S1x256x1x1.size a
  inb_S1x256x32x32_S1x1x32x32_0_181_0_0 : ∀ a, (![0, 181, 0, 0] : Fin 4 → Nat) a + S1x1x32x32.size a ≤ S1x256x32x32.size a
  inb_S1x256x1x1_S1x1x1x1_0_181_0_0 : ∀ a, (![0, 181, 0, 0] : Fin 4 → Nat) a + S1x1x1x1.size a ≤ S1x256x1x1.size a
  inb_S1x256x32x32_S1x1x32x32_0_182_0_0 : ∀ a, (![0, 182, 0, 0] : Fin 4 → Nat) a + S1x1x32x32.size a ≤ S1x256x32x32.size a
  inb_S1x256x1x1_S1x1x1x1_0_182_0_0 : ∀ a, (![0, 182, 0, 0] : Fin 4 → Nat) a + S1x1x1x1.size a ≤ S1x256x1x1.size a
  inb_S1x256x32x32_S1x1x32x32_0_183_0_0 : ∀ a, (![0, 183, 0, 0] : Fin 4 → Nat) a + S1x1x32x32.size a ≤ S1x256x32x32.size a
  inb_S1x256x1x1_S1x1x1x1_0_183_0_0 : ∀ a, (![0, 183, 0, 0] : Fin 4 → Nat) a + S1x1x1x1.size a ≤ S1x256x1x1.size a
  inb_S1x256x32x32_S1x1x32x32_0_184_0_0 : ∀ a, (![0, 184, 0, 0] : Fin 4 → Nat) a + S1x1x32x32.size a ≤ S1x256x32x32.size a
  inb_S1x256x1x1_S1x1x1x1_0_184_0_0 : ∀ a, (![0, 184, 0, 0] : Fin 4 → Nat) a + S1x1x1x1.size a ≤ S1x256x1x1.size a
  inb_S1x256x32x32_S1x1x32x32_0_185_0_0 : ∀ a, (![0, 185, 0, 0] : Fin 4 → Nat) a + S1x1x32x32.size a ≤ S1x256x32x32.size a
  inb_S1x256x1x1_S1x1x1x1_0_185_0_0 : ∀ a, (![0, 185, 0, 0] : Fin 4 → Nat) a + S1x1x1x1.size a ≤ S1x256x1x1.size a
  inb_S1x256x32x32_S1x1x32x32_0_186_0_0 : ∀ a, (![0, 186, 0, 0] : Fin 4 → Nat) a + S1x1x32x32.size a ≤ S1x256x32x32.size a
  inb_S1x256x1x1_S1x1x1x1_0_186_0_0 : ∀ a, (![0, 186, 0, 0] : Fin 4 → Nat) a + S1x1x1x1.size a ≤ S1x256x1x1.size a
  inb_S1x256x32x32_S1x1x32x32_0_187_0_0 : ∀ a, (![0, 187, 0, 0] : Fin 4 → Nat) a + S1x1x32x32.size a ≤ S1x256x32x32.size a
  inb_S1x256x1x1_S1x1x1x1_0_187_0_0 : ∀ a, (![0, 187, 0, 0] : Fin 4 → Nat) a + S1x1x1x1.size a ≤ S1x256x1x1.size a
  inb_S1x256x32x32_S1x1x32x32_0_188_0_0 : ∀ a, (![0, 188, 0, 0] : Fin 4 → Nat) a + S1x1x32x32.size a ≤ S1x256x32x32.size a
  inb_S1x256x1x1_S1x1x1x1_0_188_0_0 : ∀ a, (![0, 188, 0, 0] : Fin 4 → Nat) a + S1x1x1x1.size a ≤ S1x256x1x1.size a
  inb_S1x256x32x32_S1x1x32x32_0_189_0_0 : ∀ a, (![0, 189, 0, 0] : Fin 4 → Nat) a + S1x1x32x32.size a ≤ S1x256x32x32.size a
  inb_S1x256x1x1_S1x1x1x1_0_189_0_0 : ∀ a, (![0, 189, 0, 0] : Fin 4 → Nat) a + S1x1x1x1.size a ≤ S1x256x1x1.size a
  inb_S1x256x32x32_S1x1x32x32_0_190_0_0 : ∀ a, (![0, 190, 0, 0] : Fin 4 → Nat) a + S1x1x32x32.size a ≤ S1x256x32x32.size a
  inb_S1x256x1x1_S1x1x1x1_0_190_0_0 : ∀ a, (![0, 190, 0, 0] : Fin 4 → Nat) a + S1x1x1x1.size a ≤ S1x256x1x1.size a
  inb_S1x256x32x32_S1x1x32x32_0_191_0_0 : ∀ a, (![0, 191, 0, 0] : Fin 4 → Nat) a + S1x1x32x32.size a ≤ S1x256x32x32.size a
  inb_S1x256x1x1_S1x1x1x1_0_191_0_0 : ∀ a, (![0, 191, 0, 0] : Fin 4 → Nat) a + S1x1x1x1.size a ≤ S1x256x1x1.size a
  inb_S1x256x32x32_S1x1x32x32_0_192_0_0 : ∀ a, (![0, 192, 0, 0] : Fin 4 → Nat) a + S1x1x32x32.size a ≤ S1x256x32x32.size a
  inb_S1x256x1x1_S1x1x1x1_0_192_0_0 : ∀ a, (![0, 192, 0, 0] : Fin 4 → Nat) a + S1x1x1x1.size a ≤ S1x256x1x1.size a
  inb_S1x256x32x32_S1x1x32x32_0_193_0_0 : ∀ a, (![0, 193, 0, 0] : Fin 4 → Nat) a + S1x1x32x32.size a ≤ S1x256x32x32.size a
  inb_S1x256x1x1_S1x1x1x1_0_193_0_0 : ∀ a, (![0, 193, 0, 0] : Fin 4 → Nat) a + S1x1x1x1.size a ≤ S1x256x1x1.size a
  inb_S1x256x32x32_S1x1x32x32_0_194_0_0 : ∀ a, (![0, 194, 0, 0] : Fin 4 → Nat) a + S1x1x32x32.size a ≤ S1x256x32x32.size a
  inb_S1x256x1x1_S1x1x1x1_0_194_0_0 : ∀ a, (![0, 194, 0, 0] : Fin 4 → Nat) a + S1x1x1x1.size a ≤ S1x256x1x1.size a
  inb_S1x256x32x32_S1x1x32x32_0_195_0_0 : ∀ a, (![0, 195, 0, 0] : Fin 4 → Nat) a + S1x1x32x32.size a ≤ S1x256x32x32.size a
  inb_S1x256x1x1_S1x1x1x1_0_195_0_0 : ∀ a, (![0, 195, 0, 0] : Fin 4 → Nat) a + S1x1x1x1.size a ≤ S1x256x1x1.size a
  inb_S1x256x32x32_S1x1x32x32_0_196_0_0 : ∀ a, (![0, 196, 0, 0] : Fin 4 → Nat) a + S1x1x32x32.size a ≤ S1x256x32x32.size a
  inb_S1x256x1x1_S1x1x1x1_0_196_0_0 : ∀ a, (![0, 196, 0, 0] : Fin 4 → Nat) a + S1x1x1x1.size a ≤ S1x256x1x1.size a
  inb_S1x256x32x32_S1x1x32x32_0_197_0_0 : ∀ a, (![0, 197, 0, 0] : Fin 4 → Nat) a + S1x1x32x32.size a ≤ S1x256x32x32.size a
  inb_S1x256x1x1_S1x1x1x1_0_197_0_0 : ∀ a, (![0, 197, 0, 0] : Fin 4 → Nat) a + S1x1x1x1.size a ≤ S1x256x1x1.size a
  inb_S1x256x32x32_S1x1x32x32_0_198_0_0 : ∀ a, (![0, 198, 0, 0] : Fin 4 → Nat) a + S1x1x32x32.size a ≤ S1x256x32x32.size a
  inb_S1x256x1x1_S1x1x1x1_0_198_0_0 : ∀ a, (![0, 198, 0, 0] : Fin 4 → Nat) a + S1x1x1x1.size a ≤ S1x256x1x1.size a
  inb_S1x256x32x32_S1x1x32x32_0_199_0_0 : ∀ a, (![0, 199, 0, 0] : Fin 4 → Nat) a + S1x1x32x32.size a ≤ S1x256x32x32.size a
  inb_S1x256x1x1_S1x1x1x1_0_199_0_0 : ∀ a, (![0, 199, 0, 0] : Fin 4 → Nat) a + S1x1x1x1.size a ≤ S1x256x1x1.size a
  inb_S1x256x32x32_S1x1x32x32_0_200_0_0 : ∀ a, (![0, 200, 0, 0] : Fin 4 → Nat) a + S1x1x32x32.size a ≤ S1x256x32x32.size a
  inb_S1x256x1x1_S1x1x1x1_0_200_0_0 : ∀ a, (![0, 200, 0, 0] : Fin 4 → Nat) a + S1x1x1x1.size a ≤ S1x256x1x1.size a
  inb_S1x256x32x32_S1x1x32x32_0_201_0_0 : ∀ a, (![0, 201, 0, 0] : Fin 4 → Nat) a + S1x1x32x32.size a ≤ S1x256x32x32.size a
  inb_S1x256x1x1_S1x1x1x1_0_201_0_0 : ∀ a, (![0, 201, 0, 0] : Fin 4 → Nat) a + S1x1x1x1.size a ≤ S1x256x1x1.size a
  inb_S1x256x32x32_S1x1x32x32_0_202_0_0 : ∀ a, (![0, 202, 0, 0] : Fin 4 → Nat) a + S1x1x32x32.size a ≤ S1x256x32x32.size a
  inb_S1x256x1x1_S1x1x1x1_0_202_0_0 : ∀ a, (![0, 202, 0, 0] : Fin 4 → Nat) a + S1x1x1x1.size a ≤ S1x256x1x1.size a
  inb_S1x256x32x32_S1x1x32x32_0_203_0_0 : ∀ a, (![0, 203, 0, 0] : Fin 4 → Nat) a + S1x1x32x32.size a ≤ S1x256x32x32.size a
  inb_S1x256x1x1_S1x1x1x1_0_203_0_0 : ∀ a, (![0, 203, 0, 0] : Fin 4 → Nat) a + S1x1x1x1.size a ≤ S1x256x1x1.size a
  inb_S1x256x32x32_S1x1x32x32_0_204_0_0 : ∀ a, (![0, 204, 0, 0] : Fin 4 → Nat) a + S1x1x32x32.size a ≤ S1x256x32x32.size a
  inb_S1x256x1x1_S1x1x1x1_0_204_0_0 : ∀ a, (![0, 204, 0, 0] : Fin 4 → Nat) a + S1x1x1x1.size a ≤ S1x256x1x1.size a
  inb_S1x256x32x32_S1x1x32x32_0_205_0_0 : ∀ a, (![0, 205, 0, 0] : Fin 4 → Nat) a + S1x1x32x32.size a ≤ S1x256x32x32.size a
  inb_S1x256x1x1_S1x1x1x1_0_205_0_0 : ∀ a, (![0, 205, 0, 0] : Fin 4 → Nat) a + S1x1x1x1.size a ≤ S1x256x1x1.size a
  inb_S1x256x32x32_S1x1x32x32_0_206_0_0 : ∀ a, (![0, 206, 0, 0] : Fin 4 → Nat) a + S1x1x32x32.size a ≤ S1x256x32x32.size a
  inb_S1x256x1x1_S1x1x1x1_0_206_0_0 : ∀ a, (![0, 206, 0, 0] : Fin 4 → Nat) a + S1x1x1x1.size a ≤ S1x256x1x1.size a
  inb_S1x256x32x32_S1x1x32x32_0_207_0_0 : ∀ a, (![0, 207, 0, 0] : Fin 4 → Nat) a + S1x1x32x32.size a ≤ S1x256x32x32.size a
  inb_S1x256x1x1_S1x1x1x1_0_207_0_0 : ∀ a, (![0, 207, 0, 0] : Fin 4 → Nat) a + S1x1x1x1.size a ≤ S1x256x1x1.size a
  inb_S1x256x32x32_S1x1x32x32_0_208_0_0 : ∀ a, (![0, 208, 0, 0] : Fin 4 → Nat) a + S1x1x32x32.size a ≤ S1x256x32x32.size a
  inb_S1x256x1x1_S1x1x1x1_0_208_0_0 : ∀ a, (![0, 208, 0, 0] : Fin 4 → Nat) a + S1x1x1x1.size a ≤ S1x256x1x1.size a
  inb_S1x256x32x32_S1x1x32x32_0_209_0_0 : ∀ a, (![0, 209, 0, 0] : Fin 4 → Nat) a + S1x1x32x32.size a ≤ S1x256x32x32.size a
  inb_S1x256x1x1_S1x1x1x1_0_209_0_0 : ∀ a, (![0, 209, 0, 0] : Fin 4 → Nat) a + S1x1x1x1.size a ≤ S1x256x1x1.size a
  inb_S1x256x32x32_S1x1x32x32_0_210_0_0 : ∀ a, (![0, 210, 0, 0] : Fin 4 → Nat) a + S1x1x32x32.size a ≤ S1x256x32x32.size a
  inb_S1x256x1x1_S1x1x1x1_0_210_0_0 : ∀ a, (![0, 210, 0, 0] : Fin 4 → Nat) a + S1x1x1x1.size a ≤ S1x256x1x1.size a
  inb_S1x256x32x32_S1x1x32x32_0_211_0_0 : ∀ a, (![0, 211, 0, 0] : Fin 4 → Nat) a + S1x1x32x32.size a ≤ S1x256x32x32.size a
  inb_S1x256x1x1_S1x1x1x1_0_211_0_0 : ∀ a, (![0, 211, 0, 0] : Fin 4 → Nat) a + S1x1x1x1.size a ≤ S1x256x1x1.size a
  inb_S1x256x32x32_S1x1x32x32_0_212_0_0 : ∀ a, (![0, 212, 0, 0] : Fin 4 → Nat) a + S1x1x32x32.size a ≤ S1x256x32x32.size a
  inb_S1x256x1x1_S1x1x1x1_0_212_0_0 : ∀ a, (![0, 212, 0, 0] : Fin 4 → Nat) a + S1x1x1x1.size a ≤ S1x256x1x1.size a
  inb_S1x256x32x32_S1x1x32x32_0_213_0_0 : ∀ a, (![0, 213, 0, 0] : Fin 4 → Nat) a + S1x1x32x32.size a ≤ S1x256x32x32.size a
  inb_S1x256x1x1_S1x1x1x1_0_213_0_0 : ∀ a, (![0, 213, 0, 0] : Fin 4 → Nat) a + S1x1x1x1.size a ≤ S1x256x1x1.size a
  inb_S1x256x32x32_S1x1x32x32_0_214_0_0 : ∀ a, (![0, 214, 0, 0] : Fin 4 → Nat) a + S1x1x32x32.size a ≤ S1x256x32x32.size a
  inb_S1x256x1x1_S1x1x1x1_0_214_0_0 : ∀ a, (![0, 214, 0, 0] : Fin 4 → Nat) a + S1x1x1x1.size a ≤ S1x256x1x1.size a
  inb_S1x256x32x32_S1x1x32x32_0_215_0_0 : ∀ a, (![0, 215, 0, 0] : Fin 4 → Nat) a + S1x1x32x32.size a ≤ S1x256x32x32.size a
  inb_S1x256x1x1_S1x1x1x1_0_215_0_0 : ∀ a, (![0, 215, 0, 0] : Fin 4 → Nat) a + S1x1x1x1.size a ≤ S1x256x1x1.size a
  inb_S1x256x32x32_S1x1x32x32_0_216_0_0 : ∀ a, (![0, 216, 0, 0] : Fin 4 → Nat) a + S1x1x32x32.size a ≤ S1x256x32x32.size a
  inb_S1x256x1x1_S1x1x1x1_0_216_0_0 : ∀ a, (![0, 216, 0, 0] : Fin 4 → Nat) a + S1x1x1x1.size a ≤ S1x256x1x1.size a
  inb_S1x256x32x32_S1x1x32x32_0_217_0_0 : ∀ a, (![0, 217, 0, 0] : Fin 4 → Nat) a + S1x1x32x32.size a ≤ S1x256x32x32.size a
  inb_S1x256x1x1_S1x1x1x1_0_217_0_0 : ∀ a, (![0, 217, 0, 0] : Fin 4 → Nat) a + S1x1x1x1.size a ≤ S1x256x1x1.size a
  inb_S1x256x32x32_S1x1x32x32_0_218_0_0 : ∀ a, (![0, 218, 0, 0] : Fin 4 → Nat) a + S1x1x32x32.size a ≤ S1x256x32x32.size a
  inb_S1x256x1x1_S1x1x1x1_0_218_0_0 : ∀ a, (![0, 218, 0, 0] : Fin 4 → Nat) a + S1x1x1x1.size a ≤ S1x256x1x1.size a
  inb_S1x256x32x32_S1x1x32x32_0_219_0_0 : ∀ a, (![0, 219, 0, 0] : Fin 4 → Nat) a + S1x1x32x32.size a ≤ S1x256x32x32.size a
  inb_S1x256x1x1_S1x1x1x1_0_219_0_0 : ∀ a, (![0, 219, 0, 0] : Fin 4 → Nat) a + S1x1x1x1.size a ≤ S1x256x1x1.size a
  inb_S1x256x32x32_S1x1x32x32_0_220_0_0 : ∀ a, (![0, 220, 0, 0] : Fin 4 → Nat) a + S1x1x32x32.size a ≤ S1x256x32x32.size a
  inb_S1x256x1x1_S1x1x1x1_0_220_0_0 : ∀ a, (![0, 220, 0, 0] : Fin 4 → Nat) a + S1x1x1x1.size a ≤ S1x256x1x1.size a
  inb_S1x256x32x32_S1x1x32x32_0_221_0_0 : ∀ a, (![0, 221, 0, 0] : Fin 4 → Nat) a + S1x1x32x32.size a ≤ S1x256x32x32.size a
  inb_S1x256x1x1_S1x1x1x1_0_221_0_0 : ∀ a, (![0, 221, 0, 0] : Fin 4 → Nat) a + S1x1x1x1.size a ≤ S1x256x1x1.size a
  inb_S1x256x32x32_S1x1x32x32_0_222_0_0 : ∀ a, (![0, 222, 0, 0] : Fin 4 → Nat) a + S1x1x32x32.size a ≤ S1x256x32x32.size a
  inb_S1x256x1x1_S1x1x1x1_0_222_0_0 : ∀ a, (![0, 222, 0, 0] : Fin 4 → Nat) a + S1x1x1x1.size a ≤ S1x256x1x1.size a
  inb_S1x256x32x32_S1x1x32x32_0_223_0_0 : ∀ a, (![0, 223, 0, 0] : Fin 4 → Nat) a + S1x1x32x32.size a ≤ S1x256x32x32.size a
  inb_S1x256x1x1_S1x1x1x1_0_223_0_0 : ∀ a, (![0, 223, 0, 0] : Fin 4 → Nat) a + S1x1x1x1.size a ≤ S1x256x1x1.size a
  inb_S1x256x32x32_S1x1x32x32_0_224_0_0 : ∀ a, (![0, 224, 0, 0] : Fin 4 → Nat) a + S1x1x32x32.size a ≤ S1x256x32x32.size a
  inb_S1x256x1x1_S1x1x1x1_0_224_0_0 : ∀ a, (![0, 224, 0, 0] : Fin 4 → Nat) a + S1x1x1x1.size a ≤ S1x256x1x1.size a
  inb_S1x256x32x32_S1x1x32x32_0_225_0_0 : ∀ a, (![0, 225, 0, 0] : Fin 4 → Nat) a + S1x1x32x32.size a ≤ S1x256x32x32.size a
  inb_S1x256x1x1_S1x1x1x1_0_225_0_0 : ∀ a, (![0, 225, 0, 0] : Fin 4 → Nat) a + S1x1x1x1.size a ≤ S1x256x1x1.size a
  inb_S1x256x32x32_S1x1x32x32_0_226_0_0 : ∀ a, (![0, 226, 0, 0] : Fin 4 → Nat) a + S1x1x32x32.size a ≤ S1x256x32x32.size a
  inb_S1x256x1x1_S1x1x1x1_0_226_0_0 : ∀ a, (![0, 226, 0, 0] : Fin 4 → Nat) a + S1x1x1x1.size a ≤ S1x256x1x1.size a
  inb_S1x256x32x32_S1x1x32x32_0_227_0_0 : ∀ a, (![0, 227, 0, 0] : Fin 4 → Nat) a + S1x1x32x32.size a ≤ S1x256x32x32.size a
  inb_S1x256x1x1_S1x1x1x1_0_227_0_0 : ∀ a, (![0, 227, 0, 0] : Fin 4 → Nat) a + S1x1x1x1.size a ≤ S1x256x1x1.size a
  inb_S1x256x32x32_S1x1x32x32_0_228_0_0 : ∀ a, (![0, 228, 0, 0] : Fin 4 → Nat) a + S1x1x32x32.size a ≤ S1x256x32x32.size a
  inb_S1x256x1x1_S1x1x1x1_0_228_0_0 : ∀ a, (![0, 228, 0, 0] : Fin 4 → Nat) a + S1x1x1x1.size a ≤ S1x256x1x1.size a
  inb_S1x256x32x32_S1x1x32x32_0_229_0_0 : ∀ a, (![0, 229, 0, 0] : Fin 4 → Nat) a + S1x1x32x32.size a ≤ S1x256x32x32.size a
  inb_S1x256x1x1_S1x1x1x1_0_229_0_0 : ∀ a, (![0, 229, 0, 0] : Fin 4 → Nat) a + S1x1x1x1.size a ≤ S1x256x1x1.size a
  inb_S1x256x32x32_S1x1x32x32_0_230_0_0 : ∀ a, (![0, 230, 0, 0] : Fin 4 → Nat) a + S1x1x32x32.size a ≤ S1x256x32x32.size a
  inb_S1x256x1x1_S1x1x1x1_0_230_0_0 : ∀ a, (![0, 230, 0, 0] : Fin 4 → Nat) a + S1x1x1x1.size a ≤ S1x256x1x1.size a
  inb_S1x256x32x32_S1x1x32x32_0_231_0_0 : ∀ a, (![0, 231, 0, 0] : Fin 4 → Nat) a + S1x1x32x32.size a ≤ S1x256x32x32.size a
  inb_S1x256x1x1_S1x1x1x1_0_231_0_0 : ∀ a, (![0, 231, 0, 0] : Fin 4 → Nat) a + S1x1x1x1.size a ≤ S1x256x1x1.size a
  inb_S1x256x32x32_S1x1x32x32_0_232_0_0 : ∀ a, (![0, 232, 0, 0] : Fin 4 → Nat) a + S1x1x32x32.size a ≤ S1x256x32x32.size a
  inb_S1x256x1x1_S1x1x1x1_0_232_0_0 : ∀ a, (![0, 232, 0, 0] : Fin 4 → Nat) a + S1x1x1x1.size a ≤ S1x256x1x1.size a
  inb_S1x256x32x32_S1x1x32x32_0_233_0_0 : ∀ a, (![0, 233, 0, 0] : Fin 4 → Nat) a + S1x1x32x32.size a ≤ S1x256x32x32.size a
  inb_S1x256x1x1_S1x1x1x1_0_233_0_0 : ∀ a, (![0, 233, 0, 0] : Fin 4 → Nat) a + S1x1x1x1.size a ≤ S1x256x1x1.size a
  inb_S1x256x32x32_S1x1x32x32_0_234_0_0 : ∀ a, (![0, 234, 0, 0] : Fin 4 → Nat) a + S1x1x32x32.size a ≤ S1x256x32x32.size a
  inb_S1x256x1x1_S1x1x1x1_0_234_0_0 : ∀ a, (![0, 234, 0, 0] : Fin 4 → Nat) a + S1x1x1x1.size a ≤ S1x256x1x1.size a
  inb_S1x256x32x32_S1x1x32x32_0_235_0_0 : ∀ a, (![0, 235, 0, 0] : Fin 4 → Nat) a + S1x1x32x32.size a ≤ S1x256x32x32.size a
  inb_S1x256x1x1_S1x1x1x1_0_235_0_0 : ∀ a, (![0, 235, 0, 0] : Fin 4 → Nat) a + S1x1x1x1.size a ≤ S1x256x1x1.size a
  inb_S1x256x32x32_S1x1x32x32_0_236_0_0 : ∀ a, (![0, 236, 0, 0] : Fin 4 → Nat) a + S1x1x32x32.size a ≤ S1x256x32x32.size a
  inb_S1x256x1x1_S1x1x1x1_0_236_0_0 : ∀ a, (![0, 236, 0, 0] : Fin 4 → Nat) a + S1x1x1x1.size a ≤ S1x256x1x1.size a
  inb_S1x256x32x32_S1x1x32x32_0_237_0_0 : ∀ a, (![0, 237, 0, 0] : Fin 4 → Nat) a + S1x1x32x32.size a ≤ S1x256x32x32.size a
  inb_S1x256x1x1_S1x1x1x1_0_237_0_0 : ∀ a, (![0, 237, 0, 0] : Fin 4 → Nat) a + S1x1x1x1.size a ≤ S1x256x1x1.size a
  inb_S1x256x32x32_S1x1x32x32_0_238_0_0 : ∀ a, (![0, 238, 0, 0] : Fin 4 → Nat) a + S1x1x32x32.size a ≤ S1x256x32x32.size a
  inb_S1x256x1x1_S1x1x1x1_0_238_0_0 : ∀ a, (![0, 238, 0, 0] : Fin 4 → Nat) a + S1x1x1x1.size a ≤ S1x256x1x1.size a
  inb_S1x256x32x32_S1x1x32x32_0_239_0_0 : ∀ a, (![0, 239, 0, 0] : Fin 4 → Nat) a + S1x1x32x32.size a ≤ S1x256x32x32.size a
  inb_S1x256x1x1_S1x1x1x1_0_239_0_0 : ∀ a, (![0, 239, 0, 0] : Fin 4 → Nat) a + S1x1x1x1.size a ≤ S1x256x1x1.size a
  inb_S1x256x32x32_S1x1x32x32_0_240_0_0 : ∀ a, (![0, 240, 0, 0] : Fin 4 → Nat) a + S1x1x32x32.size a ≤ S1x256x32x32.size a
  inb_S1x256x1x1_S1x1x1x1_0_240_0_0 : ∀ a, (![0, 240, 0, 0] : Fin 4 → Nat) a + S1x1x1x1.size a ≤ S1x256x1x1.size a
  inb_S1x256x32x32_S1x1x32x32_0_241_0_0 : ∀ a, (![0, 241, 0, 0] : Fin 4 → Nat) a + S1x1x32x32.size a ≤ S1x256x32x32.size a
  inb_S1x256x1x1_S1x1x1x1_0_241_0_0 : ∀ a, (![0, 241, 0, 0] : Fin 4 → Nat) a + S1x1x1x1.size a ≤ S1x256x1x1.size a
  inb_S1x256x32x32_S1x1x32x32_0_242_0_0 : ∀ a, (![0, 242, 0, 0] : Fin 4 → Nat) a + S1x1x32x32.size a ≤ S1x256x32x32.size a
  inb_S1x256x1x1_S1x1x1x1_0_242_0_0 : ∀ a, (![0, 242, 0, 0] : Fin 4 → Nat) a + S1x1x1x1.size a ≤ S1x256x1x1.size a
  inb_S1x256x32x32_S1x1x32x32_0_243_0_0 : ∀ a, (![0, 243, 0, 0] : Fin 4 → Nat) a + S1x1x32x32.size a ≤ S1x256x32x32.size a
  inb_S1x256x1x1_S1x1x1x1_0_243_0_0 : ∀ a, (![0, 243, 0, 0] : Fin 4 → Nat) a + S1x1x1x1.size a ≤ S1x256x1x1.size a
  inb_S1x256x32x32_S1x1x32x32_0_244_0_0 : ∀ a, (![0, 244, 0, 0] : Fin 4 → Nat) a + S1x1x32x32.size a ≤ S1x256x32x32.size a
  inb_S1x256x1x1_S1x1x1x1_0_244_0_0 : ∀ a, (![0, 244, 0, 0] : Fin 4 → Nat) a + S1x1x1x1.size a ≤ S1x256x1x1.size a
  inb_S1x256x32x32_S1x1x32x32_0_245_0_0 : ∀ a, (![0, 245, 0, 0] : Fin 4 → Nat) a + S1x1x32x32.size a ≤ S1x256x32x32.size a
  inb_S1x256x1x1_S1x1x1x1_0_245_0_0 : ∀ a, (![0, 245, 0, 0] : Fin 4 → Nat) a + S1x1x1x1.size a ≤ S1x256x1x1.size a
  inb_S1x256x32x32_S1x1x32x32_0_246_0_0 : ∀ a, (![0, 246, 0, 0] : Fin 4 → Nat) a + S1x1x32x32.size a ≤ S1x256x32x32.size a
  inb_S1x256x1x1_S1x1x1x1_0_246_0_0 : ∀ a, (![0, 246, 0, 0] : Fin 4 → Nat) a + S1x1x1x1.size a ≤ S1x256x1x1.size a
  inb_S1x256x32x32_S1x1x32x32_0_247_0_0 : ∀ a, (![0, 247, 0, 0] : Fin 4 → Nat) a + S1x1x32x32.size a ≤ S1x256x32x32.size a
  inb_S1x256x1x1_S1x1x1x1_0_247_0_0 : ∀ a, (![0, 247, 0, 0] : Fin 4 → Nat) a + S1x1x1x1.size a ≤ S1x256x1x1.size a
  inb_S1x256x32x32_S1x1x32x32_0_248_0_0 : ∀ a, (![0, 248, 0, 0] : Fin 4 → Nat) a + S1x1x32x32.size a ≤ S1x256x32x32.size a
  inb_S1x256x1x1_S1x1x1x1_0_248_0_0 : ∀ a, (![0, 248, 0, 0] : Fin 4 → Nat) a + S1x1x1x1.size a ≤ S1x256x1x1.size a
  inb_S1x256x32x32_S1x1x32x32_0_249_0_0 : ∀ a, (![0, 249, 0, 0] : Fin 4 → Nat) a + S1x1x32x32.size a ≤ S1x256x32x32.size a
  inb_S1x256x1x1_S1x1x1x1_0_249_0_0 : ∀ a, (![0, 249, 0, 0] : Fin 4 → Nat) a + S1x1x1x1.size a ≤ S1x256x1x1.size a
  inb_S1x256x32x32_S1x1x32x32_0_250_0_0 : ∀ a, (![0, 250, 0, 0] : Fin 4 → Nat) a + S1x1x32x32.size a ≤ S1x256x32x32.size a
  inb_S1x256x1x1_S1x1x1x1_0_250_0_0 : ∀ a, (![0, 250, 0, 0] : Fin 4 → Nat) a + S1x1x1x1.size a ≤ S1x256x1x1.size a
  inb_S1x256x32x32_S1x1x32x32_0_251_0_0 : ∀ a, (![0, 251, 0, 0] : Fin 4 → Nat) a + S1x1x32x32.size a ≤ S1x256x32x32.size a
  inb_S1x256x1x1_S1x1x1x1_0_251_0_0 : ∀ a, (![0, 251, 0, 0] : Fin 4 → Nat) a + S1x1x1x1.size a ≤ S1x256x1x1.size a
  inb_S1x256x32x32_S1x1x32x32_0_252_0_0 : ∀ a, (![0, 252, 0, 0] : Fin 4 → Nat) a + S1x1x32x32.size a ≤ S1x256x32x32.size a
  inb_S1x256x1x1_S1x1x1x1_0_252_0_0 : ∀ a, (![0, 252, 0, 0] : Fin 4 → Nat) a + S1x1x1x1.size a ≤ S1x256x1x1.size a
  inb_S1x256x32x32_S1x1x32x32_0_253_0_0 : ∀ a, (![0, 253, 0, 0] : Fin 4 → Nat) a + S1x1x32x32.size a ≤ S1x256x32x32.size a
  inb_S1x256x1x1_S1x1x1x1_0_253_0_0 : ∀ a, (![0, 253, 0, 0] : Fin 4 → Nat) a + S1x1x1x1.size a ≤ S1x256x1x1.size a
  inb_S1x256x32x32_S1x1x32x32_0_254_0_0 : ∀ a, (![0, 254, 0, 0] : Fin 4 → Nat) a + S1x1x32x32.size a ≤ S1x256x32x32.size a
  inb_S1x256x1x1_S1x1x1x1_0_254_0_0 : ∀ a, (![0, 254, 0, 0] : Fin 4 → Nat) a + S1x1x1x1.size a ≤ S1x256x1x1.size a
  inb_S1x256x32x32_S1x1x32x32_0_255_0_0 : ∀ a, (![0, 255, 0, 0] : Fin 4 → Nat) a + S1x1x32x32.size a ≤ S1x256x32x32.size a
  inb_S1x256x1x1_S1x1x1x1_0_255_0_0 : ∀ a, (![0, 255, 0, 0] : Fin 4 → Nat) a + S1x1x1x1.size a ≤ S1x256x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  inb_S64x32_S64x32_0_0 : ∀ a, (![0, 0] : Fin 2 → Nat) a + S64x32.size a ≤ S64x32.size a
  h_S64x32 : 0 < S64x32.numel
  inb_S32x64_S32x64_0_0 : ∀ a, (![0, 0] : Fin 2 → Nat) a + S32x64.size a ≤ S32x64.size a
  h_S32x64 : 0 < S32x64.numel
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  dot_S128x256_S256x1024_S128x1024_1_0_0_1_n_n_wf : DotDims.WF S128x256 S256x1024 S128x1024 [1] [0] [0] [1] [] []
  dot_S64x32_S32x32_S64x32_1_0_0_1_n_n_wf : DotDims.WF S64x32 S32x32 S64x32 [1] [0] [0] [1] [] []
  dot_S64x32_S32x64_S64x64_1_0_0_1_n_n_wf : DotDims.WF S64x32 S32x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x1.size a ≤ S32x1x128x1.size a
  hwx0_2 : ∀ i : grid0.Coords, EltTy.bits .f32 = 32 ∨ (Rect.block (s := S32x1x128x1) S1x1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x1.size a ≤ S32x1x128x1.size a
  hwx0_3 : ∀ i : grid0.Coords, EltTy.bits .f32 = 32 ∨ (Rect.block (s := S32x1x128x1) S1x1x128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x32x32.size a ≤ S32x256x32x32.size a
  hwx1_0 : ∀ i : grid1.Coords, EltTy.bits .f32 = 32 ∨ (Rect.block (s := S32x256x32x32) S1x256x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S128x256x1x1.size a
  hwx1_1 : ∀ i : grid1.Coords, EltTy.bits .f32 = 32 ∨ (Rect.block (s := S128x256x1x1) S1x256x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S128x1x1.size a
  hwx1_2 : ∀ i : grid1.Coords, EltTy.bits .f32 = 32 ∨ (Rect.block (s := S128x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S128x1x1.size a
  hwx1_3 : ∀ i : grid1.Coords, EltTy.bits .f32 = 32 ∨ (Rect.block (s := S128x1x1) S1x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x64x64.size a ≤ S32x128x64x64.size a
  hwx1_6 : ∀ i : grid1.Coords, EltTy.bits .f32 = 32 ∨ (Rect.block (s := S32x128x64x64) S1x1x64x64.size (cc1_transform_6 i) (hinb1_6 i)).WholeWords (EltTy.packing .f32)

variable [Facts₀]

def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S64x32_S32x32_S64x32_1_0_0_1_n_n : DotDims S64x32 S32x32 S64x32 where
  lhsContracting := [1]
  rhsContracting := [0]
  lhsNonContracting := [0]
  rhsNonContracting := [1]
  lhsBatch := []
  rhsBatch := []
  wf := dot_S64x32_S32x32_S64x32_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf

abbrev win0_0 : Pipeline.Window sig grid0 :=
  Pipeline.Window.ofSpec (Memref.whole main_v2) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_cst) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_cst_0) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x1x64x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.Spec.lean ====
/-
  The mathematics both programs compute, stated once over the four argument arrays as extended reals.

  x : [32, 256, 32, 32], wt : [128, 256, 1, 1], g, b : [128].  With
    act n co h w   = max (∑ ci, wt[co, ci] · x[n, ci, h, w]) 0                      (1×1 convolution, then ReLU)
    s1 co          = 0 + ∑ n, ∑ p < 1024, act n co (p / 32) (p % 32)                 (per-channel sum of activations)
    s2 co          = 0 + ∑ n, ∑ p < 1024, act · act                                  (per-channel sum of squares)
    mean = s1 / M,  var = max (s2 / M − mean²) 0,  scale = g / sqrt (var + ε),  shift = b − mean · scale
  the result at (n, co, a, a') is the separable bilinear interpolation of the normalised activations
    ∑ w, (∑ h, (act n co h w · scale co + shift co) · A0[h, a]) · A1[w, a'].
  One program contracts the image rows against a [32, 64] interpolation matrix from the right (outA), the other against the
  transposed [64, 32] matrix from the left and forms the convolution's products in the other order (outB); `outA_eq_outB`
  says the two are one function when the second matrix is the transpose of the first: commutativity of the product
  and nothing else, so no finiteness is used.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![32, 256, 32, 32]⟩
abbrev SW : Shape := ⟨4, ![128, 256, 1, 1]⟩
abbrev SC : Shape := ⟨1, ![128]⟩
abbrev SO : Shape := ⟨4, ![32, 128, 64, 64]⟩
abbrev SA : Shape := ⟨2, ![32, 64]⟩
abbrev SAt : Shape := ⟨2, ![64, 32]⟩

/-- The flattened pixel `p` of a 32 × 32 image is row `p / 32`, column `p % 32`. -/
abbrev prow (p : Fin 1024) : Fin 32 := ⟨p.val / 32, by have := p.isLt; omega⟩
abbrev pcol (p : Fin 1024) : Fin 32 := ⟨p.val % 32, Nat.mod_lt _ (by decide)⟩

variable (x : SX.Idx → EReal) (wt : SW.Idx → EReal) (g b : SC.Idx → EReal)

/-- The 1×1 convolution followed by ReLU, at image `n`, output channel `co`, pixel `(h, w)`. -/
def act (n : Fin 32) (co : Fin 128) (h w : Fin 32) : EReal :=
  max (∑ ci : Fin 256, wt (ix4 co ci 0 0) * x (ix4 n ci h w)) (Ideal.ofBits .f32 0x00000000#32)

/-- The activations of one image and channel summed over the pixels. -/
def rowSum (n : Fin 32) (co : Fin 128) : EReal := ∑ p : Fin 1024, act x wt n co (prow p) (pcol p)

/-- … and their squares. -/
def rowSumSq (n : Fin 32) (co : Fin 128) : EReal :=
  ∑ p : Fin 1024, act x wt n co (prow p) (pcol p) * act x wt n co (prow p) (pcol p)

/-- The batch statistics' two sums per channel (the host reduction starts from the literal zero). -/
def s1 (co : Fin 128) : EReal := Ideal.ofBits .f32 0x00000000#32 + ∑ n : Fin 32, rowSum x wt n co
def s2 (co : Fin 128) : EReal := Ideal.ofBits .f32 0x00000000#32 + ∑ n : Fin 32, rowSumSq x wt n co

/-- The number of averaged entries, 32 · 1024, as the literal both programs divide by. -/
abbrev cM : EReal := Ideal.ofBits .f32 0x47000000#32

def mean (s : EReal) : EReal := Ideal.div s cM

/-- scale = g / sqrt (max (s2 / M − mean²) 0 + ε). -/
def scaleOf (s sq gv : EReal) : EReal :=
  Ideal.div gv (Ideal.sqrt (max (Ideal.div sq cM - mean s * mean s) (Ideal.ofBits .f32 0x00000000#32)
    + Ideal.ofBits .f32 0x3727C5AC#32))

/-- shift = b − mean · scale. -/
def shiftOf (s sq gv bv : EReal) : EReal := bv - mean s * scaleOf s sq gv

def scale (co : Fin 128) : EReal := scaleOf (s1 x wt co) (s2 x wt co) (g (ix1 co))
def shift (co : Fin 128) : EReal := shiftOf (s1 x wt co) (s2 x wt co) (g (ix1 co)) (b (ix1 co))

/-- Rows contracted first against `A0 : [32, 64]` from the right, then columns against `A1 : [32, 64]`. -/
def outA (A0 A1 : SA.Idx → EReal) (n : Fin 32) (co : Fin 128) (a a' : Fin 64) : EReal :=
  ∑ w : Fin 32, (∑ h : Fin 32, (act x wt n co h w * scale x wt g co + shift x wt g b co) * A0 (ix2 h a))
    * A1 (ix2 w a')

/-- Rows contracted against `Ah : [64, 32]` from the left, the convolution's products formed as x · wt. -/
def outB (Ah : SAt.Idx → EReal) (A1 : SA.Idx → EReal) (n : Fin 32) (co : Fin 128) (a a' : Fin 64) : EReal :=
  ∑ w : Fin 32, (∑ h : Fin 32, Ah (ix2 a h)
      * (max (∑ ci : Fin 256, x (ix4 n ci h w) * wt (ix4 co ci 0 0)) (Ideal.ofBits .f32 0x00000000#32)
          * scale x wt g co + shift x wt g b co))
    * A1 (ix2 w a')

/-- The two arrangements are one function when `Ah` is the transpose of `A0`. -/
theorem outA_eq_outB (A0 A1 : SA.Idx → EReal) (Ah : SAt.Idx → EReal)
    (hT : ∀ (a : Fin 64) (h : Fin 32), Ah (ix2 a h) = A0 (ix2 h a)) :
    outA x wt g b A0 A1 = outB x wt g b Ah A1 := by
  funext n co a a'
  unfold outA outB act
  refine Finset.sum_congr rfl fun w _ => ?_
  congr 1
  refine Finset.sum_congr rfl fun h _ => ?_
  rw [hT, mul_comm]
  have e : (∑ ci : Fin 256, wt (ix4 co ci 0 0) * x (ix4 n ci h w)) = ∑ ci : Fin 256, x (ix4 n ci h w) * wt (ix4 co ci 0 0) :=
    Finset.sum_congr rfl fun ci _ => mul_comm (wt (ix4 co ci 0 0)) (x (ix4 n ci h w))
  rw [e]

end Cert.Spec

end
-- ==== Proof.Lits.lean ====
/-
  The interpolation matrices the two programs carry as dense literals. The first program holds the [32, 64] matrix
  twice (image rows and columns have the same extent); the second holds its transpose, [64, 32], for the rows, and the
  same [32, 64] matrix for the columns. Entry (a, h) of the transpose is entry (h, a) of the matrix, word for word:
  in row-major order, word 32·a + h of the one table is word 64·h + a of the other. Both facts are decided on the words;
  no word is ever read as a number.
-/
import proofs.«111454_g2000205057013705_pallasbulk_543_2_alg».proof.KernelIdeal
import proofs.«111454_g2000205057013705_pallasbulk_543_2_alg».proof.ReferenceIdeal
import Idealize.ShloMosaic.Lib.ValueIdx

set_option maxRecDepth 16384

noncomputable section

namespace Cert.Lits

open Idealize.ShloMosaic Idealize.ShloMosaic.ValueIdx

/-- Word 32·a + h of the [64, 32] table is word 64·h + a of the [32, 64] table. -/
theorem words_transposed : ∀ (a : Fin 64) (h : Fin 32),
    Cert.ReferenceIdeal.lit0t (32 * a.val + h.val) = Cert.KernelIdeal.lit0t (64 * h.val + a.val) := by
  decide +kernel

/-- The two [32, 64] column tables are the same words. -/
theorem words_equal : ∀ k : Fin 2048, Cert.ReferenceIdeal.lit1t k.val = Cert.KernelIdeal.lit1t k.val := by
  decide +kernel

/-- The row matrix of the second program is the transpose of the first program's. -/
theorem rows_transposed (a : Fin 64) (h : Fin 32) :
    (Ideal.ofBits .f32 (Cert.ReferenceIdeal.lit0 (Cert.ReferenceIdeal.S64x32.rowMajor (ix2 a h))) : EReal)
      = Ideal.ofBits .f32 (Cert.KernelIdeal.lit0 (Cert.KernelIdeal.S32x64.rowMajor (ix2 h a))) := by
  have e1 : (Cert.ReferenceIdeal.S64x32.rowMajor (ix2 a h)).val = 32 * a.val + h.val := by
    rw [Shape.rowMajor_val_two]; show a.val * 32 + h.val = _; omega
  have e2 : (Cert.KernelIdeal.S32x64.rowMajor (ix2 h a)).val = 64 * h.val + a.val := by
    rw [Shape.rowMajor_val_two]; show h.val * 64 + a.val = _; omega
  show Ideal.ofBits .f32 (Cert.ReferenceIdeal.lit0t (Cert.ReferenceIdeal.S64x32.rowMajor (ix2 a h)).val)
    = Ideal.ofBits .f32 (Cert.KernelIdeal.lit0t (Cert.KernelIdeal.S32x64.rowMajor (ix2 h a)).val)
  rw [e1, e2, words_transposed a h]

/-- The column matrices are one matrix. -/
theorem cols_equal (j : Cert.ReferenceIdeal.S32x64.Idx) :
    (Ideal.ofBits .f32 (Cert.ReferenceIdeal.lit1 (Cert.ReferenceIdeal.S32x64.rowMajor j)) : EReal)
      = Ideal.ofBits .f32 (Cert.KernelIdeal.lit1 (Cert.KernelIdeal.S32x64.rowMajor j)) := by
  show Ideal.ofBits .f32 (Cert.ReferenceIdeal.lit1t (Cert.ReferenceIdeal.S32x64.rowMajor j).val)
    = Ideal.ofBits .f32 (Cert.KernelIdeal.lit1t (Cert.KernelIdeal.S32x64.rowMajor j).val)
  exact congrArg _ (words_equal (Cert.ReferenceIdeal.S32x64.rowMajor j))

end Cert.Lits

end
-- ==== Proof.KValRun.lean ====
/-
  The run of the whole program with its result named: every weakly fair execution from the launch memory terminates
  without a fault, the result array ends at what the last region's write-backs leave of it (the last fold `W4` at the
  result's buffer), and the four argument arrays end as launched. It is the frame's launch over the same segments;
  only the final state is read at one more buffer, the result's, which no later segment touches.
-/
import proofs.«111454_g2000205057013705_pallasbulk_543_2_alg».proof.Proof.Gen.KernelIdeal.Frame

set_option maxRecDepth 16384

noncomputable section

namespace Cert.KernelIdeal.ValRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.ValRun

end
-- ==== Proof.RValRun.lean ====
/-
  The run of the whole program with its result named: every weakly fair execution from the launch memory terminates
  without a fault, the result array ends at what the last region's write-backs leave of it (the last fold `W4` at the
  result's buffer), and the four argument arrays end as launched. It is the frame's launch over the same segments;
  only the final state is read at one more buffer, the result's, which no later segment touches.
-/
import proofs.«111454_g2000205057013705_pallasbulk_543_2_alg».proof.Proof.Gen.ReferenceIdeal.Frame

set_option maxRecDepth 16384

noncomputable section

namespace Cert.ReferenceIdeal.ValRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.ReferenceIdeal.ValRun

end
-- ==== Proof.KStmt.lean ====
/-
  What each store of the two kernel bodies of the first program holds, entry by entry, as sums and products of the
  loaded blocks at the extended reals: the statements only (their proofs are in KPay.lean; the run-side proof takes
  them as hypotheses).
-/
import proofs.«111454_g2000205057013705_pallasbulk_543_2_alg».proof.Proof.Gen.KernelIdeal.Skeleton
import Idealize.ShloMosaic.Lib.ValueIdx

noncomputable section

open scoped BigOperators

namespace Cert.KernelIdeal.Stmt

open Idealize.ShloMosaic Idealize.ShloMosaic.ValueIdx Cert.KernelIdeal Cert.KernelIdeal.Gen

/-- One row of the weight block against one pixel column of the image block, then ReLU. -/
def conv (v0 : FVec Ideal S128x256 .f32) (v2 : FVec Ideal S1x256x1024 .f32) (co : Fin 128) (p : Fin 1024) : EReal :=
  max (∑ ci : Fin 256, v0 (ix2 co ci) * v2 (ix3 0 ci p)) (Ideal.ofBits .f32 0x00000000#32)

/-- The activation block: entry (0, co, p) is the convolution at (co, p). -/
def KM1 : Prop := ∀ (v0 : FVec Ideal S128x256 .f32) (v2 : FVec Ideal S1x256x1024 .f32) (co : Fin 128) (p : Fin 1024),
  (k0_pay2 (F := Ideal) v0 v2 (ix3 0 co p) : EReal) = conv v0 v2 co p

/-- The per-image sum block: entry (0, co, 0) is the sum of the activations over the 1024 pixels. -/
def KM2 : Prop := ∀ (v0 : FVec Ideal S128x256 .f32) (v2 : FVec Ideal S1x256x1024 .f32) (co : Fin 128),
  (k0_pay3 (F := Ideal) v0 v2 (ix3 0 co 0) : EReal) = ∑ p : Fin 1024, conv v0 v2 co p

/-- The per-image sum of squares. -/
def KM3 : Prop := ∀ (v0 : FVec Ideal S128x256 .f32) (v2 : FVec Ideal S1x256x1024 .f32) (co : Fin 128),
  (k0_pay4 (F := Ideal) v0 v2 (ix3 0 co 0) : EReal) = ∑ p : Fin 1024, conv v0 v2 co p * conv v0 v2 co p

/-- The upsampled block: the affine map of the activation block, rows contracted against `v12`, then columns against `v17`. -/
def KM4 : Prop := ∀ (v0 : FVec Ideal S1x128x32x32 .f32) (v2 v6 : FVec Ideal S128x1x1 .f32) (v12 v17 : FVec Ideal S32x64 .f32)
    (co : Fin 128) (a a' : Fin 64),
  (k1_pay1 (F := Ideal) v0 v2 v6 v12 v17 (ix4 0 co a a') : EReal)
    = ∑ w : Fin 32, (∑ h : Fin 32, (v0 (ix4 0 co h w) * v2 (ix3 co 0 0) + v6 (ix3 co 0 0)) * v12 (ix2 h a)) * v17 (ix2 w a')

end Cert.KernelIdeal.Stmt

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.KPay.lean ====
/-
  The two kernel bodies of the first program read entry by entry at the extended reals.

  First body: the weight block `v0 : [128, 256]` times the image block `v2 : [1, 256, 1024]` (viewed `[256, 1024]`) into a
  zero accumulator, then the maximum with zero: entry (co, p) is `conv v0 v2 co p`. The three stores hold that matrix
  viewed `[1, 128, 1024]`, its row sums and the row sums of its squares, each viewed `[128] → [128, 1] → [1, 128, 1]`.

  Second body: the activation block `v0 : [1, 128, 32, 32]` (viewed `[128, 32, 32]`) times the per-channel scale plus the
  per-channel shift (both `[128, 1, 1]`, broadcast), transposed in its last two axes, its `128 · 32` rows of length 32
  multiplied by `v12 : [32, 64]` (row `32·co + w` holds channel co, image column w; the product contracts the image row h),
  the result viewed `[128, 32, 64]`, transposed again, its `128 · 64` rows of length 32 multiplied by `v17 : [32, 64]` (row
  `64·co + a`; the product contracts the image column w), and the result viewed `[1, 128, 64, 64]`.
-/
import proofs.«111454_g2000205057013705_pallasbulk_543_2_alg».proof.Proof.KStmt
import proofs.«111454_g2000205057013705_pallasbulk_543_2_alg».proof.Proof.LibReadAt

noncomputable section

open scoped BigOperators

namespace Cert.KernelIdeal.Pay

open Idealize.ShloMosaic Idealize.ShloMosaic.ValueIdx Cert.KernelIdeal Cert.KernelIdeal.Gen Cert.KernelIdeal.Stmt Cert.ReadAt

/-! ## The first body -/

/-- The activation matrix at (co, p): the row co of the weights against the pixel column p of the image, then the
    maximum with zero. -/
theorem pay1_apply (v0 : FVec Ideal S128x256 .f32) (v2 : FVec Ideal S1x256x1024 .f32) (co : Fin 128) (p : Fin 1024) :
    (k0_pay1 (F := Ideal) v0 v2 (ix2 co p) : EReal) = conv v0 v2 co p := by
  unfold k0_pay1 conv
  refine congrArg (fun z : EReal => max z (Ideal.ofBits .f32 0x00000000#32)) ?_
  refine (matmul_plain_zero_apply (m := 128) (k := 256) (n := 1024) none _ _ co p).trans ?_
  exact Finset.sum_congr rfl fun ci _ =>
    congrArg₂ (· * ·) (congrFun (shapeCast_self v0 _) (ix2 co ci)) (shapeCast_1ab_ab_apply v2 _ ci p)

/-- The stored activation block is that matrix under a leading unit axis. -/
theorem km1 : KM1 := fun v0 v2 co p => by
  unfold k0_pay2
  exact (shapeCast_ab_1ab_apply (a := 128) (b := 1024) _ _ 0 co p).trans (pay1_apply v0 v2 co p)

/-- The stored sums: the lane sum of the activation matrix, as a column under a leading unit axis. -/
theorem km2 : KM2 := fun v0 v2 co => by
  unfold k0_pay3
  refine (shapeCast_ab_1ab_apply (a := 128) (b := 1) _ _ 0 co 0).trans ?_
  refine (shapeCast_a_a1_apply (a := 128) _ _ co 0).trans ?_
  refine (laneSum_apply (a := 128) (b := 1024) (k0_pay1 (F := Ideal) v0 v2) 0x00000000#32 _ (.inl rfl) rfl co).trans ?_
  exact Finset.sum_congr rfl fun p _ => pay1_apply v0 v2 co p

/-- The stored sums of squares: the lane sum of the activation matrix's entrywise square. -/
theorem km3 : KM3 := fun v0 v2 co => by
  unfold k0_pay4
  refine (shapeCast_ab_1ab_apply (a := 128) (b := 1) _ _ 0 co 0).trans ?_
  refine (shapeCast_a_a1_apply (a := 128) _ _ co 0).trans ?_
  refine (laneSum_apply (a := 128) (b := 1024) (mulf (k0_pay1 (F := Ideal) v0 v2) (k0_pay1 (F := Ideal) v0 v2))
    0x00000000#32 _ (.inl rfl) rfl co).trans ?_
  exact Finset.sum_congr rfl fun p _ => congrArg₂ (· * ·) (pay1_apply v0 v2 co p) (pay1_apply v0 v2 co p)

/-! ## The second body -/

/-- Row `32·co + w` of a matrix with `128 · 32` rows. -/
abbrev row32 (co : Fin 128) (w : Fin 32) : Fin 4096 := ⟨co.val * 32 + w.val, by have := co.isLt; have := w.isLt; omega⟩
/-- Row `64·co + a` of a matrix with `128 · 64` rows. -/
abbrev row64 (co : Fin 128) (a : Fin 64) : Fin 8192 := ⟨co.val * 64 + a.val, by have := co.isLt; have := a.isLt; omega⟩

/-- The affine map of the activation block at (co, h, w): the activation times the channel's scale plus its shift. -/
theorem affine_apply (v0 : FVec Ideal S1x128x32x32 .f32) (v2 v6 : FVec Ideal S128x1x1 .f32)
    (hc : S1x128x32x32.ShapeCasts S128x32x32) (hs : S128x1x1.ShapeCasts S128x1x1) (hb : S128x1x1.Broadcasts S128x32x32)
    (co : Fin 128) (h w : Fin 32) :
    (addf (mulf (shapeCast S128x32x32 v0 hc) (broadcastTo S128x32x32 (shapeCast S128x1x1 v2 hs) hb))
        (broadcastTo S128x32x32 (shapeCast S128x1x1 v6 hs) hb) (ix3 co h w) : EReal)
      = v0 (ix4 0 co h w) * v2 (ix3 co 0 0) + v6 (ix3 co 0 0) := by
  have e1 := shapeCast_1abc_abc_apply (m := 128) (a := 32) (b := 32) v0 hc co h w
  have e2 := (broadcastTo_a11_abc_apply (a := 128) (b := 32) (c := 32) (shapeCast S128x1x1 v2 hs) hb co h w).trans
    (congrFun (shapeCast_self v2 hs) _)
  have e3 := (broadcastTo_a11_abc_apply (a := 128) (b := 32) (c := 32) (shapeCast S128x1x1 v6 hs) hb co h w).trans
    (congrFun (shapeCast_self v6 hs) _)
  exact congrArg₂ (· + ·) (congrArg₂ (· * ·) e1 e2) e3

/-- The stored block at (0, co, a, a'): the affine block's image of channel co contracted over its rows against `v12`
    and over its columns against `v17`. -/
theorem km4 : KM4 := fun v0 v2 v6 v12 v17 co a a' => by
  unfold k1_pay1
  -- the leading unit axis, then [8192, 64] viewed [128, 64, 64]: row 64·co + a
  refine (shapeCast_abc_1abc_apply (m := 128) (a := 64) (b := 64) _ _ 0 co a a').trans ?_
  refine (shapeCast_rb_gab_apply (G := 128) (a := 64) (b := 64) (R := 8192) _ _ co a a' (row64 co a) rfl).trans ?_
  -- the second product contracts the image column w
  refine (matmul_plain_zero_apply (m := 8192) (k := 32) (n := 64) none _ v17 (row64 co a) a').trans ?_
  refine Finset.sum_congr rfl fun w _ => congrArg (fun z : EReal => z * v17 (ix2 w a')) ?_
  -- [128, 64, 32] viewed [8192, 32]; the transpose of [128, 32, 64]; [4096, 64] viewed [128, 32, 64]: row 32·co + w
  refine (shapeCast_gab_rb_apply (G := 128) (a := 64) (b := 32) (R := 8192) _ _ co a w (row64 co a) rfl).trans ?_
  refine (transpose_ix3_021_apply (m := 128) (a := 32) (b := 64) _ _ co a w).trans ?_
  refine (shapeCast_rb_gab_apply (G := 128) (a := 32) (b := 64) (R := 4096) _ _ co w a (row32 co w) rfl).trans ?_
  -- the first product contracts the image row h
  refine (matmul_plain_zero_apply (m := 4096) (k := 32) (n := 64) none _ v12 (row32 co w) a).trans ?_
  refine Finset.sum_congr rfl fun h _ => congrArg (fun z : EReal => z * v12 (ix2 h a)) ?_
  -- [128, 32, 32] viewed [4096, 32]; the transpose; the affine block
  refine (shapeCast_gab_rb_apply (G := 128) (a := 32) (b := 32) (R := 4096) _ _ co w h (row32 co w) rfl).trans ?_
  refine (transpose_ix3_021_apply (m := 128) (a := 32) (b := 32) _ _ co w h).trans ?_
  exact affine_apply v0 v2 v6 _ _ _ co h w

end Cert.KernelIdeal.Pay

end
-- ==== Proof.RStmt.lean ====
/-
  What each store of the two kernel bodies of the second program holds, entry by entry, as sums and products of the
  loaded blocks at the extended reals: the statements only (their proofs are in RPay.lean; the run-side proof takes
  them as hypotheses).
-/
import proofs.«111454_g2000205057013705_pallasbulk_543_2_alg».proof.Proof.Gen.ReferenceIdeal.Frame
import Idealize.ShloMosaic.Lib.ValueIdx

noncomputable section

open scoped BigOperators

namespace Cert.ReferenceIdeal.Stmt

open Idealize.ShloMosaic Idealize.ShloMosaic.ValueIdx Cert.ReferenceIdeal Cert.ReferenceIdeal.Gen

/-- One row of the weight block against one pixel column of the image block, then ReLU. -/
def conv (v0 : FVec Ideal S128x256 .f32) (v2 : FVec Ideal S1x256x1024 .f32) (co : Fin 128) (p : Fin 1024) : EReal :=
  max (∑ ci : Fin 256, v0 (ix2 co ci) * v2 (ix3 0 ci p)) (Ideal.ofBits .f32 0x00000000#32)

/-- The per-block sum: entry (0, 0, co, 0) is the sum of the activations over the 1024 pixels. -/
def RM1 : Prop := ∀ (v0 : FVec Ideal S128x256 .f32) (v2 : FVec Ideal S1x256x1024 .f32) (co : Fin 128),
  (k0_pay2 (F := Ideal) v0 v2 (ix4 0 0 co 0) : EReal) = ∑ p : Fin 1024, conv v0 v2 co p

/-- The per-block sum of squares. -/
def RM2 : Prop := ∀ (v0 : FVec Ideal S128x256 .f32) (v2 : FVec Ideal S1x256x1024 .f32) (co : Fin 128),
  (k0_pay3 (F := Ideal) v0 v2 (ix4 0 0 co 0) : EReal) = ∑ p : Fin 1024, conv v0 v2 co p * conv v0 v2 co p

/-- The output block of one image and channel: the channel's convolution as the sum over the 256 input channels of
    image entry times weight, ReLU, the affine map, rows contracted against `x4 : [64, 32]` from the left, then columns
    against `x5 : [32, 64]`. -/
def RM3 : Prop := ∀ (x0 : FVec Ideal S1x256x32x32 .f32) (x1 : FVec Ideal S1x256x1x1 .f32) (x2 x3 : FVec Ideal S1x1x1 .f32)
    (x4 : FVec Ideal S64x32 .f32) (x5 : FVec Ideal S32x64 .f32) (a a' : Fin 64),
  (out1_6 (F := Ideal) x0 x1 x2 x3 x4 x5 (ix4 0 0 a a') : EReal)
    = ∑ w : Fin 32, (∑ h : Fin 32, x4 (ix2 a h)
        * (max (∑ ci : Fin 256, x0 (ix4 0 ci h w) * x1 (ix4 0 ci 0 0)) (Ideal.ofBits .f32 0x00000000#32)
            * x2 (ix3 0 0 0) + x3 (ix3 0 0 0)))
      * x5 (ix2 w a')

end Cert.ReferenceIdeal.Stmt

end
-- ==== Proof.RPay0.lean ====
/-
  The first kernel body of the second program read entry by entry at the extended reals: the weight block
  `v0 : [128, 256]` times the image block `v2 : [1, 256, 1024]` (viewed `[256, 1024]`) into a zero accumulator, then the
  maximum with zero — entry (co, p) is `conv v0 v2 co p` —; the two stores hold that matrix's row sums and the row sums
  of its squares, each viewed `[128] → [128, 1] → [1, 1, 128, 1]`.
-/
import proofs.«111454_g2000205057013705_pallasbulk_543_2_alg».proof.Proof.RStmt
import proofs.«111454_g2000205057013705_pallasbulk_543_2_alg».proof.Proof.LibReadAt

noncomputable section

open scoped BigOperators

namespace Cert.ReferenceIdeal.Pay0

open Idealize.ShloMosaic Idealize.ShloMosaic.ValueIdx Cert.ReferenceIdeal Cert.ReferenceIdeal.Gen Cert.ReferenceIdeal.Stmt Cert.ReadAt

/-- The activation matrix at (co, p): the row co of the weights against the pixel column p of the image, then the
    maximum with zero. -/
theorem pay1_apply (v0 : FVec Ideal S128x256 .f32) (v2 : FVec Ideal S1x256x1024 .f32) (co : Fin 128) (p : Fin 1024) :
    (k0_pay1 (F := Ideal) v0 v2 (ix2 co p) : EReal) = conv v0 v2 co p := by
  unfold k0_pay1 conv
  refine congrArg (fun z : EReal => max z (Ideal.ofBits .f32 0x00000000#32)) ?_
  refine (matmul_plain_zero_apply (m := 128) (k := 256) (n := 1024) none _ _ co p).trans ?_
  exact Finset.sum_congr rfl fun ci _ =>
    congrArg₂ (· * ·) (congrFun (shapeCast_self v0 _) (ix2 co ci)) (shapeCast_1ab_ab_apply v2 _ ci p)

/-- The stored sums: the lane sum of the activation matrix, as a column under two leading unit axes. -/
theorem rm1 : RM1 := fun v0 v2 co => by
  unfold k0_pay2
  refine (shapeCast_ab_11ab_apply (a := 128) (b := 1) _ _ 0 0 co 0).trans ?_
  refine (shapeCast_a_a1_apply (a := 128) _ _ co 0).trans ?_
  refine (laneSum_apply (a := 128) (b := 1024) (k0_pay1 (F := Ideal) v0 v2) 0x00000000#32 _ (.inl rfl) rfl co).trans ?_
  exact Finset.sum_congr rfl fun p _ => pay1_apply v0 v2 co p

/-- The stored sums of squares: the lane sum of the activation matrix's entrywise square. -/
theorem rm2 : RM2 := fun v0 v2 co => by
  unfold k0_pay3
  refine (shapeCast_ab_11ab_apply (a := 128) (b := 1) _ _ 0 0 co 0).trans ?_
  refine (shapeCast_a_a1_apply (a := 128) _ _ co 0).trans ?_
  refine (laneSum_apply (a := 128) (b := 1024) (mulf (k0_pay1 (F := Ideal) v0 v2) (k0_pay1 (F := Ideal) v0 v2))
    0x00000000#32 _ (.inl rfl) rfl co).trans ?_
  exact Finset.sum_congr rfl fun p _ => congrArg₂ (· * ·) (pay1_apply v0 v2 co p) (pay1_apply v0 v2 co p)

end Cert.ReferenceIdeal.Pay0

end
-- ==== Proof.RPay.lean ====
/-
  The second kernel body of the second program, at an entry of its output block.

  The body loads, for each of the 256 input channels k, the [32,32] image slice x0[0,k] and the one weight x1[0,k,0,0],
  multiplies the slice by the weight laid over the slice, and adds the 256 products in channel order (a left-nested sum);
  it then takes the maximum with 0, multiplies by the scale, adds the shift (scale and shift one entry each, laid over
  the slice), multiplies by the [64,32] matrix x4 from the left and by the [32,64] matrix x5 from the right. Read at the
  entry (a, a') this is
      ∑ w, (∑ h, x4[a,h] * (max (∑ ci, x0[0,ci,h,w] * x1[0,ci,0,0]) 0 * x2 + x3)) * x5[w,a'],
  with no law used beyond unfolding: the order of the additions is the order of the sum over a range of naturals.

  The sum over the channels is written by the program as 128 nested steps of two kinds: a step that adds the running sum,
  the previous product and three more products, and a step that is one product. Here the nesting is restated as a
  recursion on the number of steps ('chain'), the recursion is read at a pixel by induction as the sum over an initial
  range of naturals, and the program's term is the recursion's value at 63 by unfolding.
-/
import proofs.«111454_g2000205057013705_pallasbulk_543_2_alg».proof.Proof.RStmt
import Idealize.ShloMosaic.Lib.Pipeline.Value
import Idealize.ShloMosaic.Lib.ValueLayout
import Idealize.ShloMosaic.PureOps.Ideal.Laws

noncomputable section

open scoped BigOperators

namespace Cert.ReferenceIdeal.Pay.Upsample

open Idealize.ShloMosaic Idealize.ShloMosaic.ValueIdx Cert.ReferenceIdeal Cert.ReferenceIdeal.Gen

/-! ### The loads of one channel -/

/-- The slice of channel k mod 256 of the image block lies inside the block. -/
theorem inbA (k : ℕ) : ∀ a, (![0, k % 256, 0, 0] : Fin 4 → Nat) a + S1x1x32x32.size a ≤ S1x256x32x32.size a := by
  intro a
  have hk : k % 256 < 256 := Nat.mod_lt k (by decide)
  match a with
  | ⟨0, _⟩ => exact Nat.le_refl 1
  | ⟨1, _⟩ => exact hk
  | ⟨2, _⟩ => exact Nat.le_refl 32
  | ⟨3, _⟩ => exact Nat.le_refl 32

/-- The entry of channel k mod 256 of the weight block lies inside the block. -/
theorem inbB (k : ℕ) : ∀ a, (![0, k % 256, 0, 0] : Fin 4 → Nat) a + S1x1x1x1.size a ≤ S1x256x1x1.size a := by
  intro a
  have hk : k % 256 < 256 := Nat.mod_lt k (by decide)
  match a with
  | ⟨0, _⟩ => exact Nat.le_refl 1
  | ⟨1, _⟩ => exact hk
  | ⟨2, _⟩ => exact Nat.le_refl 1
  | ⟨3, _⟩ => exact Nat.le_refl 1

/-- The rectangle of the image block that is the [1,1,32,32] slice of channel k (mod 256, so that every natural names
    one; for k below 256 it is the program's rectangle at offsets (0, k, 0, 0)). -/
abbrev rA (k : ℕ) : Rect S1x256x32x32 := Rect.unit (s := S1x256x32x32) ![0, k % 256, 0, 0] S1x1x32x32.size (inbA k)
/-- The rectangle of the weight block that is the one entry of channel k (mod 256). -/
abbrev rB (k : ℕ) : Rect S1x256x1x1 := Rect.unit (s := S1x256x1x1) ![0, k % 256, 0, 0] S1x1x1x1.size (inbB k)

/-- The channel coordinate a natural names. -/
abbrev ch (k : ℕ) : Fin 256 := ⟨k % 256, Nat.mod_lt k (by decide)⟩

/-- The slice of channel k read at the pixel (h, w) is the image block at (0, k, h, w). -/
theorem ldA (x0 : Vec Ideal S1x256x32x32 .f32) (k : ℕ) (h w : Fin 32) :
    View.ld x0 (rA k) (ix4 0 0 h w) = x0 (ix4 0 (ch k) h w) := by
  show x0 ((rA k).idx (ix4 0 0 h w)) = _
  refine congrArg x0 (funext fun a => Fin.ext ?_)
  match a with
  | ⟨0, _⟩ => rfl
  | ⟨1, _⟩ => show k % 256 + 1 * 0 = k % 256; omega
  | ⟨2, _⟩ => show 0 + 1 * h.val = h.val; omega
  | ⟨3, _⟩ => show 0 + 1 * w.val = w.val; omega

/-- The weight entry of channel k is the weight block at (0, k, 0, 0). -/
theorem ldB (x1 : Vec Ideal S1x256x1x1 .f32) (k : ℕ) :
    View.ld x1 (rB k) (ix4 0 0 0 0) = x1 (ix4 0 (ch k) 0 0) := by
  show x1 ((rB k).idx (ix4 0 0 0 0)) = _
  refine congrArg x1 (funext fun a => Fin.ext ?_)
  match a with
  | ⟨0, _⟩ => rfl
  | ⟨1, _⟩ => show k % 256 + 1 * 0 = k % 256; omega
  | ⟨2, _⟩ => rfl
  | ⟨3, _⟩ => rfl

/-! ### The steps of the sum over the channels -/

/-- One product: the slice, viewed [32,32], times the weight laid over it; at a pixel, the slice's entry times the
    weight. -/
theorem pay3_apply (u : Vec Ideal S1x1x32x32 .f32) (v : Vec Ideal S1x1x1x1 .f32) (h w : Fin 32) :
    k1_pay3 (F := Ideal) u v (ix2 h w) = u (ix4 0 0 h w) * v (ix4 0 0 0 0) := by
  unfold k1_pay3
  show shapeCast S32x32 u shapeCasts_S1x1x32x32_S32x32 (ix2 h w)
      * broadcastTo S32x32 (shapeCast S1x1 v shapeCasts_S1x1x1x1_S1x1) broadcasts_S1x1_S32x32 (ix2 h w) = _
  rw [shapeCast_apply u shapeCasts_S1x1x32x32_S32x32 (ix2 h w) (ix4 0 0 h w) (by
        rw [Shape.rowMajor_val_four, Shape.rowMajor_val_two]
        show ((0 * 1 + 0) * 32 + h.val) * 32 + w.val = h.val * 32 + w.val
        omega),
    broadcastTo_apply (shapeCast S1x1 v shapeCasts_S1x1x1x1_S1x1) broadcasts_S1x1_S32x32 (ix2 h w) (ix2 0 0) (by
        intro a
        match a with
        | ⟨0, _⟩ => rfl
        | ⟨1, _⟩ => rfl),
    shapeCast_apply v shapeCasts_S1x1x1x1_S1x1 (ix2 0 0) (ix4 0 0 0 0) (by
        rw [Shape.rowMajor_val_four, Shape.rowMajor_val_two]; rfl)]

/-- The first step is the sum of three products. -/
theorem pay2_eq (u0 : Vec Ideal S1x1x32x32 .f32) (v0 : Vec Ideal S1x1x1x1 .f32) (u1 : Vec Ideal S1x1x32x32 .f32)
    (v1 : Vec Ideal S1x1x1x1 .f32) (u2 : Vec Ideal S1x1x32x32 .f32) (v2 : Vec Ideal S1x1x1x1 .f32) :
    k1_pay2 (F := Ideal) u0 v0 u1 v1 u2 v2 = addf (addf (k1_pay3 u0 v0) (k1_pay3 u1 v1)) (k1_pay3 u2 v2) := rfl

/-- A later step adds the running sum, the previous product, and three more products, in this order. -/
theorem pay4_eq (A B : FVec Ideal S32x32 .f32) (u1 : Vec Ideal S1x1x32x32 .f32)
    (v1 : Vec Ideal S1x1x1x1 .f32) (u2 : Vec Ideal S1x1x32x32 .f32) (v2 : Vec Ideal S1x1x1x1 .f32)
    (u3 : Vec Ideal S1x1x32x32 .f32) (v3 : Vec Ideal S1x1x1x1 .f32) :
    k1_pay4 (F := Ideal) A B u1 v1 u2 v2 u3 v3
      = addf (addf (addf (addf A B) (k1_pay3 u1 v1)) (k1_pay3 u2 v2)) (k1_pay3 u3 v3) := rfl

/-- One channel's term of the convolution at a pixel. -/
def term (x0 : Vec Ideal S1x256x32x32 .f32) (x1 : Vec Ideal S1x256x1x1 .f32) (h w : Fin 32) (k : ℕ) : EReal :=
  x0 (ix4 0 (ch k) h w) * x1 (ix4 0 (ch k) 0 0)

/-- The product of channel k's two loads, at a pixel, is channel k's term. -/
theorem pay3_ld (x0 : Vec Ideal S1x256x32x32 .f32) (x1 : Vec Ideal S1x256x1x1 .f32) (h w : Fin 32) (k : ℕ) :
    k1_pay3 (F := Ideal) (View.ld x0 (rA k)) (View.ld x1 (rB k)) (ix2 h w) = term x0 x1 h w k := by
  rw [pay3_apply, ldA, ldB]; rfl

/-- The running sum after n + 1 of the adding steps: the first adds the products of channels 0, 1, 2; step n + 1 adds
    to the running sum the product of channel 4n + 3 and then those of channels 4n + 4, 4n + 5, 4n + 6. -/
def chain (x0 : Vec Ideal S1x256x32x32 .f32) (x1 : Vec Ideal S1x256x1x1 .f32) : ℕ → FVec Ideal S32x32 .f32
  | 0 => k1_pay2 (View.ld x0 (rA 0)) (View.ld x1 (rB 0)) (View.ld x0 (rA 1)) (View.ld x1 (rB 1)) (View.ld x0 (rA 2)) (View.ld x1 (rB 2))
  | n + 1 => k1_pay4 (chain x0 x1 n) (k1_pay3 (View.ld x0 (rA (4 * n + 3))) (View.ld x1 (rB (4 * n + 3))))
      (View.ld x0 (rA (4 * n + 4))) (View.ld x1 (rB (4 * n + 4))) (View.ld x0 (rA (4 * n + 5))) (View.ld x1 (rB (4 * n + 5)))
      (View.ld x0 (rA (4 * n + 6))) (View.ld x1 (rB (4 * n + 6)))

/-- At a pixel the running sum after n + 1 steps is the sum of the terms of the first 4n + 3 channels, added in
    channel order: each step appends its four terms to the sum over the range. -/
theorem chain_apply (x0 : Vec Ideal S1x256x32x32 .f32) (x1 : Vec Ideal S1x256x1x1 .f32) (h w : Fin 32) (n : ℕ) :
    chain x0 x1 n (ix2 h w) = ∑ i ∈ Finset.range (4 * n + 3), term x0 x1 h w i := by
  induction n with
  | zero =>
    rw [chain, pay2_eq]
    show k1_pay3 (F := Ideal) _ _ (ix2 h w) + k1_pay3 (F := Ideal) _ _ (ix2 h w) + k1_pay3 (F := Ideal) _ _ (ix2 h w) = _
    rw [pay3_ld, pay3_ld, pay3_ld]
    show _ = ∑ i ∈ Finset.range 3, term x0 x1 h w i
    rw [Finset.sum_range_succ, Finset.sum_range_succ, Finset.sum_range_succ, Finset.sum_range_zero, zero_add]
  | succ n ih =>
    have e : ∑ i ∈ Finset.range (4 * (n + 1) + 3), term x0 x1 h w i
        = ∑ i ∈ Finset.range (4 * n + 3), term x0 x1 h w i + term x0 x1 h w (4 * n + 3) + term x0 x1 h w (4 * n + 4)
          + term x0 x1 h w (4 * n + 5) + term x0 x1 h w (4 * n + 6) := by
      show ∑ i ∈ Finset.range (4 * n + 3 + 1 + 1 + 1 + 1), term x0 x1 h w i = _
      rw [Finset.sum_range_succ, Finset.sum_range_succ, Finset.sum_range_succ, Finset.sum_range_succ]
    rw [e, ← ih, chain, pay4_eq]
    show chain x0 x1 n (ix2 h w) + k1_pay3 (F := Ideal) _ _ (ix2 h w) + k1_pay3 (F := Ideal) _ _ (ix2 h w)
      + k1_pay3 (F := Ideal) _ _ (ix2 h w) + k1_pay3 (F := Ideal) _ _ (ix2 h w) = _
    rw [pay3_ld, pay3_ld, pay3_ld, pay3_ld]

/-! ### The two matrix products of the last payload, at an entry -/

/-- The operand indices of the first product at an output index and a contraction index: the left operand reads the
    output's row and the contraction coordinate, the right operand the contraction coordinate and the output's column. -/
theorem lhsA_0 (i : S64x32.Idx) (q : dot_S64x32_S32x32_S64x32_1_0_0_1_n_n.contr.Idx) :
    (dot_S64x32_S32x32_S64x32_1_0_0_1_n_n.lhsIdx i q 0).val = (i 0).val := by
  unfold DotDims.lhsIdx
  rw [dif_neg (show ¬(0 : Fin S64x32.rank) ∈ dot_S64x32_S32x32_S64x32_1_0_0_1_n_n.lhsBatch by decide),
    dif_pos (show (0 : Fin S64x32.rank) ∈ dot_S64x32_S32x32_S64x32_1_0_0_1_n_n.lhsNonContracting by decide)]
  rfl
theorem lhsA_1 (i : S64x32.Idx) (q : dot_S64x32_S32x32_S64x32_1_0_0_1_n_n.contr.Idx) :
    (dot_S64x32_S32x32_S64x32_1_0_0_1_n_n.lhsIdx i q 1).val = (q ⟨0, by decide⟩).val :=
  dot_S64x32_S32x32_S64x32_1_0_0_1_n_n.lhsIdx_val_of_single rfl i q
theorem rhsA_0 (i : S64x32.Idx) (q : dot_S64x32_S32x32_S64x32_1_0_0_1_n_n.contr.Idx) :
    (dot_S64x32_S32x32_S64x32_1_0_0_1_n_n.rhsIdx i q 0).val = (q ⟨0, by decide⟩).val :=
  dot_S64x32_S32x32_S64x32_1_0_0_1_n_n.rhsIdx_val_of_single rfl i q
theorem rhsA_1 (i : S64x32.Idx) (q : dot_S64x32_S32x32_S64x32_1_0_0_1_n_n.contr.Idx) :
    (dot_S64x32_S32x32_S64x32_1_0_0_1_n_n.rhsIdx i q 1).val = (i 1).val := by
  unfold DotDims.rhsIdx
  rw [dif_neg (show ¬(1 : Fin S32x32.rank) ∈ dot_S64x32_S32x32_S64x32_1_0_0_1_n_n.rhsBatch by decide),
    dif_pos (show (1 : Fin S32x32.rank) ∈ dot_S64x32_S32x32_S64x32_1_0_0_1_n_n.rhsNonContracting by decide)]
  rfl

/-- The [64,32] by [32,32] product into a zero accumulator, at an entry: the sum over the 32 rows. -/
theorem mmA_apply (L : FVec Ideal S64x32 .f32) (R : FVec Ideal S32x32 .f32) (a : Fin 64) (w : Fin 32) :
    matmul dot_S64x32_S32x32_S64x32_1_0_0_1_n_n none L R (constant S64x32 .f32 0x00000000#32) (ix2 a w)
      = ∑ h : Fin 32, L (ix2 a h) * R (ix2 h w) := by
  show FloatOps.matmul dot_S64x32_S32x32_S64x32_1_0_0_1_n_n none L R (constant S64x32 .f32 0x00000000#32) (ix2 a w) = _
  rw [Ideal.matmul_constant_zero_apply,
    ← Equiv.sum_comp (contrEquiv1 dot_S64x32_S32x32_S64x32_1_0_0_1_n_n 32 rfl rfl).symm]
  refine Finset.sum_congr rfl fun k _ => ?_
  have hk := contrEquiv1_symm_val dot_S64x32_S32x32_S64x32_1_0_0_1_n_n 32 rfl rfl k
  have el : dot_S64x32_S32x32_S64x32_1_0_0_1_n_n.lhsIdx (ix2 a w)
      ((contrEquiv1 dot_S64x32_S32x32_S64x32_1_0_0_1_n_n 32 rfl rfl).symm k) = ix2 a k := funext fun b => Fin.ext (by
    match b with
    | ⟨0, _⟩ => exact lhsA_0 _ _
    | ⟨1, _⟩ => exact (lhsA_1 _ _).trans hk)
  have er : dot_S64x32_S32x32_S64x32_1_0_0_1_n_n.rhsIdx (ix2 a w)
      ((contrEquiv1 dot_S64x32_S32x32_S64x32_1_0_0_1_n_n 32 rfl rfl).symm k) = ix2 k w := funext fun b => Fin.ext (by
    match b with
    | ⟨0, _⟩ => exact (rhsA_0 _ _).trans hk
    | ⟨1, _⟩ => exact rhsA_1 _ _)
  rw [el, er]

/-- The same for the second product. -/
theorem lhsB_0 (i : S64x64.Idx) (q : dot_S64x32_S32x64_S64x64_1_0_0_1_n_n.contr.Idx) :
    (dot_S64x32_S32x64_S64x64_1_0_0_1_n_n.lhsIdx i q 0).val = (i 0).val := by
  unfold DotDims.lhsIdx
  rw [dif_neg (show ¬(0 : Fin S64x32.rank) ∈ dot_S64x32_S32x64_S64x64_1_0_0_1_n_n.lhsBatch by decide),
    dif_pos (show (0 : Fin S64x32.rank) ∈ dot_S64x32_S32x64_S64x64_1_0_0_1_n_n.lhsNonContracting by decide)]
  rfl
theorem lhsB_1 (i : S64x64.Idx) (q : dot_S64x32_S32x64_S64x64_1_0_0_1_n_n.contr.Idx) :
    (dot_S64x32_S32x64_S64x64_1_0_0_1_n_n.lhsIdx i q 1).val = (q ⟨0, by decide⟩).val :=
  dot_S64x32_S32x64_S64x64_1_0_0_1_n_n.lhsIdx_val_of_single rfl i q
theorem rhsB_0 (i : S64x64.Idx) (q : dot_S64x32_S32x64_S64x64_1_0_0_1_n_n.contr.Idx) :
    (dot_S64x32_S32x64_S64x64_1_0_0_1_n_n.rhsIdx i q 0).val = (q ⟨0, by decide⟩).val :=
  dot_S64x32_S32x64_S64x64_1_0_0_1_n_n.rhsIdx_val_of_single rfl i q
theorem rhsB_1 (i : S64x64.Idx) (q : dot_S64x32_S32x64_S64x64_1_0_0_1_n_n.contr.Idx) :
    (dot_S64x32_S32x64_S64x64_1_0_0_1_n_n.rhsIdx i q 1).val = (i 1).val := by
  unfold DotDims.rhsIdx
  rw [dif_neg (show ¬(1 : Fin S32x64.rank) ∈ dot_S64x32_S32x64_S64x64_1_0_0_1_n_n.rhsBatch by decide),
    dif_pos (show (1 : Fin S32x64.rank) ∈ dot_S64x32_S32x64_S64x64_1_0_0_1_n_n.rhsNonContracting by decide)]
  rfl

/-- The [64,32] by [32,64] product into a zero accumulator, at an entry: the sum over the 32 columns. -/
theorem mmB_apply (L : FVec Ideal S64x32 .f32) (R : FVec Ideal S32x64 .f32) (a a' : Fin 64) :
    matmul dot_S64x32_S32x64_S64x64_1_0_0_1_n_n none L R (constant S64x64 .f32 0x00000000#32) (ix2 a a')
      = ∑ w : Fin 32, L (ix2 a w) * R (ix2 w a') := by
  show FloatOps.matmul dot_S64x32_S32x64_S64x64_1_0_0_1_n_n none L R (constant S64x64 .f32 0x00000000#32) (ix2 a a') = _
  rw [Ideal.matmul_constant_zero_apply,
    ← Equiv.sum_comp (contrEquiv1 dot_S64x32_S32x64_S64x64_1_0_0_1_n_n 32 rfl rfl).symm]
  refine Finset.sum_congr rfl fun k _ => ?_
  have hk := contrEquiv1_symm_val dot_S64x32_S32x64_S64x64_1_0_0_1_n_n 32 rfl rfl k
  have el : dot_S64x32_S32x64_S64x64_1_0_0_1_n_n.lhsIdx (ix2 a a')
      ((contrEquiv1 dot_S64x32_S32x64_S64x64_1_0_0_1_n_n 32 rfl rfl).symm k) = ix2 a k := funext fun b => Fin.ext (by
    match b with
    | ⟨0, _⟩ => exact lhsB_0 _ _
    | ⟨1, _⟩ => exact (lhsB_1 _ _).trans hk)
  have er : dot_S64x32_S32x64_S64x64_1_0_0_1_n_n.rhsIdx (ix2 a a')
      ((contrEquiv1 dot_S64x32_S32x64_S64x64_1_0_0_1_n_n 32 rfl rfl).symm k) = ix2 k a' := funext fun b => Fin.ext (by
    match b with
    | ⟨0, _⟩ => exact (rhsB_0 _ _).trans hk
    | ⟨1, _⟩ => exact rhsB_1 _ _)
  rw [el, er]

/-! ### The last payload -/

/-- The [32,32] block the two matrix products are applied to: ReLU of the sum of the two addends, times the scale,
    plus the shift (scale and shift one entry each, laid over the block). -/
def pre (A B : FVec Ideal S32x32 .f32) (x2 x3 : Vec Ideal S1x1x1 .f32) : FVec Ideal S32x32 .f32 :=
  addf (mulf (maximumf (addf A B) (broadcast S32x32 (Scalar.ofBits (F := Ideal) .f32 0x00000000#32)))
      (broadcastTo S32x32 (shapeCast S1x1 x2 shapeCasts_S1x1x1_S1x1) broadcasts_S1x1_S32x32))
    (broadcastTo S32x32 (shapeCast S1x1 x3 shapeCasts_S1x1x1_S1x1) broadcasts_S1x1_S32x32)

/-- The last payload as one term over its [32,32] block. -/
theorem pay1_eq (A B : FVec Ideal S32x32 .f32) (x2 x3 : Vec Ideal S1x1x1 .f32) (x4 : FVec Ideal S64x32 .f32)
    (x5 : FVec Ideal S32x64 .f32) :
    k1_pay1 (F := Ideal) A B x2 x3 x4 x5 = shapeCast S1x1x64x64
      (matmul dot_S64x32_S32x64_S64x64_1_0_0_1_n_n none
        (matmul dot_S64x32_S32x32_S64x32_1_0_0_1_n_n none x4 (pre A B x2 x3) (constant S64x32 .f32 0x00000000#32))
        x5 (constant S64x64 .f32 0x00000000#32)) shapeCasts_S64x64_S1x1x64x64 := rfl

/-- A [1,1,1] block viewed [1,1] and laid over [32,32] reads its one entry everywhere. -/
theorem one_apply (x : Vec Ideal S1x1x1 .f32) (h w : Fin 32) :
    broadcastTo S32x32 (shapeCast S1x1 x shapeCasts_S1x1x1_S1x1) broadcasts_S1x1_S32x32 (ix2 h w) = x (ix3 0 0 0) := by
  rw [broadcastTo_apply (shapeCast S1x1 x shapeCasts_S1x1x1_S1x1) broadcasts_S1x1_S32x32 (ix2 h w) (ix2 0 0) (by
        intro a
        match a with
        | ⟨0, _⟩ => rfl
        | ⟨1, _⟩ => rfl),
    shapeCast_apply x shapeCasts_S1x1x1_S1x1 (ix2 0 0) (ix3 0 0 0) (by
        rw [Shape.rowMajor_val_three, Shape.rowMajor_val_two]; rfl)]

/-- That block at a pixel. -/
theorem pre_apply (A B : FVec Ideal S32x32 .f32) (x2 x3 : Vec Ideal S1x1x1 .f32) (h w : Fin 32) :
    pre A B x2 x3 (ix2 h w)
      = max (A (ix2 h w) + B (ix2 h w)) (Ideal.ofBits .f32 0x00000000#32) * x2 (ix3 0 0 0) + x3 (ix3 0 0 0) := by
  unfold pre
  show max (A (ix2 h w) + B (ix2 h w)) (Ideal.ofBits .f32 0x00000000#32)
      * broadcastTo S32x32 (shapeCast S1x1 x2 shapeCasts_S1x1x1_S1x1) broadcasts_S1x1_S32x32 (ix2 h w)
      + broadcastTo S32x32 (shapeCast S1x1 x3 shapeCasts_S1x1x1_S1x1) broadcasts_S1x1_S32x32 (ix2 h w) = _
  rw [one_apply, one_apply]

/-- The last payload at the entry (0, 0, a, a'): the [64,64] product re-shaped, the outer product a sum over the
    columns w, the inner one a sum over the rows h of the block. -/
theorem pay1_apply (A B : FVec Ideal S32x32 .f32) (x2 x3 : Vec Ideal S1x1x1 .f32) (x4 : FVec Ideal S64x32 .f32)
    (x5 : FVec Ideal S32x64 .f32) (a a' : Fin 64) :
    k1_pay1 (F := Ideal) A B x2 x3 x4 x5 (ix4 0 0 a a')
      = ∑ w : Fin 32, (∑ h : Fin 32, x4 (ix2 a h)
          * (max (A (ix2 h w) + B (ix2 h w)) (Ideal.ofBits .f32 0x00000000#32) * x2 (ix3 0 0 0) + x3 (ix3 0 0 0)))
        * x5 (ix2 w a') := by
  rw [pay1_eq, shapeCast_apply _ shapeCasts_S64x64_S1x1x64x64 (ix4 0 0 a a') (ix2 a a') (by
        rw [Shape.rowMajor_val_four, Shape.rowMajor_val_two]
        show a.val * 64 + a'.val = ((0 * 1 + 0) * 64 + a.val) * 64 + a'.val
        omega),
    mmB_apply]
  refine Finset.sum_congr rfl fun w _ => ?_
  rw [mmA_apply]
  refine congrArg (· * x5 (ix2 w a')) (Finset.sum_congr rfl fun h _ => ?_)
  rw [pre_apply]

/-! ### The statement -/

/-- Zero offsets, spelt as the constant function. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The terms over the 256 channels, indexed by naturals, are the terms indexed by the channel coordinate. -/
theorem sum_term (x0 : Vec Ideal S1x256x32x32 .f32) (x1 : Vec Ideal S1x256x1x1 .f32) (h w : Fin 32) :
    ∑ i ∈ Finset.range 256, term x0 x1 h w i = ∑ ci : Fin 256, x0 (ix4 0 ci h w) * x1 (ix4 0 ci 0 0) := by
  rw [← Fin.sum_univ_eq_sum_range (fun i => term x0 x1 h w i) 256]
  refine Finset.sum_congr rfl fun ci _ => ?_
  have e : ch ci.val = ci := Fin.ext (Nat.mod_eq_of_lt ci.isLt)
  unfold term
  rw [e]

/-- The body's one store holds the last payload applied to the running sum after 64 adding steps, to the product of
    channel 255, and to the whole-block loads of the scale, the shift and the two matrices: the program's nested term
    is the recursion's value, by unfolding both. -/
theorem out_eq (x0 : Vec Ideal S1x256x32x32 .f32) (x1 : Vec Ideal S1x256x1x1 .f32) (x2 x3 : Vec Ideal S1x1x1 .f32)
    (x4 : Vec Ideal S64x32 .f32) (x5 : Vec Ideal S32x64 .f32) :
    out1_6 (F := Ideal) x0 x1 x2 x3 x4 x5 = View.canon [⟨r1_515, k1_pay1 (chain x0 x1 63)
      (k1_pay3 (View.ld x0 (rA 255)) (View.ld x1 (rB 255))) (View.ld x2 r1_512) (View.ld x3 r1_512) (View.ld x4 r1_513)
      (View.ld x5 r1_514)⟩] := rfl

end Cert.ReferenceIdeal.Pay.Upsample

namespace Cert.ReferenceIdeal.Pay

open Idealize.ShloMosaic Idealize.ShloMosaic.ValueIdx Cert.ReferenceIdeal Cert.ReferenceIdeal.Gen
open Cert.ReferenceIdeal.Pay.Upsample

/-- The output block at the entry (0, 0, a, a'): its one store covers the block, so the block is the last payload; the
    scale, the shift and the two matrices are loaded whole; the payload's matrix products are the two sums, and under
    them the 255 terms of the nested steps and the term of channel 255 make the sum over the 256 channels. -/
theorem rm3 : Cert.ReferenceIdeal.Stmt.RM3 := by
  intro x0 x1 x2 x3 x4 x5 a a'
  have e2 : View.ld (Val := Elt Ideal) (e' := .f32) x2 r1_512 = x2 :=
    View.ld_unit_zero (Val := Elt Ideal) (S := S1x1x1) (e := .f32) hz3 _ x2
  have e3 : View.ld (Val := Elt Ideal) (e' := .f32) x3 r1_512 = x3 :=
    View.ld_unit_zero (Val := Elt Ideal) (S := S1x1x1) (e := .f32) hz3 _ x3
  have e4 : View.ld (Val := Elt Ideal) (e' := .f32) x4 r1_513 = x4 :=
    View.ld_unit_zero (Val := Elt Ideal) (S := S64x32) (e := .f32) hz2 _ x4
  have e5 : View.ld (Val := Elt Ideal) (e' := .f32) x5 r1_514 = x5 :=
    View.ld_unit_zero (Val := Elt Ideal) (S := S32x64) (e := .f32) hz2 _ x5
  rw [out_eq, View.canon_unit_zero hz4, e2, e3, e4, e5, pay1_apply]
  refine Finset.sum_congr rfl fun w _ => ?_
  refine congrArg (· * x5 (ix2 w a')) (Finset.sum_congr rfl fun h _ => ?_)
  rw [chain_apply, pay3_ld, ← sum_term x0 x1 h w]
  have e : ∑ i ∈ Finset.range (4 * 63 + 3), term x0 x1 h w i + term x0 x1 h w 255
      = ∑ i ∈ Finset.range 256, term x0 x1 h w i := (Finset.sum_range_succ (fun i => term x0 x1 h w i) 255).symm
  rw [e]

end Cert.ReferenceIdeal.Pay

end
-- ==== Proof.KRun1.lean ====
/-
  The second region of the first program read as one whole-array function: each grid point reads one image of the
  activations and the four whole arrays (scale, shift, the two interpolation matrices) and writes one image of the result,
  so the result array after the region is, at (n, co, a, a'), the body's block function of image n at (0, co, a, a').
  The blocks tile the result along the image axis: point n covers exactly the indices whose first coordinate is n.
-/
import proofs.«111454_g2000205057013705_pallasbulk_543_2_alg».proof.Proof.Gen.KernelIdeal.Frame
import proofs.«111454_g2000205057013705_pallasbulk_543_2_alg».proof.Proof.Spec
import proofs.«111454_g2000205057013705_pallasbulk_543_2_alg».proof.Proof.KStmt
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Run

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The second region: one image per grid point -/

section Region1

variable (V : (c : Dev nD) → (b : Ref sig .tc) → Buf (Elt Ideal) ((c : Thread nD τ).loc b))

/-- Point t reads image t of the activations and writes image t of the result; the other four windows are whole arrays. -/
theorem idx1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_5.index t (0 : Fin 4) = t.val ∧ win1_5.index t (1 : Fin 4) = 0 ∧ win1_5.index t (2 : Fin 4) = 0 ∧ win1_5.index t (3 : Fin 4) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The result array of the second region as one function of the five arrays it reads: entry (n, co, a, a') is the
    body's block function of image n of the activations and of the four whole arrays, at (0, co, a, a'). -/
def up (A : S32x128x32x32.Idx → EReal) (sc sh : S128x1x1.Idx → EReal) (M0 M1 : S32x64.Idx → EReal) :
    S32x128x64x64.Idx → EReal :=
  fun i => out1_5 (F := Ideal)
    (fun y => A (ix4 (n0 := 32) (n1 := 128) (n2 := 32) (n3 := 32) (i 0) (y 1) (y 2) (y 3))) sc sh M0 M1
    (ix4 (n0 := 1) (n1 := 128) (n2 := 64) (n3 := 64) 0 (i 1) (i 2) (i 3))

/-- A block function of blocks that are the stated restrictions is the whole-array function at the matching index. -/
theorem up_at (A : S32x128x32x32.Idx → EReal) (sc sh : S128x1x1.Idx → EReal) (M0 M1 : S32x64.Idx → EReal)
    (X0 : Vec Ideal S1x128x32x32 .f32) (X1 X2 : Vec Ideal S128x1x1 .f32) (X3 X4 : Vec Ideal S32x64 .f32)
    (j : S1x128x64x64.Idx) (i : S32x128x64x64.Idx)
    (h0 : ∀ y : S1x128x32x32.Idx, X0 y = A (ix4 (n0 := 32) (n1 := 128) (n2 := 32) (n3 := 32) (i 0) (y 1) (y 2) (y 3)))
    (h1 : X1 = sc) (h2 : X2 = sh) (h3 : X3 = M0) (h4 : X4 = M1)
    (hj : j = ix4 (n0 := 1) (n1 := 128) (n2 := 64) (n3 := 64) 0 (i 1) (i 2) (i 3)) :
    out1_5 (F := Ideal) X0 X1 X2 X3 X4 j = up A sc sh M0 M1 i := by
  subst h1 h2 h3 h4 hj
  have e : X0 = fun y => A (ix4 (n0 := 32) (n1 := 128) (n2 := 32) (n3 := 32) (i 0) (y 1) (y 2) (y 3)) := funext h0
  subst e
  rfl

theorem cut5 (t : Fin cfg1.N) (X : Vec Ideal S1x128x64x64 .f32) (j : ((cfg1.win 5).xblock (grid1.coords t)).Idx) :
    (cfg1.win 5).cut (grid1.coords t) X j = X j := rfl

theorem flushed1 (c : Dev nD) (t : Fin cfg1.N) :
    (dat1 V c).flushed 5 t = ((cfg1.win 5).blk t).view.read (Elt Ideal)
      (up (V c main_v21) (V c main_v22) (V c main_v23) (V c main_cst) (V c main_cst_0)) := by
  show (cfg1.win 5).cut (grid1.coords t) ((dat1 V c).after 5 t) = _
  rw [after1_5]
  obtain ⟨e00, e01, e02, e03, e50, e51, e52, e53, e10, e11, e12, e20, e21, e22, e30, e31, e40, e41⟩ := idx1 t
  funext j
  rw [View.read_apply]
  refine (cut5 t (out1_5 (iblk1 V c 0 t) (iblk1 V c 1 t) (iblk1 V c 2 t) (iblk1 V c 3 t) (iblk1 V c 4 t)) j).trans ?_
  have hj0 : (j 0).val < 1 := (j 0).isLt
  refine (up_at (V c main_v21) (V c main_v22) (V c main_v23) (V c main_cst) (V c main_cst_0)
    (iblk1 V c 0 t) (iblk1 V c 1 t) (iblk1 V c 2 t) (iblk1 V c 3 t) (iblk1 V c 4 t) j (((cfg1.win 5).blk t).view.emb j)
    ?_ ?_ ?_ ?_ ?_ ?_).trans (cast_eq _ _).symm
  · intro y
    have hy0 : (y 0).val < 1 := (y 0).isLt
    unfold iblk1
    rw [View.read_apply]
    refine (cast_eq _ _).trans ?_
    refine congrArg (V c main_v21) (funext fun a => Fin.ext ?_)
    match a with
    | ⟨0, _⟩ => show win1_0.index t (0 : Fin 4) * 1 + 1 * (y 0).val = win1_5.index t (0 : Fin 4) * 1 + 1 * (j 0).val; omega
    | ⟨1, _⟩ => show win1_0.index t (1 : Fin 4) * 128 + 1 * (y 1).val = (y 1).val; omega
    | ⟨2, _⟩ => show win1_0.index t (2 : Fin 4) * 32 + 1 * (y 2).val = (y 2).val; omega
    | ⟨3, _⟩ => show win1_0.index t (3 : Fin 4) * 32 + 1 * (y 3).val = (y 3).val; omega
  · funext y
    unfold iblk1
    rw [View.read_apply]
    refine (cast_eq _ _).trans ?_
    refine congrArg (V c main_v22) (funext fun a => Fin.ext ?_)
    match a with
    | ⟨0, _⟩ => show win1_1.index t (0 : Fin 3) * 128 + 1 * (y 0).val = (y 0).val; omega
    | ⟨1, _⟩ => show win1_1.index t (1 : Fin 3) * 1 + 1 * (y 1).val = (y 1).val; omega
    | ⟨2, _⟩ => show win1_1.index t (2 : Fin 3) * 1 + 1 * (y 2).val = (y 2).val; omega
  · funext y
    unfold iblk1
    rw [View.read_apply]
    refine (cast_eq _ _).trans ?_
    refine congrArg (V c main_v23) (funext fun a => Fin.ext ?_)
    match a with
    | ⟨0, _⟩ => show win1_2.index t (0 : Fin 3) * 128 + 1 * (y 0).val = (y 0).val; omega
    | ⟨1, _⟩ => show win1_2.index t (1 : Fin 3) * 1 + 1 * (y 1).val = (y 1).val; omega
    | ⟨2, _⟩ => show win1_2.index t (2 : Fin 3) * 1 + 1 * (y 2).val = (y 2).val; omega
  · funext y
    unfold iblk1
    rw [View.read_apply]
    refine (cast_eq _ _).trans ?_
    refine congrArg (V c main_cst) (funext fun a => Fin.ext ?_)
    match a with
    | ⟨0, _⟩ => show win1_3.index t (0 : Fin 2) * 32 + 1 * (y 0).val = (y 0).val; omega
    | ⟨1, _⟩ => show win1_3.index t (1 : Fin 2) * 64 + 1 * (y 1).val = (y 1).val; omega
  · funext y
    unfold iblk1
    rw [View.read_apply]
    refine (cast_eq _ _).trans ?_
    refine congrArg (V c main_cst_0) (funext fun a => Fin.ext ?_)
    match a with
    | ⟨0, _⟩ => show win1_4.index t (0 : Fin 2) * 32 + 1 * (y 0).val = (y 0).val; omega
    | ⟨1, _⟩ => show win1_4.index t (1 : Fin 2) * 64 + 1 * (y 1).val = (y 1).val; omega
  · funext a; apply Fin.ext
    match a with
    | ⟨0, _⟩ => show (j 0).val = 0; omega
    | ⟨1, _⟩ => show (j 1).val = win1_5.index t (1 : Fin 4) * 128 + 1 * (j 1).val; omega
    | ⟨2, _⟩ => show (j 2).val = win1_5.index t (2 : Fin 4) * 64 + 1 * (j 2).val; omega
    | ⟨3, _⟩ => show (j 3).val = win1_5.index t (3 : Fin 4) * 64 + 1 * (j 3).val; omega

/-- Every index of the result lies in the block of the point of its image. -/
theorem cover1 (i : S32x128x64x64.Idx) :
    ∃ t : Fin cfg1.N, (cfg1.win 5).flush t = true ∧ i ∈ ((cfg1.win 5).blk t).view.set := by
  have hi0 : (i 0).val < 32 := (i 0).isLt
  have hi1 : (i 1).val < 128 := (i 1).isLt
  have hi2 : (i 2).val < 64 := (i 2).isLt
  have hi3 : (i 3).val < 64 := (i 3).isLt
  obtain ⟨t, ht⟩ : ∃ t : Fin cfg1.N, t.val = (i 0).val := ⟨⟨(i 0).val, by rw [show cfg1.N = 32 from N_1]; exact hi0⟩, rfl⟩
  obtain ⟨e00, e01, e02, e03, e50, e51, e52, e53, -⟩ := idx1 t
  refine ⟨t, flush1_5 t, ?_⟩
  show i ∈ ((View.whole main_v24).slice (win1_5.rect t)).set
  rw [View.set_slice_whole, Rect.mem_set_unit]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 128 ≤ (i 1).val ∧ (i 1).val < win1_5.index t (1 : Fin 4) * 128 + 128; omega
  | ⟨2, _⟩ => show win1_5.index t (2 : Fin 4) * 64 ≤ (i 2).val ∧ (i 2).val < win1_5.index t (2 : Fin 4) * 64 + 64; omega
  | ⟨3, _⟩ => show win1_5.index t (3 : Fin 4) * 64 ≤ (i 3).val ∧ (i 3).val < win1_5.index t (3 : Fin 4) * 64 + 64; omega

/-- The result array after the second region. -/
theorem final1 (c : Dev nD) : (dat1 V c).arrAt 5 cfg1.N
    = up (V c main_v21) (V c main_v22) (V c main_v23) (V c main_cst) (V c main_cst_0) :=
  (dat1 V c).arrAt_eq_of_cover 5 (up (V c main_v21) (V c main_v22) (V c main_v23) (V c main_cst) (V c main_cst_0))
    (fun t _ => flushed1 V c t) cover1

end Region1

end Cert.KernelIdeal.Run

end
-- ==== Proof.KRunHost.lean ====
/-
  The host operations of the first program at the extended reals. Between the two regions: the two per-image sum arrays
  are summed over the 32 images from the literal zero, and mean = s / M, var = max (sq / M − mean²) 0,
  scale = gamma / sqrt (var + ε), shift = beta − mean · scale follow channel by channel; named here as vector functions
  whose value at a channel is Spec.scaleOf / Spec.shiftOf of the two sums there. Before the first region: the two dense
  literals and the row-major reshapes of the image and weight arguments.
-/
import proofs.«111454_g2000205057013705_pallasbulk_543_2_alg».proof.Proof.Gen.KernelIdeal.Frame
import proofs.«111454_g2000205057013705_pallasbulk_543_2_alg».proof.Proof.Spec
import proofs.«111454_g2000205057013705_pallasbulk_543_2_alg».proof.Proof.KStmt
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Run

open Cert.KernelIdeal Cert.KernelIdeal.Gen

/-! ## The host operations between the two regions, and before the first -/

section HostChain

/-- A [32,128,1] array summed over its 32 images from the literal zero, as a vector over the channels. -/
def chanSum (S : FVec Ideal S32x128x1 .f32) : FVec Ideal S128 .f32 :=
  shapeCast S128 (Host.reduceAdd (F := Ideal) S (constant (F := Ideal) S_ .f32 0x00000000#32)
    Gen.reducesTo_S32x128x1_S128x1_d0 Gen.h_S_) Gen.shapeCasts_S128x1_S128

/-- A scalar literal broadcast over the channels. -/
def bc (w : BitVec 32) : FVec Ideal S128 .f32 :=
  broadcastInDim S128 ![] Gen.bcast_S_S128 (constant (F := Ideal) S_ .f32 w)

/-- A channel vector divided by the number of averaged entries. -/
def meanVec (v : FVec Ideal S128 .f32) : FVec Ideal S128 .f32 := Host.divf (F := Ideal) v (bc 0x47000000#32)

/-- gamma / sqrt (max (sq / M − mean²) 0 + ε), channel by channel. -/
def scaleVec (v4 v6 g : FVec Ideal S128 .f32) : FVec Ideal S128 .f32 :=
  Host.divf (F := Ideal) g (Host.sqrt (F := Ideal)
    (addf (maximumf (subf (meanVec v6) (mulf (meanVec v4) (meanVec v4))) (bc 0x00000000#32)) (bc 0x3727C5AC#32)))

/-- beta − mean · scale, channel by channel. -/
def shiftVec (v4 v6 g b : FVec Ideal S128 .f32) : FVec Ideal S128 .f32 :=
  subf b (mulf (meanVec v4) (scaleVec v4 v6 g))

theorem scaleVec_apply (v4 v6 g : FVec Ideal S128 .f32) (j : S128.Idx) :
    scaleVec v4 v6 g j = Cert.Spec.scaleOf (v4 j) (v6 j) (g j) := rfl

theorem shiftVec_apply (v4 v6 g b : FVec Ideal S128 .f32) (j : S128.Idx) :
    shiftVec v4 v6 g b j = Cert.Spec.shiftOf (v4 j) (v6 j) (g j) (b j) := rfl

/-- The channel sum at channel co: the literal zero plus the sum of the 32 images' entries. -/
theorem chanSum_apply (S : FVec Ideal S32x128x1 .f32) (co : Fin 128) :
    chanSum S (ix1 co) = Ideal.ofBits .f32 0x00000000#32 + ∑ n : Fin 32, S (ix3 n co 0) := by
  unfold chanSum
  rw [shapeCast_apply _ _ (ix1 co) (ix2 (n0 := 128) (n1 := 1) co 0) (by
    rw [Shape.rowMajor_val_two, Shape.rowMajor_val_one]; show co.val * 1 + 0 = co.val; omega)]
  unfold Host.reduceAdd
  rw [Ideal.hostReduceAdd_def,
    Ideal.hostReduceAdd_single Gen.reducesTo_S32x128x1_S128x1_d0 (by decide : Shape.Reduces S32x128x1 [0] S128x1) S _ _]
  show Ideal.ofBits .f32 0x00000000#32 + ∑ k : Fin 32, S _ = _
  refine congrArg (Ideal.ofBits .f32 0x00000000#32 + ·) (Finset.sum_congr rfl fun n _ => congrArg S ?_)
  funext a
  match a with
  | ⟨0, _⟩ => rfl
  | ⟨1, _⟩ => rfl
  | ⟨2, _⟩ => rfl

end HostChain

section HostReads

variable (m : (ℓ : Loc nD τ sig) → Buf (Elt Ideal) ℓ) (ρ : Dev nD → PrngReg)

/-- What the second region finds in its scale operand: the chain applied to the first region's two sum arrays. -/
theorem V3_v22 (c : Dev nD) : (V3 m ρ c main_v22 : S128x1x1.Idx → EReal)
    = shapeCast S128x1x1 (scaleVec (chanSum (W2 m ρ c (Proc.devRef .tc main_v2_1))) (chanSum (W2 m ρ c (Proc.devRef .tc main_v2_2)))
        (W2 m ρ c (Proc.devRef .tc main_arg2))) Gen.shapeCasts_S128_S128x1x1 := by
  show StableHlo.after hostOps1 (W2 m ρ c) (Proc.devRef .tc main_v22) = _
  after_results
  rfl

theorem V3_v23 (c : Dev nD) : (V3 m ρ c main_v23 : S128x1x1.Idx → EReal)
    = shapeCast S128x1x1 (shiftVec (chanSum (W2 m ρ c (Proc.devRef .tc main_v2_1))) (chanSum (W2 m ρ c (Proc.devRef .tc main_v2_2)))
        (W2 m ρ c (Proc.devRef .tc main_arg2)) (W2 m ρ c (Proc.devRef .tc main_arg3))) Gen.shapeCasts_S128_S128x1x1 := by
  show StableHlo.after hostOps1 (W2 m ρ c) (Proc.devRef .tc main_v23) = _
  after_results_simp
  rfl

theorem V3_v21 (c : Dev nD) : (V3 m ρ c main_v21 : S32x128x32x32.Idx → EReal)
    = shapeCast S32x128x32x32 (W2 m ρ c (Proc.devRef .tc main_v2_0)) Gen.shapeCasts_S32x128x1024_S32x128x32x32 := by
  show StableHlo.after hostOps1 (W2 m ρ c) (Proc.devRef .tc main_v21) = _
  after_results
  rfl

theorem V3_cst (c : Dev nD) : (V3 m ρ c main_cst : S32x64.Idx → EReal)
    = fun j => FloatOps.ofBits (F := Ideal) .f32 (lit0 (S32x64.rowMajor j)) := by
  show StableHlo.after hostOps1 (W2 m ρ c) (Proc.devRef .tc main_cst) = _
  after_results
  rw [W2_of_ne m ρ c main_cst (by decide)]
  show StableHlo.after hostOps0 (W0 m ρ c) (Proc.devRef .tc main_cst) = _
  after_results
  rfl

theorem V3_cst_0 (c : Dev nD) : (V3 m ρ c main_cst_0 : S32x64.Idx → EReal)
    = fun j => FloatOps.ofBits (F := Ideal) .f32 (lit1 (S32x64.rowMajor j)) := by
  show StableHlo.after hostOps1 (W2 m ρ c) (Proc.devRef .tc main_cst_0) = _
  after_results
  rw [W2_of_ne m ρ c main_cst_0 (by decide)]
  show StableHlo.after hostOps0 (W0 m ρ c) (Proc.devRef .tc main_cst_0) = _
  after_results
  rfl

end HostReads

end Cert.KernelIdeal.Run

end
-- ==== Proof.KArr0.lean ====
/-
  The first region's three output arrays as whole-array functions of the buffers the region is entered with.
  The grid has one point per image n; point n reads block n of the [32, 256, 1024] image array and the whole
  [128, 256] weight array, and writes block n of each output. So entry (n, co, p) of the activation array is entry
  (0, co, p) of the body's block function applied to image n's block and the weights, and the same for the two [32, 128, 1]
  arrays of per-image sums. The blocks of the 32 points tile each output array, so nothing of its former contents is left.
-/
import proofs.«111454_g2000205057013705_pallasbulk_543_2_alg».proof.Proof.Gen.KernelIdeal.Frame
import Idealize.ShloMosaic.Lib.Pipeline.Value
import Idealize.ShloMosaic.Lib.ValueIdx

set_option maxRecDepth 16384

noncomputable section

namespace Cert.KernelIdeal.Arr0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: point t takes block (t, 0, 0) of the image array and of each output array,
    and block (0, 0) of the weights. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The image window's block at point t is image t of the array. -/
theorem img_block (c : Dev nD) (t : Fin cfg0.N) (y : S1x256x1024.Idx) (k : S32x256x1024.Idx)
    (h0 : (k 0).val = t.val) (h1 : (k 1).val = (y 1).val) (h2 : (k 2).val = (y 2).val) :
    (iblk0 V c 0 t : Vec Ideal S1x256x1024 .f32) y = (V c main_v0 : S32x256x1024.Idx → EReal) k := by
  obtain ⟨e0, e1, e2, -⟩ := idx_facts t
  unfold iblk0
  rw [View.read_apply]
  show V c main_v0 _ = V c main_v0 _
  congr 1
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 256 + 1 * (y 1).val = (k 1).val; omega
  | ⟨2, _⟩ => show win0_0.index t (2 : Fin 3) * 1024 + 1 * (y 2).val = (k 2).val; omega

/-- The weight window's block is the whole weight array at every point. -/
theorem wt_block (c : Dev nD) (t : Fin cfg0.N) :
    (iblk0 V c 1 t : Vec Ideal S128x256 .f32) = (V c main_v1 : S128x256.Idx → EReal) := by
  obtain ⟨-, -, -, e3, e4, -⟩ := idx_facts t
  funext y
  unfold iblk0
  rw [View.read_apply]
  show V c main_v1 _ = V c main_v1 _
  congr 1
  funext a
  apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Image n's block of the image array. -/
abbrev img (c : Dev nD) (n : Fin 32) : Vec Ideal S1x256x1024 .f32 := fun y => V c main_v0 (ix3 n (y 1) (y 2))

/-! ## The activation array -/

/-- Entry (n, co, p) is entry (0, co, p) of the block function at image n. -/
def G2 (c : Dev nD) : S32x128x1024.Idx → EReal := fun i => out0_2 (img V c (i 0)) (V c main_v1) (ix3 0 (i 1) (i 2))

/-- The block function of blocks that are the stated restrictions is the whole-array function at the matching index. -/
theorem g2_at (A : S32x256x1024.Idx → EReal) (Wm : S128x256.Idx → EReal)
    (X0 : Vec Ideal S1x256x1024 .f32) (X1 : Vec Ideal S128x256 .f32) (j : S1x128x1024.Idx) (i : S32x128x1024.Idx)
    (h0 : ∀ y : S1x256x1024.Idx, X0 y = A (ix3 (n0 := 32) (n1 := 256) (n2 := 1024) (i 0) (y 1) (y 2))) (h1 : X1 = Wm)
    (hj : j = ix3 (n0 := 1) (n1 := 128) (n2 := 1024) 0 (i 1) (i 2)) :
    out0_2 (F := Ideal) X0 X1 j
      = out0_2 (F := Ideal) (fun y => A (ix3 (n0 := 32) (n1 := 256) (n2 := 1024) (i 0) (y 1) (y 2))) Wm
          (ix3 (n0 := 1) (n1 := 128) (n2 := 1024) 0 (i 1) (i 2)) := by
  subst h1 hj
  have e : X0 = fun y => A (ix3 (n0 := 32) (n1 := 256) (n2 := 1024) (i 0) (y 1) (y 2)) := funext h0
  subst e
  rfl

theorem cut2 (t : Fin cfg0.N) (X : Vec Ideal S1x128x1024 .f32) (j : ((cfg0.win 2).xblock (grid0.coords t)).Idx) :
    (cfg0.win 2).cut (grid0.coords t) X j = X j := rfl

theorem flushed2 (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  obtain ⟨-, -, -, -, -, e5, e6, e7, -⟩ := idx_facts t
  funext j
  rw [View.read_apply]
  refine (cut2 t (out0_2 (iblk0 V c 0 t) (iblk0 V c 1 t)) j).trans ?_
  have hj0 : (j 0).val < 1 := (j 0).isLt
  refine (g2_at (V c main_v0) (V c main_v1) (iblk0 V c 0 t) (iblk0 V c 1 t) j (((cfg0.win 2).blk t).view.emb j) ?_ ?_ ?_).trans
    (cast_eq _ _).symm
  · intro y
    refine img_block V c t y _ ?_ rfl rfl
    show win0_2.index t (0 : Fin 3) * 1 + 1 * (j 0).val = t.val
    omega
  · exact wt_block V c t
  · funext a
    apply Fin.ext
    match a with
    | ⟨0, _⟩ => show (j 0).val = 0; omega
    | ⟨1, _⟩ => show (j 1).val = win0_2.index t (1 : Fin 3) * 128 + 1 * (j 1).val; omega
    | ⟨2, _⟩ => show (j 2).val = win0_2.index t (2 : Fin 3) * 1024 + 1 * (j 2).val; omega

theorem mem_blk2 (t : Fin cfg0.N) (i : S32x128x1024.Idx) :
    i ∈ ((cfg0.win 2).blk t).view.set ↔ ∀ a : Fin 3, win0_2.index t a * S1x128x1024.size a ≤ (i a).val ∧ (i a).val < win0_2.index t a * S1x128x1024.size a + S1x128x1024.size a := by
  show i ∈ ((View.whole main_v2_0).slice (win0_2.rect t)).set ↔ _
  rw [View.set_slice_whole, Rect.mem_set_unit]
  exact Iff.rfl

theorem cover2 (i : S32x128x1024.Idx) : ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 1024 := (i 2).isLt
  obtain ⟨t, ht⟩ : ∃ t : Fin cfg0.N, t.val = (i 0).val := ⟨⟨(i 0).val, by rw [show cfg0.N = 32 from N_0]; exact hi0⟩, rfl⟩
  refine ⟨t, flush0_2 t, ?_⟩
  rw [mem_blk2]
  obtain ⟨-, -, -, -, -, e5, e6, e7, -⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 1024 ≤ (i 2).val ∧ (i 2).val < win0_2.index t (2 : Fin 3) * 1024 + 1024; omega

theorem arr0_2 (c : Dev nD) :
    ((dat0 V c).arrAt 2 cfg0.N : S32x128x1024.Idx → EReal)
      = fun i => out0_2 (fun y => V c main_v0 (ix3 (i 0) (y 1) (y 2))) (V c main_v1) (ix3 0 (i 1) (i 2)) :=
  (dat0 V c).arrAt_eq_of_cover 2 (G2 V c) (fun t _ => flushed2 V c t) cover2

/-! ## The array of per-image sums -/

/-- Entry (n, co, 0) is entry (0, co, 0) of the block function at image n. -/
def G3 (c : Dev nD) : S32x128x1.Idx → EReal := fun i => out0_3 (img V c (i 0)) (V c main_v1) (ix3 0 (i 1) (i 2))

/-- The block function of blocks that are the stated restrictions is the whole-array function at the matching index. -/
theorem g3_at (A : S32x256x1024.Idx → EReal) (Wm : S128x256.Idx → EReal)
    (X0 : Vec Ideal S1x256x1024 .f32) (X1 : Vec Ideal S128x256 .f32) (j : S1x128x1.Idx) (i : S32x128x1.Idx)
    (h0 : ∀ y : S1x256x1024.Idx, X0 y = A (ix3 (n0 := 32) (n1 := 256) (n2 := 1024) (i 0) (y 1) (y 2))) (h1 : X1 = Wm)
    (hj : j = ix3 (n0 := 1) (n1 := 128) (n2 := 1) 0 (i 1) (i 2)) :
    out0_3 (F := Ideal) X0 X1 j
      = out0_3 (F := Ideal) (fun y => A (ix3 (n0 := 32) (n1 := 256) (n2 := 1024) (i 0) (y 1) (y 2))) Wm
          (ix3 (n0 := 1) (n1 := 128) (n2 := 1) 0 (i 1) (i 2)) := by
  subst h1 hj
  have e : X0 = fun y => A (ix3 (n0 := 32) (n1 := 256) (n2 := 1024) (i 0) (y 1) (y 2)) := funext h0
  subst e
  rfl

theorem cut3 (t : Fin cfg0.N) (X : Vec Ideal S1x128x1 .f32) (j : ((cfg0.win 3).xblock (grid0.coords t)).Idx) :
    (cfg0.win 3).cut (grid0.coords t) X j = X j := rfl

/-- What point t writes back of this window is the whole-array function on block t. -/
theorem flushed3 (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  obtain ⟨-, -, -, -, -, -, -, -, e5, e6, e7, -⟩ := idx_facts t
  funext j
  rw [View.read_apply]
  refine (cut3 t (out0_3 (iblk0 V c 0 t) (iblk0 V c 1 t)) j).trans ?_
  have hj0 : (j 0).val < 1 := (j 0).isLt
  refine (g3_at (V c main_v0) (V c main_v1) (iblk0 V c 0 t) (iblk0 V c 1 t) j (((cfg0.win 3).blk t).view.emb j) ?_ ?_ ?_).trans
    (cast_eq _ _).symm
  · intro y
    refine img_block V c t y _ ?_ rfl rfl
    show win0_3.index t (0 : Fin 3) * 1 + 1 * (j 0).val = t.val
    omega
  · exact wt_block V c t
  · funext a
    apply Fin.ext
    match a with
    | ⟨0, _⟩ => show (j 0).val = 0; omega
    | ⟨1, _⟩ => show (j 1).val = win0_3.index t (1 : Fin 3) * 128 + 1 * (j 1).val; omega
    | ⟨2, _⟩ => show (j 2).val = win0_3.index t (2 : Fin 3) * 1 + 1 * (j 2).val; omega

theorem mem_blk3 (t : Fin cfg0.N) (i : S32x128x1.Idx) :
    i ∈ ((cfg0.win 3).blk t).view.set ↔ ∀ a : Fin 3, win0_3.index t a * S1x128x1.size a ≤ (i a).val ∧ (i a).val < win0_3.index t a * S1x128x1.size a + S1x128x1.size a := by
  show i ∈ ((View.whole main_v2_1).slice (win0_3.rect t)).set ↔ _
  rw [View.set_slice_whole, Rect.mem_set_unit]
  exact Iff.rfl

/-- Every entry lies in the block of the point of its image. -/
theorem cover3 (i : S32x128x1.Idx) : ∃ t : Fin cfg0.N, (cfg0.win 3).flush t = true ∧ i ∈ ((cfg0.win 3).blk t).view.set := by
  have hi0 : (i 0).val < 32 := (i 0).isLt
  have hi1 : (i 1).val < 128 := (i 1).isLt
  have hi2 : (i 2).val < 1 := (i 2).isLt
  obtain ⟨t, ht⟩ : ∃ t : Fin cfg0.N, t.val = (i 0).val := ⟨⟨(i 0).val, by rw [show cfg0.N = 32 from N_0]; exact hi0⟩, rfl⟩
  refine ⟨t, flush0_3 t, ?_⟩
  rw [mem_blk3]
  obtain ⟨-, -, -, -, -, -, -, -, e5, e6, e7, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1 ≤ (i 2).val ∧ (i 2).val < win0_3.index t (2 : Fin 3) * 1 + 1; omega

theorem arr0_3 (c : Dev nD) :
    ((dat0 V c).arrAt 3 cfg0.N : S32x128x1.Idx → EReal)
      = fun i => out0_3 (fun y => V c main_v0 (ix3 (i 0) (y 1) (y 2))) (V c main_v1) (ix3 0 (i 1) (i 2)) :=
  (dat0 V c).arrAt_eq_of_cover 3 (G3 V c) (fun t _ => flushed3 V c t) cover3

/-! ## The array of per-image sums of squares -/

/-- Entry (n, co, 0) is entry (0, co, 0) of the block function at image n. -/
def G4 (c : Dev nD) : S32x128x1.Idx → EReal := fun i => out0_4 (img V c (i 0)) (V c main_v1) (ix3 0 (i 1) (i 2))

/-- The block function of blocks that are the stated restrictions is the whole-array function at the matching index. -/
theorem g4_at (A : S32x256x1024.Idx → EReal) (Wm : S128x256.Idx → EReal)
    (X0 : Vec Ideal S1x256x1024 .f32) (X1 : Vec Ideal S128x256 .f32) (j : S1x128x1.Idx) (i : S32x128x1.Idx)
    (h0 : ∀ y : S1x256x1024.Idx, X0 y = A (ix3 (n0 := 32) (n1 := 256) (n2 := 1024) (i 0) (y 1) (y 2))) (h1 : X1 = Wm)
    (hj : j = ix3 (n0 := 1) (n1 := 128) (n2 := 1) 0 (i 1) (i 2)) :
    out0_4 (F := Ideal) X0 X1 j
      = out0_4 (F := Ideal) (fun y => A (ix3 (n0 := 32) (n1 := 256) (n2 := 1024) (i 0) (y 1) (y 2))) Wm
          (ix3 (n0 := 1) (n1 := 128) (n2 := 1) 0 (i 1) (i 2)) := by
  subst h1 hj
  have e : X0 = fun y => A (ix3 (n0 := 32) (n1 := 256) (n2 := 1024) (i 0) (y 1) (y 2)) := funext h0
  subst e
  rfl

theorem cut4 (t : Fin cfg0.N) (X : Vec Ideal S1x128x1 .f32) (j : ((cfg0.win 4).xblock (grid0.coords t)).Idx) :
    (cfg0.win 4).cut (grid0.coords t) X j = X j := rfl

/-- What point t writes back of this window is the whole-array function on block t. -/
theorem flushed4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  obtain ⟨-, -, -, -, -, -, -, -, -, -, -, e5, e6, e7⟩ := idx_facts t
  funext j
  rw [View.read_apply]
  refine (cut4 t (out0_4 (iblk0 V c 0 t) (iblk0 V c 1 t)) j).trans ?_
  have hj0 : (j 0).val < 1 := (j 0).isLt
  refine (g4_at (V c main_v0) (V c main_v1) (iblk0 V c 0 t) (iblk0 V c 1 t) j (((cfg0.win 4).blk t).view.emb j) ?_ ?_ ?_).trans
    (cast_eq _ _).symm
  · intro y
    refine img_block V c t y _ ?_ rfl rfl
    show win0_4.index t (0 : Fin 3) * 1 + 1 * (j 0).val = t.val
    omega
  · exact wt_block V c t
  · funext a
    apply Fin.ext
    match a with
    | ⟨0, _⟩ => show (j 0).val = 0; omega
    | ⟨1, _⟩ => show (j 1).val = win0_4.index t (1 : Fin 3) * 128 + 1 * (j 1).val; omega
    | ⟨2, _⟩ => show (j 2).val = win0_4.index t (2 : Fin 3) * 1 + 1 * (j 2).val; omega

theorem mem_blk4 (t : Fin cfg0.N) (i : S32x128x1.Idx) :
    i ∈ ((cfg0.win 4).blk t).view.set ↔ ∀ a : Fin 3, win0_4.index t a * S1x128x1.size a ≤ (i a).val ∧ (i a).val < win0_4.index t a * S1x128x1.size a + S1x128x1.size a := by
  show i ∈ ((View.whole main_v2_2).slice (win0_4.rect t)).set ↔ _
  rw [View.set_slice_whole, Rect.mem_set_unit]
  exact Iff.rfl

/-- Every entry lies in the block of the point of its image. -/
theorem cover4 (i : S32x128x1.Idx) : ∃ t : Fin cfg0.N, (cfg0.win 4).flush t = true ∧ i ∈ ((cfg0.win 4).blk t).view.set := by
  have hi0 : (i 0).val < 32 := (i 0).isLt
  have hi1 : (i 1).val < 128 := (i 1).isLt
  have hi2 : (i 2).val < 1 := (i 2).isLt
  obtain ⟨t, ht⟩ : ∃ t : Fin cfg0.N, t.val = (i 0).val := ⟨⟨(i 0).val, by rw [show cfg0.N = 32 from N_0]; exact hi0⟩, rfl⟩
  refine ⟨t, flush0_4 t, ?_⟩
  rw [mem_blk4]
  obtain ⟨-, -, -, -, -, -, -, -, -, -, -, e5, e6, e7⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 1 ≤ (i 2).val ∧ (i 2).val < win0_4.index t (2 : Fin 3) * 1 + 1; omega

theorem arr0_4 (c : Dev nD) :
    ((dat0 V c).arrAt 4 cfg0.N : S32x128x1.Idx → EReal)
      = fun i => out0_4 (fun y => V c main_v0 (ix3 (i 0) (y 1) (y 2))) (V c main_v1) (ix3 0 (i 1) (i 2)) :=
  (dat0 V c).arrAt_eq_of_cover 4 (G4 V c) (fun t _ => flushed4 V c t) cover4

end Cert.KernelIdeal.Arr0

end
-- ==== Proof.KRun.lean ====
/-
  The first program's run read as one function of its four arguments. The program is two regions with host operations
  between them. The first region leaves, per image n and channel co, the activations act n co (p / 32) (p % 32) over the
  1024 flattened pixels p and their sum and sum of squares over the pixels; the host sums these over the 32 images and
  forms scale and shift per channel; the second region maps each image of the activations affinely and contracts its rows
  and then its columns against the two literal interpolation matrices. Here each array the second region reads is
  identified entry by entry with the target's vocabulary (act, scale, shift, the literal matrices), using that the
  reshapes are row-major (pixel (h, w) is flattened pixel 32 h + w), and the body's payload read at an index is then
  the target function outA.
-/
import proofs.«111454_g2000205057013705_pallasbulk_543_2_alg».proof.Proof.KRun1
import proofs.«111454_g2000205057013705_pallasbulk_543_2_alg».proof.Proof.KRunHost
import proofs.«111454_g2000205057013705_pallasbulk_543_2_alg».proof.Proof.KArr0

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Run

open Cert.KernelIdeal Cert.KernelIdeal.Gen

/-! ## The first region's outputs, entry by entry -/

section Region0

variable (m : (ℓ : Loc nD τ sig) → Buf (Elt Ideal) ℓ) (ρ : Dev nD → PrngReg)

/-- What the first region finds in its two operands: the image and weight arguments, reshaped. -/
theorem V1_v0 (c : Dev nD) : (V1 m ρ c main_v0 : S32x256x1024.Idx → EReal)
    = shapeCast S32x256x1024 (m ((c : Thread nD τ).loc main_arg0)) Gen.shapeCasts_S32x256x32x32_S32x256x1024 := by
  show StableHlo.after hostOps0 (W0 m ρ c) (Proc.devRef .tc main_v0) = _
  after_results
  rfl

theorem V1_v1 (c : Dev nD) : (V1 m ρ c main_v1 : S128x256.Idx → EReal)
    = shapeCast S128x256 (m ((c : Thread nD τ).loc main_arg1)) Gen.shapeCasts_S128x256x1x1_S128x256 := by
  show StableHlo.after hostOps0 (W0 m ρ c) (Proc.devRef .tc main_v1) = _
  after_results
  rfl

/-- The scale and offset arguments reach the second host stretch as launched. -/
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- The reshaped image at (n, ci, p) is the image argument at (n, ci, p / 32, p % 32). -/
theorem x_at (c : Dev nD) (n : Fin 32) (ci : Fin 256) (p : Fin 1024) :
    (V1 m ρ c main_v0 : S32x256x1024.Idx → EReal) (ix3 n ci p)
      = (m ((c : Thread nD τ).loc main_arg0) : S32x256x32x32.Idx → EReal) (ix4 n ci (Cert.Spec.prow p) (Cert.Spec.pcol p)) := by
  rw [V1_v0]
  refine shapeCast_apply _ _ _ _ ?_
  show (S32x256x32x32.rowMajor (ix4 n ci (Cert.Spec.prow p) (Cert.Spec.pcol p))).val = (S32x256x1024.rowMajor (ix3 n ci p)).val
  rw [Shape.rowMajor_val_four, Shape.rowMajor_val_three]
  show ((n.val * 256 + ci.val) * 32 + p.val / 32) * 32 + p.val % 32 = (n.val * 256 + ci.val) * 1024 + p.val
  omega

/-- The reshaped weights at (co, ci) are the weight argument at (co, ci, 0, 0). -/
theorem wt_at (c : Dev nD) (co : Fin 128) (ci : Fin 256) :
    (V1 m ρ c main_v1 : S128x256.Idx → EReal) (ix2 co ci)
      = (m ((c : Thread nD τ).loc main_arg1) : S128x256x1x1.Idx → EReal) (ix4 co ci 0 0) := by
  rw [V1_v1]
  refine shapeCast_apply _ _ _ _ ?_
  show (S128x256x1x1.rowMajor (ix4 co ci 0 0)).val = (S128x256.rowMajor (ix2 co ci)).val
  rw [Shape.rowMajor_val_four, Shape.rowMajor_val_two]
  show ((co.val * 256 + ci.val) * 1 + 0) * 1 + 0 = co.val * 256 + ci.val
  omega

/-- One entry of the convolution of the blocks the first region reads is the activation of the arguments. -/
theorem conv_at (c : Dev nD) (n : Fin 32) (co : Fin 128) (p : Fin 1024) :
    Cert.KernelIdeal.Stmt.conv (V1 m ρ c main_v1) (fun y => V1 m ρ c main_v0 (ix3 (n0 := 32) (n1 := 256) (n2 := 1024) n (y 1) (y 2))) co p
      = Cert.Spec.act (m ((c : Thread nD τ).loc main_arg0)) (m ((c : Thread nD τ).loc main_arg1)) n co (Cert.Spec.prow p) (Cert.Spec.pcol p) := by
  unfold Cert.KernelIdeal.Stmt.conv Cert.Spec.act
  refine congrArg (max · (Ideal.ofBits .f32 0x00000000#32)) (Finset.sum_congr rfl fun ci _ => ?_)
  exact congrArg₂ (· * ·) (wt_at m ρ c co ci) (x_at m ρ c n ci p)

end Region0

section Entries

variable (m : (ℓ : Loc nD τ sig) → Buf (Elt Ideal) ℓ) (ρ : Dev nD → PrngReg)

/-- Each body loads its whole blocks and stores once through the whole block, so what it leaves is its payload. -/
theorem out0_2_eq (x0 : Vec Ideal S1x256x1024 .f32) (x1 : Vec Ideal S128x256 .f32) :
    out0_2 (F := Ideal) x0 x1 = k0_pay2 x1 x0 := by
  unfold out0_2
  rw [View.canon_unit_zero hz3]
  simp only [View.ld_unit_zero (S := S128x256) hz2, View.ld_unit_zero (S := S1x256x1024) hz3]

theorem out0_3_eq (x0 : Vec Ideal S1x256x1024 .f32) (x1 : Vec Ideal S128x256 .f32) :
    out0_3 (F := Ideal) x0 x1 = k0_pay3 x1 x0 := by
  unfold out0_3
  rw [View.canon_unit_zero hz3]
  simp only [View.ld_unit_zero (S := S128x256) hz2, View.ld_unit_zero (S := S1x256x1024) hz3]

theorem out0_4_eq (x0 : Vec Ideal S1x256x1024 .f32) (x1 : Vec Ideal S128x256 .f32) :
    out0_4 (F := Ideal) x0 x1 = k0_pay4 x1 x0 := by
  unfold out0_4
  rw [View.canon_unit_zero hz3]
  simp only [View.ld_unit_zero (S := S128x256) hz2, View.ld_unit_zero (S := S1x256x1024) hz3]

theorem out1_5_eq (x0 : Vec Ideal S1x128x32x32 .f32) (x1 x2 : Vec Ideal S128x1x1 .f32) (x3 x4 : Vec Ideal S32x64 .f32) :
    out1_5 (F := Ideal) x0 x1 x2 x3 x4 = k1_pay1 x0 x1 x2 x3 x4 := by
  unfold out1_5
  rw [View.canon_unit_zero hz4]
  simp only [View.ld_unit_zero (S := S1x128x32x32) hz4, View.ld_unit_zero (S := S128x1x1) hz3, View.ld_unit_zero (S := S32x64) hz2]

/-- The activation array the first region leaves, at (n, co, p). -/
theorem act_at (h1 : Cert.KernelIdeal.Stmt.KM1) (c : Dev nD) (n : Fin 32) (co : Fin 128) (p : Fin 1024) :
    (W2 m ρ c (Proc.devRef .tc main_v2_0) : S32x128x1024.Idx → EReal) (ix3 n co p)
      = Cert.Spec.act (m ((c : Thread nD τ).loc main_arg0)) (m ((c : Thread nD τ).loc main_arg1)) n co (Cert.Spec.prow p) (Cert.Spec.pcol p) := by
  rw [show W2 m ρ c (Proc.devRef .tc main_v2_0) = (dat0 (V1 m ρ) c).arrAt 2 cfg0.N from W2_arr m ρ c 2,
    Cert.KernelIdeal.Arr0.arr0_2 (V1 m ρ) c]
  show out0_2 (F := Ideal) (fun y => V1 m ρ c main_v0 (ix3 (n0 := 32) (n1 := 256) (n2 := 1024) n (y 1) (y 2))) (V1 m ρ c main_v1)
    (ix3 (n0 := 1) (n1 := 128) (n2 := 1024) 0 co p) = _
  rw [out0_2_eq]
  exact (h1 _ _ co p).trans (conv_at m ρ c n co p)

/-- The per-image sums the first region leaves, at (n, co, 0). -/
theorem rowSum_at (h1 : Cert.KernelIdeal.Stmt.KM1) (h2 : Cert.KernelIdeal.Stmt.KM2) (c : Dev nD) (n : Fin 32) (co : Fin 128) :
    (W2 m ρ c (Proc.devRef .tc main_v2_1) : S32x128x1.Idx → EReal) (ix3 n co 0)
      = Cert.Spec.rowSum (m ((c : Thread nD τ).loc main_arg0)) (m ((c : Thread nD τ).loc main_arg1)) n co := by
  rw [show W2 m ρ c (Proc.devRef .tc main_v2_1) = (dat0 (V1 m ρ) c).arrAt 3 cfg0.N from W2_arr m ρ c 3,
    Cert.KernelIdeal.Arr0.arr0_3 (V1 m ρ) c]
  show out0_3 (F := Ideal) (fun y => V1 m ρ c main_v0 (ix3 (n0 := 32) (n1 := 256) (n2 := 1024) n (y 1) (y 2))) (V1 m ρ c main_v1)
    (ix3 (n0 := 1) (n1 := 128) (n2 := 1) 0 co 0) = _
  rw [out0_3_eq]
  refine (h2 _ _ co).trans ?_
  unfold Cert.Spec.rowSum
  exact Finset.sum_congr rfl fun p _ => conv_at m ρ c n co p

theorem rowSumSq_at (h1 : Cert.KernelIdeal.Stmt.KM1) (h3 : Cert.KernelIdeal.Stmt.KM3) (c : Dev nD) (n : Fin 32) (co : Fin 128) :
    (W2 m ρ c (Proc.devRef .tc main_v2_2) : S32x128x1.Idx → EReal) (ix3 n co 0)
      = Cert.Spec.rowSumSq (m ((c : Thread nD τ).loc main_arg0)) (m ((c : Thread nD τ).loc main_arg1)) n co := by
  rw [show W2 m ρ c (Proc.devRef .tc main_v2_2) = (dat0 (V1 m ρ) c).arrAt 4 cfg0.N from W2_arr m ρ c 4,
    Cert.KernelIdeal.Arr0.arr0_4 (V1 m ρ) c]
  show out0_4 (F := Ideal) (fun y => V1 m ρ c main_v0 (ix3 (n0 := 32) (n1 := 256) (n2 := 1024) n (y 1) (y 2))) (V1 m ρ c main_v1)
    (ix3 (n0 := 1) (n1 := 128) (n2 := 1) 0 co 0) = _
  rw [out0_4_eq]
  refine (h3 _ _ co).trans ?_
  unfold Cert.Spec.rowSumSq
  exact Finset.sum_congr rfl fun p _ => congrArg₂ (· * ·) (conv_at m ρ c n co p) (conv_at m ρ c n co p)

/-- The two batch sums per channel. -/
theorem s1_at (h1 : Cert.KernelIdeal.Stmt.KM1) (h2 : Cert.KernelIdeal.Stmt.KM2) (c : Dev nD) (co : Fin 128) :
    chanSum (W2 m ρ c (Proc.devRef .tc main_v2_1)) (ix1 co) = Cert.Spec.s1 (m ((c : Thread nD τ).loc main_arg0)) (m ((c : Thread nD τ).loc main_arg1)) co := by
  rw [chanSum_apply]
  unfold Cert.Spec.s1
  exact congrArg (Ideal.ofBits .f32 0x00000000#32 + ·) (Finset.sum_congr rfl fun n _ => rowSum_at m ρ h1 h2 c n co)

theorem s2_at (h1 : Cert.KernelIdeal.Stmt.KM1) (h3 : Cert.KernelIdeal.Stmt.KM3) (c : Dev nD) (co : Fin 128) :
    chanSum (W2 m ρ c (Proc.devRef .tc main_v2_2)) (ix1 co) = Cert.Spec.s2 (m ((c : Thread nD τ).loc main_arg0)) (m ((c : Thread nD τ).loc main_arg1)) co := by
  rw [chanSum_apply]
  unfold Cert.Spec.s2
  exact congrArg (Ideal.ofBits .f32 0x00000000#32 + ·) (Finset.sum_congr rfl fun n _ => rowSumSq_at m ρ h1 h3 c n co)

theorem chan_pos (co : Fin 128) : (S128.rowMajor (ix1 co)).val = (S128x1x1.rowMajor (ix3 (n0 := 128) (n1 := 1) (n2 := 1) co 0 0)).val := by
  rw [Shape.rowMajor_val_one, Shape.rowMajor_val_three]
  show co.val = (co.val * 1 + 0) * 1 + 0
  omega

/-- What the second region reads as scale and shift, at channel co. -/
theorem scale_at (h1 : Cert.KernelIdeal.Stmt.KM1) (h2 : Cert.KernelIdeal.Stmt.KM2) (h3 : Cert.KernelIdeal.Stmt.KM3) (c : Dev nD) (co : Fin 128) :
    (V3 m ρ c main_v22 : S128x1x1.Idx → EReal) (ix3 co 0 0) = Cert.Spec.scale (m ((c : Thread nD τ).loc main_arg0)) (m ((c : Thread nD τ).loc main_arg1)) (m ((c : Thread nD τ).loc main_arg2)) co := by
  rw [V3_v22]
  refine (shapeCast_apply _ _ _ (ix1 co) (chan_pos co)).trans ?_
  rw [scaleVec_apply, s1_at m ρ h1 h2 c co, s2_at m ρ h1 h3 c co, W2_arg2]
  rfl

theorem shift_at (h1 : Cert.KernelIdeal.Stmt.KM1) (h2 : Cert.KernelIdeal.Stmt.KM2) (h3 : Cert.KernelIdeal.Stmt.KM3) (c : Dev nD) (co : Fin 128) :
    (V3 m ρ c main_v23 : S128x1x1.Idx → EReal) (ix3 co 0 0) = Cert.Spec.shift (m ((c : Thread nD τ).loc main_arg0)) (m ((c : Thread nD τ).loc main_arg1)) (m ((c : Thread nD τ).loc main_arg2)) (m ((c : Thread nD τ).loc main_arg3)) co := by
  rw [V3_v23]
  refine (shapeCast_apply _ _ _ (ix1 co) (chan_pos co)).trans ?_
  rw [shiftVec_apply, s1_at m ρ h1 h2 c co, s2_at m ρ h1 h3 c co, W2_arg2, W2_arg3]
  rfl

/-- What the second region reads as activations: pixel (h, w) of the 32 × 32 image is flattened pixel 32 h + w. -/
theorem v21_at (h1 : Cert.KernelIdeal.Stmt.KM1) (c : Dev nD) (n : Fin 32) (co : Fin 128) (h w : Fin 32) :
    (V3 m ρ c main_v21 : S32x128x32x32.Idx → EReal) (ix4 n co h w) = Cert.Spec.act (m ((c : Thread nD τ).loc main_arg0)) (m ((c : Thread nD τ).loc main_arg1)) n co h w := by
  have hp : 32 * h.val + w.val < 1024 := by have := h.isLt; have := w.isLt; omega
  have hw : w.val < 32 := w.isLt
  rw [V3_v21]
  refine (shapeCast_apply _ _ _ (ix3 (n0 := 32) (n1 := 128) (n2 := 1024) n co ⟨32 * h.val + w.val, hp⟩) ?_).trans ?_
  · show (S32x128x1024.rowMajor (ix3 n co (⟨32 * h.val + w.val, hp⟩ : Fin 1024))).val = (S32x128x32x32.rowMajor (ix4 n co h w)).val
    rw [Shape.rowMajor_val_three, Shape.rowMajor_val_four]
    show (n.val * 128 + co.val) * 1024 + (32 * h.val + w.val) = ((n.val * 128 + co.val) * 32 + h.val) * 32 + w.val
    omega
  · rw [act_at m ρ h1 c n co ⟨32 * h.val + w.val, hp⟩]
    have e1 : Cert.Spec.prow (⟨32 * h.val + w.val, hp⟩ : Fin 1024) = h := Fin.ext (by show (32 * h.val + w.val) / 32 = h.val; omega)
    have e2 : Cert.Spec.pcol (⟨32 * h.val + w.val, hp⟩ : Fin 1024) = w := Fin.ext (by show (32 * h.val + w.val) % 32 = w.val; omega)
    rw [e1, e2]

end Entries

/-! ## The first program's result array -/

theorem up_apply (A : S32x128x32x32.Idx → EReal) (sc sh : S128x1x1.Idx → EReal) (M0 M1 : S32x64.Idx → EReal)
    (n : Fin 32) (co : Fin 128) (a a' : Fin 64) :
    up A sc sh M0 M1 (ix4 n co a a') = out1_5 (F := Ideal)
      (fun y => A (ix4 (n0 := 32) (n1 := 128) (n2 := 32) (n3 := 32) n (y 1) (y 2) (y 3))) sc sh M0 M1
      (ix4 (n0 := 1) (n1 := 128) (n2 := 64) (n3 := 64) 0 co a a') := rfl

/-- The result array of the first program's run is the target function of the four arguments and the two literal
    interpolation matrices: the second region's whole-array function, read at an index through the payload of its body,
    with each array it reads identified entry by entry. -/
theorem kernel_out (h1 : Cert.KernelIdeal.Stmt.KM1) (h2 : Cert.KernelIdeal.Stmt.KM2) (h3 : Cert.KernelIdeal.Stmt.KM3)
    (h4 : Cert.KernelIdeal.Stmt.KM4)
    (m : (ℓ : Loc nD τ sig) → Buf (Elt Ideal) ℓ) (ρ : Dev nD → PrngReg) (c : Dev nD) :
    (Gen.W4 (F := Ideal) m ρ c (Proc.devRef .tc main_v24) : S32x128x64x64.Idx → EReal)
      = fun i => Cert.Spec.outA (m ((c : Thread nD τ).loc main_arg0)) (m ((c : Thread nD τ).loc main_arg1)) (m ((c : Thread nD τ).loc main_arg2)) (m ((c : Thread nD τ).loc main_arg3))
          (fun j => Ideal.ofBits .f32 (lit0 (S32x64.rowMajor j))) (fun j => Ideal.ofBits .f32 (lit1 (S32x64.rowMajor j)))
          (i 0) (i 1) (i 2) (i 3) := by
  rw [show W4 m ρ c (Proc.devRef .tc main_v24) = (dat1 (V3 m ρ) c).arrAt 5 cfg1.N from W4_arr m ρ c 5, final1 (V3 m ρ) c]
  funext i
  obtain ⟨n, co, a, a', rfl⟩ : ∃ (n : Fin 32) (co : Fin 128) (a a' : Fin 64), i = ix4 n co a a' := ⟨i 0, i 1, i 2, i 3, eq_ix4 i⟩
  rw [up_apply, out1_5_eq]
  refine (h4 _ _ _ _ _ co a a').trans ?_
  show _ = Cert.Spec.outA (m ((c : Thread nD τ).loc main_arg0)) (m ((c : Thread nD τ).loc main_arg1)) (m ((c : Thread nD τ).loc main_arg2)) (m ((c : Thread nD τ).loc main_arg3))
          (fun j => Ideal.ofBits .f32 (lit0 (S32x64.rowMajor j))) (fun j => Ideal.ofBits .f32 (lit1 (S32x64.rowMajor j))) n co a a'
  unfold Cert.Spec.outA
  refine Finset.sum_congr rfl fun w _ => ?_
  refine congrArg₂ (· * ·) (Finset.sum_congr rfl fun h _ => ?_) ?_
  · refine congrArg₂ (· * ·) (congrArg₂ (· + ·) (congrArg₂ (· * ·) (v21_at m ρ h1 c n co h w) (scale_at m ρ h1 h2 h3 c co))
      (shift_at m ρ h1 h2 h3 c co)) ?_
    rw [V3_cst]
    rfl
  · rw [V3_cst_0]
    rfl

end Cert.KernelIdeal.Run

end
-- ==== Proof.RRun1.lean ====
/-
  The second kernel of the second program, read as one whole-array function of the arrays it finds.

  The grid is 32 × 128: point t handles image t / 128 and output channel t % 128.  Its output block is the
  [1, 1, 64, 64] slab (image, channel) of the result; its input blocks are the image's [1, 256, 32, 32] slab, the
  channel's [1, 256, 1, 1] row of weights, the channel's scale and shift, and the two interpolation matrices whole.
  A block's coordinate in its array is block index × block size + the coordinate inside the block, so each block
  entry is an array entry (`blk1_*`); the body's result at a block index is, by the hypothesis on the body, the
  formula `G1'` of those entries (`flushed1`); the 4096 output blocks tile the result (`cover1`), so the result
  array is `G1` everywhere (`arr1`).
-/
import proofs.«111454_g2000205057013705_pallasbulk_543_2_alg».proof.Proof.Gen.ReferenceIdeal.Frame
import proofs.«111454_g2000205057013705_pallasbulk_543_2_alg».proof.Proof.Spec
import proofs.«111454_g2000205057013705_pallasbulk_543_2_alg».proof.Proof.RStmt
import Idealize.ShloMosaic.Lib.Pipeline.Value

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Run

open Cert.ReferenceIdeal Cert.ReferenceIdeal.Gen

variable (V : (c : Dev nD) → (b : Ref sig .tc) → Buf (Elt Ideal) ((c : Thread nD τ).loc b))

/-- The block index of every window at grid point t, decided once over the 4096 points: image t / 128, channel t % 128,
    zero on every other axis. -/
theorem idx1 : ∀ t : Fin cfg1.N,
    win1_6.index t (0 : Fin 4) = t.val / 128 ∧ win1_6.index t (1 : Fin 4) = t.val % 128
    ∧ win1_6.index t (2 : Fin 4) = 0 ∧ win1_6.index t (3 : Fin 4) = 0
    ∧ win1_0.index t (0 : Fin 4) = t.val / 128 ∧ win1_0.index t (1 : Fin 4) = 0
    ∧ win1_0.index t (2 : Fin 4) = 0 ∧ win1_0.index t (3 : Fin 4) = 0
    ∧ win1_1.index t (0 : Fin 4) = t.val % 128 ∧ win1_1.index t (1 : Fin 4) = 0
    ∧ win1_1.index t (2 : Fin 4) = 0 ∧ win1_1.index t (3 : Fin 4) = 0
    ∧ win1_2.index t (0 : Fin 3) = t.val % 128 ∧ win1_2.index t (1 : Fin 3) = 0 ∧ win1_2.index t (2 : Fin 3) = 0
    ∧ win1_3.index t (0 : Fin 3) = t.val % 128 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The image block at point t is the slab of image t / 128. -/
theorem blk1_0 (c : Dev nD) (t : Fin cfg1.N) (ci : Fin 256) (h w : Fin 32) :
    (iblk1 V c 0 t : FVec Ideal S1x256x32x32 .f32) (ix4 0 ci h w)
      = (V c main_arg0 : S32x256x32x32.Idx → EReal) (ix4 ⟨t.val / 128, by have := t.isLt; have hN : cfg1.N = 4096 := N_1; omega⟩ ci h w) := by
  obtain ⟨-, -, -, -, e0, e1, e2, e3, -⟩ := idx1 t
  show (V c main_arg0 : S32x256x32x32.Idx → EReal) (((cfg1.win 0).blk t).view.emb (ix4 0 ci h w)) = _
  refine congrArg _ (funext fun a => Fin.ext ?_)
  match a with
  | ⟨0, _⟩ => show win1_0.index t (0 : Fin 4) * 1 + 1 * (0 : Nat) = t.val / 128; omega
  | ⟨1, _⟩ => show win1_0.index t (1 : Fin 4) * 256 + 1 * ci.val = ci.val; omega
  | ⟨2, _⟩ => show win1_0.index t (2 : Fin 4) * 32 + 1 * h.val = h.val; omega
  | ⟨3, _⟩ => show win1_0.index t (3 : Fin 4) * 32 + 1 * w.val = w.val; omega

/-- The weight block is the row of channel t % 128. -/
theorem blk1_1 (c : Dev nD) (t : Fin cfg1.N) (ci : Fin 256) :
    (iblk1 V c 1 t : FVec Ideal S1x256x1x1 .f32) (ix4 0 ci 0 0)
      = (V c main_v1 : S128x256x1x1.Idx → EReal) (ix4 ⟨t.val % 128, Nat.mod_lt _ (by decide)⟩ ci 0 0) := by
  obtain ⟨-, -, -, -, -, -, -, -, e0, e1, e2, e3, -⟩ := idx1 t
  show (V c main_v1 : S128x256x1x1.Idx → EReal) (((cfg1.win 1).blk t).view.emb (ix4 0 ci 0 0)) = _
  refine congrArg _ (funext fun a => Fin.ext ?_)
  match a with
  | ⟨0, _⟩ => show win1_1.index t (0 : Fin 4) * 1 + 1 * (0 : Nat) = t.val % 128; omega
  | ⟨1, _⟩ => show win1_1.index t (1 : Fin 4) * 256 + 1 * ci.val = ci.val; omega
  | ⟨2, _⟩ => show win1_1.index t (2 : Fin 4) * 1 + 1 * (0 : Nat) = 0; omega
  | ⟨3, _⟩ => show win1_1.index t (3 : Fin 4) * 1 + 1 * (0 : Nat) = 0; omega

/-- The scale block is the channel's entry. -/
theorem blk1_2 (c : Dev nD) (t : Fin cfg1.N) :
    (iblk1 V c 2 t : FVec Ideal S1x1x1 .f32) (ix3 0 0 0)
      = (V c main_v22 : S128x1x1.Idx → EReal) (ix3 ⟨t.val % 128, Nat.mod_lt _ (by decide)⟩ 0 0) := by
  obtain ⟨-, -, -, -, -, -, -, -, -, -, -, -, e0, e1, e2, -⟩ := idx1 t
  show (V c main_v22 : S128x1x1.Idx → EReal) (((cfg1.win 2).blk t).view.emb (ix3 0 0 0)) = _
  refine congrArg _ (funext fun a => Fin.ext ?_)
  match a with
  | ⟨0, _⟩ => show win1_2.index t (0 : Fin 3) * 1 + 1 * (0 : Nat) = t.val % 128; omega
  | ⟨1, _⟩ => show win1_2.index t (1 : Fin 3) * 1 + 1 * (0 : Nat) = 0; omega
  | ⟨2, _⟩ => show win1_2.index t (2 : Fin 3) * 1 + 1 * (0 : Nat) = 0; omega

/-- The shift block is the channel's entry. -/
theorem blk1_3 (c : Dev nD) (t : Fin cfg1.N) :
    (iblk1 V c 3 t : FVec Ideal S1x1x1 .f32) (ix3 0 0 0)
      = (V c main_v23 : S128x1x1.Idx → EReal) (ix3 ⟨t.val % 128, Nat.mod_lt _ (by decide)⟩ 0 0) := by
  obtain ⟨-, -, -, -, -, -, -, -, -, -, -, -, -, -, -, e0, e1, e2, -⟩ := idx1 t
  show (V c main_v23 : S128x1x1.Idx → EReal) (((cfg1.win 3).blk t).view.emb (ix3 0 0 0)) = _
  refine congrArg _ (funext fun a => Fin.ext ?_)
  match a with
  | ⟨0, _⟩ => show win1_3.index t (0 : Fin 3) * 1 + 1 * (0 : Nat) = t.val % 128; omega
  | ⟨1, _⟩ => show win1_3.index t (1 : Fin 3) * 1 + 1 * (0 : Nat) = 0; omega
  | ⟨2, _⟩ => show win1_3.index t (2 : Fin 3) * 1 + 1 * (0 : Nat) = 0; omega

/-- The two interpolation matrices are read whole. -/
theorem blk1_4 (c : Dev nD) (t : Fin cfg1.N) (a : Fin 64) (h : Fin 32) :
    (iblk1 V c 4 t : FVec Ideal S64x32 .f32) (ix2 a h) = (V c main_cst : S64x32.Idx → EReal) (ix2 a h) := by
  obtain ⟨-, -, -, -, -, -, -, -, -, -, -, -, -, -, -, -, -, -, e0, e1, -⟩ := idx1 t
  show (V c main_cst : S64x32.Idx → EReal) (((cfg1.win 4).blk t).view.emb (ix2 a h)) = _
  refine congrArg _ (funext fun b => Fin.ext ?_)
  match b with
  | ⟨0, _⟩ => show win1_4.index t (0 : Fin 2) * 64 + 1 * a.val = a.val; omega
  | ⟨1, _⟩ => show win1_4.index t (1 : Fin 2) * 32 + 1 * h.val = h.val; omega

theorem blk1_5 (c : Dev nD) (t : Fin cfg1.N) (w : Fin 32) (a : Fin 64) :
    (iblk1 V c 5 t : FVec Ideal S32x64 .f32) (ix2 w a) = (V c main_cst_0 : S32x64.Idx → EReal) (ix2 w a) := by
  obtain ⟨-, -, -, -, -, -, -, -, -, -, -, -, -, -, -, -, -, -, -, -, e0, e1⟩ := idx1 t
  show (V c main_cst_0 : S32x64.Idx → EReal) (((cfg1.win 5).blk t).view.emb (ix2 w a)) = _
  refine congrArg _ (funext fun b => Fin.ext ?_)
  match b with
  | ⟨0, _⟩ => show win1_5.index t (0 : Fin 2) * 32 + 1 * w.val = w.val; omega
  | ⟨1, _⟩ => show win1_5.index t (1 : Fin 2) * 64 + 1 * a.val = a.val; omega

/-- One entry of the second call's result from the six arrays it reads: the channel's convolution at each pixel,
    ReLU, the channel's affine map, rows contracted from the left, columns from the right. -/
def G1' (A0 : S32x256x32x32.Idx → EReal) (A1 : S128x256x1x1.Idx → EReal) (A2 A3 : S128x1x1.Idx → EReal)
    (A4 : S64x32.Idx → EReal) (A5 : S32x64.Idx → EReal) (n : Fin 32) (co : Fin 128) (a a' : Fin 64) : EReal :=
  ∑ w : Fin 32, (∑ h : Fin 32, A4 (ix2 a h)
      * (max (∑ ci : Fin 256, A0 (ix4 n ci h w) * A1 (ix4 co ci 0 0)) (Ideal.ofBits .f32 0x00000000#32)
          * A2 (ix3 co 0 0) + A3 (ix3 co 0 0)))
    * A5 (ix2 w a')

/-- The whole result array of the second call from the arrays it finds. -/
def G1 (c : Dev nD) : S32x128x64x64.Idx → EReal := fun i =>
  G1' (V c main_arg0) (V c main_v1) (V c main_v22) (V c main_v23) (V c main_cst) (V c main_cst_0) (i 0) (i 1) (i 2) (i 3)

/-- What point t writes back is its block of `G1`. -/
theorem flushed1 (h3 : Stmt.RM3) (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  funext y
  obtain ⟨y0, y1, a, a', rfl⟩ : ∃ (y0 y1 : Fin 1) (a a' : Fin 64), y = ix4 y0 y1 a a' := ⟨y 0, y 1, y 2, y 3, eq_ix4 y⟩
  obtain rfl : y0 = 0 := Subsingleton.elim _ _
  obtain rfl : y1 = 0 := Subsingleton.elim _ _
  obtain ⟨e0, e1, e2, e3, -⟩ := idx1 t
  have hN : cfg1.N = 4096 := N_1
  have ht := t.isLt
  show out1_6 (iblk1 V c 0 t) (iblk1 V c 1 t) (iblk1 V c 2 t) (iblk1 V c 3 t) (iblk1 V c 4 t) (iblk1 V c 5 t) (ix4 0 0 a a')
      = G1 V c (((cfg1.win 6).blk t).view.emb (ix4 0 0 a a'))
  have hemb : ((cfg1.win 6).blk t).view.emb (ix4 (0 : Fin 1) (0 : Fin 1) a a')
      = (ix4 (⟨t.val / 128, by omega⟩ : Fin 32) (⟨t.val % 128, Nat.mod_lt _ (by decide)⟩ : Fin 128) a a' : S32x128x64x64.Idx) := by
    funext b; apply Fin.ext
    match b with
    | ⟨0, _⟩ => show win1_6.index t (0 : Fin 4) * 1 + 1 * (0 : Nat) = t.val / 128; omega
    | ⟨1, _⟩ => show win1_6.index t (1 : Fin 4) * 1 + 1 * (0 : Nat) = t.val % 128; omega
    | ⟨2, _⟩ => show win1_6.index t (2 : Fin 4) * 64 + 1 * a.val = a.val; omega
    | ⟨3, _⟩ => show win1_6.index t (3 : Fin 4) * 64 + 1 * a'.val = a'.val; omega
  rw [hemb]
  refine (h3 (iblk1 V c 0 t) (iblk1 V c 1 t) (iblk1 V c 2 t) (iblk1 V c 3 t) (iblk1 V c 4 t) (iblk1 V c 5 t) a a').trans ?_
  show _ = G1' (V c main_arg0) (V c main_v1) (V c main_v22) (V c main_v23) (V c main_cst) (V c main_cst_0) ⟨t.val / 128, _⟩ ⟨t.val % 128, _⟩ a a'
  unfold G1'
  simp only [blk1_0 V c t, blk1_1 V c t, blk1_2 V c t, blk1_3 V c t, blk1_4 V c t, blk1_5 V c t]

/-- Entry (n, co, a, a') of the result lies in the block of point n · 128 + co. -/
theorem cover1 (i : S32x128x64x64.Idx) : ∃ t : Fin cfg1.N, (cfg1.win 6).flush t = true ∧ i ∈ ((cfg1.win 6).blk t).view.set := by
  have hN : cfg1.N = 4096 := N_1
  have h0 : (i 0).val < 32 := (i 0).isLt
  have h1 : (i 1).val < 128 := (i 1).isLt
  have h2 : (i 2).val < 64 := (i 2).isLt
  have h3 : (i 3).val < 64 := (i 3).isLt
  obtain ⟨t, ht⟩ : ∃ t : Fin cfg1.N, t.val = (i 0).val * 128 + (i 1).val := ⟨⟨(i 0).val * 128 + (i 1).val, by omega⟩, rfl⟩
  refine ⟨t, flush1_6 t, ?_⟩
  obtain ⟨e0, e1, e2, e3, -⟩ := idx1 t
  show i ∈ ((View.whole main_v24).slice (win1_6.rect t)).set
  rw [View.set_slice_whole, Rect.mem_set_unit]
  intro b
  match b with
  | ⟨0, _⟩ => show win1_6.index t (0 : Fin 4) * 1 ≤ (i 0).val ∧ (i 0).val < win1_6.index t (0 : Fin 4) * 1 + 1; omega
  | ⟨1, _⟩ => show win1_6.index t (1 : Fin 4) * 1 ≤ (i 1).val ∧ (i 1).val < win1_6.index t (1 : Fin 4) * 1 + 1; omega
  | ⟨2, _⟩ => show win1_6.index t (2 : Fin 4) * 64 ≤ (i 2).val ∧ (i 2).val < win1_6.index t (2 : Fin 4) * 64 + 64; omega
  | ⟨3, _⟩ => show win1_6.index t (3 : Fin 4) * 64 ≤ (i 3).val ∧ (i 3).val < win1_6.index t (3 : Fin 4) * 64 + 64; omega

/-- The second call's result array after its run, whatever the arrays it found. -/
theorem arr1 (h3 : Stmt.RM3) (c : Dev nD) : (dat1 V c).arrAt 6 cfg1.N = G1 V c :=
  (dat1 V c).arrAt_eq_of_cover 6 (G1 V c) (fun t _ => flushed1 V h3 c t) cover1

end Cert.ReferenceIdeal.Run

end
-- ==== Proof.LibReduce.lean ====
/-
  A host sum over the two LEADING axes of a [32, 1, 128, 1] array, the second of extent one: at the kept index (j0, j1)
  it is the initial value plus the sum over the first axis of the entries (n, 0, j0, j1). (The reduction is by
  definition the sum over the source indices that drop to the kept index; those are exactly the 32 indices
  (n, 0, j0, j1), one per n.)
-/
import Idealize.ShloMosaic.PureOps.Ideal
import Idealize.ShloMosaic.PureOps.Reduce
import Idealize.ShloMosaic.Lib.ValueIdx

noncomputable section

open scoped BigOperators

namespace Cert.LibReduce

open Idealize.ShloMosaic Idealize.ShloMosaic.ValueIdx

abbrev S4 : Shape := ⟨4, ![32, 1, 128, 1]⟩
abbrev S2 : Shape := ⟨2, ![128, 1]⟩

theorem hostReduceAdd_lead2 (h : S4.ReducesTo [0, 1] S2) (x : S4.Idx → EReal) (init : EReal) (j0 : Fin 128) (j1 : Fin 1) :
    Ideal.hostReduceAdd h x init (ix2 j0 j1) = init + ∑ n : Fin 32, x (ix4 n 0 j0 j1) := by
  unfold Ideal.hostReduceAdd
  congr 1
  have d0 : ∀ i : S4.Idx, ((h.drop i 0 : Fin 128) : Nat) = ((i 2 : Fin 128) : Nat) := fun i =>
    h.drop_apply_val_of_eq i 0 2
  have d1 : ∀ i : S4.Idx, ((h.drop i 1 : Fin 1) : Nat) = ((i 3 : Fin 1) : Nat) := fun i =>
    h.drop_apply_val_of_eq i 1 3
  have key : ∀ i : S4.Idx, h.drop i = ix2 j0 j1 → ix4 (i 0 : Fin 32) 0 j0 j1 = i := by
    intro i hi
    have e0 : ((i 2 : Fin 128) : Nat) = j0.val := by rw [← d0 i, hi]
    have e1 : ((i 3 : Fin 1) : Nat) = j1.val := by rw [← d1 i, hi]
    funext a; apply Fin.ext
    match a with
    | ⟨0, _⟩ => rfl
    | ⟨1, _⟩ => show (0 : Nat) = ((i 1 : Fin 1) : Nat); have hlt : ((i 1 : Fin 1) : Nat) < 1 := (i 1 : Fin 1).isLt; omega
    | ⟨2, _⟩ => exact e0.symm
    | ⟨3, _⟩ => exact e1.symm
  refine Finset.sum_bij' (fun i _ => (i 0 : Fin 32)) (fun n _ => ix4 n 0 j0 j1) ?_ ?_ ?_ ?_ ?_
  · intro i _; exact Finset.mem_univ _
  · intro n _
    rw [Finset.mem_filter]
    refine ⟨Finset.mem_univ _, ?_⟩
    funext b; apply Fin.ext
    match b with
    | ⟨0, _⟩ => exact d0 _
    | ⟨1, _⟩ => exact d1 _
  · intro i hi
    exact key i (Finset.mem_filter.mp hi).2
  · intro n _; rfl
  · intro i hi
    exact congrArg x (key i (Finset.mem_filter.mp hi).2).symm

end Cert.LibReduce

end
-- ==== Proof.RRunH.lean ====
/-
  The host operations of the second program, read at an index, from ANY buffer contents they start from.

  Before the first kernel: the two interpolation matrices are literal tables; the weights [128, 256, 1, 1] are
  viewed as [128, 256] and back; the images [32, 256, 32, 32] are viewed as [32, 256, 1024], pixel p of an
  image being its entry (p / 32, p % 32) — a reshape keeps the row-major position.
  Between the two kernels: each of the two [32, 1, 128, 1] arrays of per-image sums is summed over its two leading
  axes from the literal zero, giving per channel 0 + ∑ over the 32 images; the chain of pointwise operations from
  these two sums, the gain and the bias to the per-channel scale and shift is, entry by entry, the one the
  specification names `scaleOf` and `shiftOf`.
-/
import proofs.«111454_g2000205057013705_pallasbulk_543_2_alg».proof.Proof.Gen.ReferenceIdeal.Frame
import proofs.«111454_g2000205057013705_pallasbulk_543_2_alg».proof.Proof.Spec
import proofs.«111454_g2000205057013705_pallasbulk_543_2_alg».proof.Proof.RStmt
import Idealize.ShloMosaic.Lib.Pipeline.Value
import proofs.«111454_g2000205057013705_pallasbulk_543_2_alg».proof.Proof.LibReduce

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Run

open Cert.ReferenceIdeal Cert.ReferenceIdeal.Gen
set_option maxHeartbeats 1000000

/-! ## Reshapes and the two-axis sum, read at an index -/

/-- A [128] vector viewed as [128, 1, 1]: entry (co, 0, 0) is entry co. -/
theorem cast_c_c11 (x : S128.Idx → EReal) (h : S128.ShapeCasts S128x1x1) (co : Fin 128) :
    shapeCast S128x1x1 x h (ix3 co 0 0) = x (ix1 co) :=
  shapeCast_apply x h _ _ (by
    rw [Shape.rowMajor_val_one, Shape.rowMajor_val_three]
    show co.val = (co.val * 1 + 0) * 1 + 0
    omega)

/-- A [128, 1] column viewed as [128]: entry co is entry (co, 0). -/
theorem cast_c1_c (x : S128x1.Idx → EReal) (h : S128x1.ShapeCasts S128) (co : Fin 128) :
    shapeCast S128 x h (ix1 co) = x (ix2 co 0) :=
  shapeCast_apply x h _ _ (by
    rw [Shape.rowMajor_val_two, Shape.rowMajor_val_one]
    show co.val * 1 + 0 = co.val
    omega)

/-- The host's sum over the two leading axes of a [32, 1, 128, 1] array from a literal initial value. -/
theorem red_c (x : FVec Ideal S32x1x128x1 .f32) (b : BitVec 32) (h : S32x1x128x1.ReducesTo [0, 1] S128x1)
    (hu : 0 < S_.numel) (co : Fin 128) :
    (Host.reduceAdd (F := Ideal) x (constant S_ .f32 b) h hu : FVec Ideal S128x1 .f32) (ix2 co 0)
      = Ideal.ofBits .f32 b + ∑ n : Fin 32, x (ix4 n 0 co 0) :=
  Cert.LibReduce.hostReduceAdd_lead2 h x _ co 0

/-! ## The chain from the two sums to scale and shift, at one channel -/

theorem scale_chain (s1v s2v g : FVec Ideal S128 .f32) (hb : S_.BroadcastsInDim S128 (![] : Fin 0 → Fin S128.rank))
    (co : Fin 128) :
    (Host.divf g (Host.sqrt (addf (maximumf (subf
        (Host.divf s2v (broadcastInDim S128 ![] hb (constant (F := Ideal) S_ .f32 0x47000000#32)))
        (mulf (Host.divf s1v (broadcastInDim S128 ![] hb (constant (F := Ideal) S_ .f32 0x47000000#32)))
              (Host.divf s1v (broadcastInDim S128 ![] hb (constant (F := Ideal) S_ .f32 0x47000000#32)))))
        (broadcastInDim S128 ![] hb (constant (F := Ideal) S_ .f32 0x00000000#32)))
        (broadcastInDim S128 ![] hb (constant (F := Ideal) S_ .f32 0x3727C5AC#32)))) : FVec Ideal S128 .f32) (ix1 co)
      = Cert.Spec.scaleOf (s1v (ix1 co)) (s2v (ix1 co)) (g (ix1 co)) := rfl

theorem shift_chain (s1v s2v g b : FVec Ideal S128 .f32) (hb : S_.BroadcastsInDim S128 (![] : Fin 0 → Fin S128.rank))
    (co : Fin 128) :
    (subf b (mulf (Host.divf s1v (broadcastInDim S128 ![] hb (constant (F := Ideal) S_ .f32 0x47000000#32)))
      (Host.divf g (Host.sqrt (addf (maximumf (subf
        (Host.divf s2v (broadcastInDim S128 ![] hb (constant (F := Ideal) S_ .f32 0x47000000#32)))
        (mulf (Host.divf s1v (broadcastInDim S128 ![] hb (constant (F := Ideal) S_ .f32 0x47000000#32)))
              (Host.divf s1v (broadcastInDim S128 ![] hb (constant (F := Ideal) S_ .f32 0x47000000#32)))))
        (broadcastInDim S128 ![] hb (constant (F := Ideal) S_ .f32 0x00000000#32)))
        (broadcastInDim S128 ![] hb (constant (F := Ideal) S_ .f32 0x3727C5AC#32)))))) : FVec Ideal S128 .f32) (ix1 co)
      = Cert.Spec.shiftOf (s1v (ix1 co)) (s2v (ix1 co)) (g (ix1 co)) (b (ix1 co)) := rfl

/-! ## The host operations between the two calls, from any contents `Wv` -/

section Host1
variable (Wv : Valuation τ sig (Elt Ideal))

/-- The scale array at channel co, from the two per-image sum arrays `A0`, `A1` and the gain `g`. -/
theorem host1_v22 (A0 A1 : S32x1x128x1.Idx → EReal) (g : S128.Idx → EReal)
    (h0 : Wv (Proc.devRef .tc main_v3_0) = A0) (h1 : Wv (Proc.devRef .tc main_v3_1) = A1)
    (hg : Wv (Proc.devRef .tc main_arg2) = g) (co : Fin 128) :
    (StableHlo.after hostOps1 Wv (Proc.devRef .tc main_v22) : S128x1x1.Idx → EReal) (ix3 co 0 0)
      = Cert.Spec.scaleOf
          (Ideal.ofBits .f32 0x00000000#32 + ∑ n : Fin 32, A0 (ix4 n 0 co 0))
          (Ideal.ofBits .f32 0x00000000#32 + ∑ n : Fin 32, A1 (ix4 n 0 co 0))
          (g (ix1 co)) := by
  subst h0 h1 hg
  after_results_simp
  refine (cast_c_c11 _ _ co).trans ?_
  refine (scale_chain _ _ _ _ co).trans ?_
  refine congr (congr (congrArg Cert.Spec.scaleOf ?_) ?_) rfl
  · exact (cast_c1_c _ _ co).trans (red_c _ _ _ _ co)
  · exact (cast_c1_c _ _ co).trans (red_c _ _ _ _ co)

/-- The shift array at channel co, from the same and the bias `b`. -/
theorem host1_v23 (A0 A1 : S32x1x128x1.Idx → EReal) (g b : S128.Idx → EReal)
    (h0 : Wv (Proc.devRef .tc main_v3_0) = A0) (h1 : Wv (Proc.devRef .tc main_v3_1) = A1)
    (hg : Wv (Proc.devRef .tc main_arg2) = g) (hb : Wv (Proc.devRef .tc main_arg3) = b) (co : Fin 128) :
    (StableHlo.after hostOps1 Wv (Proc.devRef .tc main_v23) : S128x1x1.Idx → EReal) (ix3 co 0 0)
      = Cert.Spec.shiftOf
          (Ideal.ofBits .f32 0x00000000#32 + ∑ n : Fin 32, A0 (ix4 n 0 co 0))
          (Ideal.ofBits .f32 0x00000000#32 + ∑ n : Fin 32, A1 (ix4 n 0 co 0))
          (g (ix1 co)) (b (ix1 co)) := by
  subst h0 h1 hg hb
  after_results_simp
  refine (cast_c_c11 _ _ co).trans ?_
  refine (shift_chain _ _ _ _ _ co).trans ?_
  refine congr (congr (congr (congrArg Cert.Spec.shiftOf ?_) ?_) rfl) rfl
  · exact (cast_c1_c _ _ co).trans (red_c _ _ _ _ co)
  · exact (cast_c1_c _ _ co).trans (red_c _ _ _ _ co)

/-- The buffers these operations do not write keep their contents. -/
theorem host1_keep_arg0 : StableHlo.after hostOps1 Wv (Proc.devRef .tc main_arg0) = Wv (Proc.devRef .tc main_arg0) := by
  after_results
theorem host1_keep_v1 : StableHlo.after hostOps1 Wv (Proc.devRef .tc main_v1) = Wv (Proc.devRef .tc main_v1) := by
  after_results
theorem host1_keep_cst : StableHlo.after hostOps1 Wv (Proc.devRef .tc main_cst) = Wv (Proc.devRef .tc main_cst) := by
  after_results
theorem host1_keep_cst_0 : StableHlo.after hostOps1 Wv (Proc.devRef .tc main_cst_0) = Wv (Proc.devRef .tc main_cst_0) := by
  after_results

end Host1

/-! ## The host operations before the first call, from any contents `Wv` -/

section Host0
variable (Wv : Valuation τ sig (Elt Ideal))

theorem host0_cst : (StableHlo.after hostOps0 Wv (Proc.devRef .tc main_cst) : S64x32.Idx → EReal)
    = fun j => Ideal.ofBits .f32 (lit0 (S64x32.rowMajor j)) := by
  after_results
  rfl

theorem host0_cst_0 : (StableHlo.after hostOps0 Wv (Proc.devRef .tc main_cst_0) : S32x64.Idx → EReal)
    = fun j => Ideal.ofBits .f32 (lit1 (S32x64.rowMajor j)) := by
  after_results
  rfl

/-- The weights viewed [128, 256]: entry (co, ci) is entry (co, ci, 0, 0). -/
theorem host0_v0 (co : Fin 128) (ci : Fin 256) :
    (StableHlo.after hostOps0 Wv (Proc.devRef .tc main_v0) : S128x256.Idx → EReal) (ix2 co ci)
      = (Wv (Proc.devRef .tc main_arg1) : S128x256x1x1.Idx → EReal) (ix4 co ci 0 0) := by
  after_results
  refine shapeCast_apply (s := S128x256x1x1) (t := S128x256) _ _ (ix2 co ci) (ix4 co ci 0 0) ?_
  show (S128x256x1x1.rowMajor (ix4 co ci 0 0)).val = (S128x256.rowMajor (ix2 co ci)).val
  rw [Shape.rowMajor_val_four, Shape.rowMajor_val_two]
  show ((co.val * 256 + ci.val) * 1 + 0) * 1 + 0 = co.val * 256 + ci.val
  omega

/-- … and viewed back [128, 256, 1, 1]: the weights themselves. -/
theorem host0_v1 : (StableHlo.after hostOps0 Wv (Proc.devRef .tc main_v1) : S128x256x1x1.Idx → EReal)
    = (Wv (Proc.devRef .tc main_arg1) : S128x256x1x1.Idx → EReal) := by
  after_results
  exact shapeCast_shapeCast _ _ _

/-- The images viewed [32, 256, 1024]: pixel p of an image is its entry (p / 32, p % 32). -/
theorem host0_v2 (n : Fin 32) (ci : Fin 256) (p : Fin 1024) :
    (StableHlo.after hostOps0 Wv (Proc.devRef .tc main_v2) : S32x256x1024.Idx → EReal) (ix3 n ci p)
      = (Wv (Proc.devRef .tc main_arg0) : S32x256x32x32.Idx → EReal) (ix4 n ci (Cert.Spec.prow p) (Cert.Spec.pcol p)) := by
  after_results
  refine shapeCast_apply (s := S32x256x32x32) (t := S32x256x1024) _ _ (ix3 n ci p) (ix4 n ci (Cert.Spec.prow p) (Cert.Spec.pcol p)) ?_
  show (S32x256x32x32.rowMajor (ix4 n ci (Cert.Spec.prow p) (Cert.Spec.pcol p))).val = (S32x256x1024.rowMajor (ix3 n ci p)).val
  rw [Shape.rowMajor_val_four, Shape.rowMajor_val_three]
  show ((n.val * 256 + ci.val) * 32 + p.val / 32) * 32 + p.val % 32 = (n.val * 256 + ci.val) * 1024 + p.val
  omega

theorem host0_keep_arg0 : StableHlo.after hostOps0 Wv (Proc.devRef .tc main_arg0) = Wv (Proc.devRef .tc main_arg0) := by
  after_results
theorem host0_keep_arg2 : StableHlo.after hostOps0 Wv (Proc.devRef .tc main_arg2) = Wv (Proc.devRef .tc main_arg2) := by
  after_results
theorem host0_keep_arg3 : StableHlo.after hostOps0 Wv (Proc.devRef .tc main_arg3) = Wv (Proc.devRef .tc main_arg3) := by
  after_results

end Host0

end Cert.ReferenceIdeal.Run

end
-- ==== Proof.RArr0.lean ====
/-
  The first region's two output arrays of the second program as whole-array functions of the buffers the region is
  entered with. The grid has one point per image n; point n reads block n of the [32, 256, 1024] image array and the
  whole [128, 256] weight array, and writes block n of each [32, 1, 128, 1] output array. So entry (n, 0, co, 0) of an
  output array is entry (0, 0, co, 0) of the body's block function applied to image n's block and the weights. The
  blocks of the 32 points tile each output array, so nothing of its former contents is left.
-/
import proofs.«111454_g2000205057013705_pallasbulk_543_2_alg».proof.Proof.Gen.ReferenceIdeal.Frame
import Idealize.ShloMosaic.Lib.Pipeline.Value
import Idealize.ShloMosaic.Lib.ValueIdx

set_option maxRecDepth 16384

noncomputable section

namespace Cert.ReferenceIdeal.Arr0

open Idealize.ShloMosaic Idealize.ShloMosaic.TcCoe Idealize.SL.Sem Idealize.ShloMosaic.ValueIdx
open Idealize.ShloMosaic.Pipeline (Dat)
open Cert.ReferenceIdeal Cert.ReferenceIdeal.Gen

variable (V : (c : Dev nD) → (b : Ref sig .tc) → Buf (Elt Ideal) ((c : Thread nD τ).loc b))

/-- The printed index maps over the grid: point t takes block (t, 0, 0) of the image array, block (0, 0) of the
    weights, and block (t, 0, 0, 0) of each output array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0
    ∧ win0_2.index t (3 : Fin 4) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

/-- The image window's block at point t is image t of the array. -/
theorem img_block (c : Dev nD) (t : Fin cfg0.N) (y : S1x256x1024.Idx) (k : S32x256x1024.Idx)
    (h0 : (k 0).val = t.val) (h1 : (k 1).val = (y 1).val) (h2 : (k 2).val = (y 2).val) :
    (iblk0 V c 0 t : Vec Ideal S1x256x1024 .f32) y = (V c main_v2 : S32x256x1024.Idx → EReal) k := by
  obtain ⟨e0, e1, e2, -⟩ := idx_facts t
  unfold iblk0
  rw [View.read_apply]
  show V c main_v2 _ = V c main_v2 _
  congr 1
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 256 + 1 * (y 1).val = (k 1).val; omega
  | ⟨2, _⟩ => show win0_0.index t (2 : Fin 3) * 1024 + 1 * (y 2).val = (k 2).val; omega

/-- The weight window's block is the whole weight array at every point. -/
theorem wt_block (c : Dev nD) (t : Fin cfg0.N) :
    (iblk0 V c 1 t : Vec Ideal S128x256 .f32) = (V c main_v0 : S128x256.Idx → EReal) := by
  obtain ⟨-, -, -, e3, e4, -⟩ := idx_facts t
  funext y
  unfold iblk0
  rw [View.read_apply]
  show V c main_v0 _ = V c main_v0 _
  congr 1
  funext a
  apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Image n's block of the image array. -/
abbrev img (c : Dev nD) (n : Fin 32) : Vec Ideal S1x256x1024 .f32 := fun y => V c main_v2 (ix3 n (y 1) (y 2))

/-! ## The array of per-image sums -/

/-- Entry (n, 0, co, 0) is entry (0, 0, co, 0) of the block function at image n. -/
def G2 (c : Dev nD) : S32x1x128x1.Idx → EReal := fun i => out0_2 (img V c (i 0)) (V c main_v0) (ix4 0 0 (i 2) (i 3))

/-- The block function of blocks that are the stated restrictions is the whole-array function at the matching index. -/
theorem g2_at (A : S32x256x1024.Idx → EReal) (Wm : S128x256.Idx → EReal)
    (X0 : Vec Ideal S1x256x1024 .f32) (X1 : Vec Ideal S128x256 .f32) (j : S1x1x128x1.Idx) (i : S32x1x128x1.Idx)
    (h0 : ∀ y : S1x256x1024.Idx, X0 y = A (ix3 (n0 := 32) (n1 := 256) (n2 := 1024) (i 0) (y 1) (y 2))) (h1 : X1 = Wm)
    (hj : j = ix4 (n0 := 1) (n1 := 1) (n2 := 128) (n3 := 1) 0 0 (i 2) (i 3)) :
    out0_2 (F := Ideal) X0 X1 j
      = out0_2 (F := Ideal) (fun y => A (ix3 (n0 := 32) (n1 := 256) (n2 := 1024) (i 0) (y 1) (y 2))) Wm
          (ix4 (n0 := 1) (n1 := 1) (n2 := 128) (n3 := 1) 0 0 (i 2) (i 3)) := by
  subst h1 hj
  have e : X0 = fun y => A (ix3 (n0 := 32) (n1 := 256) (n2 := 1024) (i 0) (y 1) (y 2)) := funext h0
  subst e
  rfl

/-- The window's block is the whole staging buffer: nothing is cut off. -/
theorem cut2 (t : Fin cfg0.N) (X : Vec Ideal S1x1x128x1 .f32) (j : ((cfg0.win 2).xblock (grid0.coords t)).Idx) :
    (cfg0.win 2).cut (grid0.coords t) X j = X j := rfl

/-- What point t writes back of this window is the whole-array function on block t. -/
theorem flushed2 (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  obtain ⟨-, -, -, -, -, e5, e6, e7, e8, -⟩ := idx_facts t
  funext j
  rw [View.read_apply]
  refine (cut2 t (out0_2 (iblk0 V c 0 t) (iblk0 V c 1 t)) j).trans ?_
  have hj0 : (j 0).val < 1 := (j 0).isLt
  have hj1 : (j 1).val < 1 := (j 1).isLt
  refine (g2_at (V c main_v2) (V c main_v0) (iblk0 V c 0 t) (iblk0 V c 1 t) j (((cfg0.win 2).blk t).view.emb j) ?_ ?_ ?_).trans
    (cast_eq _ _).symm
  · intro y
    refine img_block V c t y _ ?_ rfl rfl
    show win0_2.index t (0 : Fin 4) * 1 + 1 * (j 0).val = t.val
    omega
  · exact wt_block V c t
  · funext a
    apply Fin.ext
    match a with
    | ⟨0, _⟩ => show (j 0).val = 0; omega
    | ⟨1, _⟩ => show (j 1).val = 0; omega
    | ⟨2, _⟩ => show (j 2).val = win0_2.index t (2 : Fin 4) * 128 + 1 * (j 2).val; omega
    | ⟨3, _⟩ => show (j 3).val = win0_2.index t (3 : Fin 4) * 1 + 1 * (j 3).val; omega

/-- An index lies in block t of the array exactly when each coordinate lies in the block's range on its axis. -/
theorem mem_blk2 (t : Fin cfg0.N) (i : S32x1x128x1.Idx) :
    i ∈ ((cfg0.win 2).blk t).view.set ↔ ∀ a : Fin 4, win0_2.index t a * S1x1x128x1.size a ≤ (i a).val ∧ (i a).val < win0_2.index t a * S1x1x128x1.size a + S1x1x128x1.size a := by
  show i ∈ ((View.whole main_v3_0).slice (win0_2.rect t)).set ↔ _
  rw [View.set_slice_whole, Rect.mem_set_unit]
  exact Iff.rfl

/-- Every entry lies in the block of the point of its image. -/
theorem cover2 (i : S32x1x128x1.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 128 := (i 2).isLt
  have hi3 : (i 3).val < 1 := (i 3).isLt
  obtain ⟨t, ht⟩ : ∃ t : Fin cfg0.N, t.val = (i 0).val := ⟨⟨(i 0).val, by rw [show cfg0.N = 32 from N_0]; exact hi0⟩, rfl⟩
  refine ⟨t, flush0_2 t, ?_⟩
  rw [mem_blk2]
  obtain ⟨-, -, -, -, -, e5, e6, e7, e8, -⟩ := idx_facts t
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 128 ≤ (i 2).val ∧ (i 2).val < win0_2.index t (2 : Fin 4) * 128 + 128; omega
  | ⟨3, _⟩ => show win0_2.index t (3 : Fin 4) * 1 ≤ (i 3).val ∧ (i 3).val < win0_2.index t (3 : Fin 4) * 1 + 1; omega

/-- The array after the region: the 32 blocks tile it, so every entry is what its image's point wrote. -/
theorem arr0_2 (c : Dev nD) :
    ((dat0 V c).arrAt 2 cfg0.N : S32x1x128x1.Idx → EReal)
      = fun i => out0_2 (fun y => V c main_v2 (ix3 (i 0) (y 1) (y 2))) (V c main_v0) (ix4 0 0 (i 2) (i 3)) :=
  (dat0 V c).arrAt_eq_of_cover 2 (G2 V c) (fun t _ => flushed2 V c t) cover2

/-! ## The array of per-image sums of squares -/

/-- Entry (n, 0, co, 0) is entry (0, 0, co, 0) of the block function at image n. -/
def G3 (c : Dev nD) : S32x1x128x1.Idx → EReal := fun i => out0_3 (img V c (i 0)) (V c main_v0) (ix4 0 0 (i 2) (i 3))

/-- The block function of blocks that are the stated restrictions is the whole-array function at the matching index. -/
theorem g3_at (A : S32x256x1024.Idx → EReal) (Wm : S128x256.Idx → EReal)
    (X0 : Vec Ideal S1x256x1024 .f32) (X1 : Vec Ideal S128x256 .f32) (j : S1x1x128x1.Idx) (i : S32x1x128x1.Idx)
    (h0 : ∀ y : S1x256x1024.Idx, X0 y = A (ix3 (n0 := 32) (n1 := 256) (n2 := 1024) (i 0) (y 1) (y 2))) (h1 : X1 = Wm)
    (hj : j = ix4 (n0 := 1) (n1 := 1) (n2 := 128) (n3 := 1) 0 0 (i 2) (i 3)) :
    out0_3 (F := Ideal) X0 X1 j
      = out0_3 (F := Ideal) (fun y => A (ix3 (n0 := 32) (n1 := 256) (n2 := 1024) (i 0) (y 1) (y 2))) Wm
          (ix4 (n0 := 1) (n1 := 1) (n2 := 128) (n3 := 1) 0 0 (i 2) (i 3)) := by
  subst h1 hj
  have e : X0 = fun y => A (ix3 (n0 := 32) (n1 := 256) (n2 := 1024) (i 0) (y 1) (y 2)) := funext h0
  subst e
  rfl

/-- The window's block is the whole staging buffer: nothing is cut off. -/
theorem cut3 (t : Fin cfg0.N) (X : Vec Ideal S1x1x128x1 .f32) (j : ((cfg0.win 3).xblock (grid0.coords t)).Idx) :
    (cfg0.win 3).cut (grid0.coords t) X j = X j := rfl

/-- What point t writes back of this window is the whole-array function on block t. -/
theorem flushed3 (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  obtain ⟨-, -, -, -, -, -, -, -, -, e5, e6, e7, e8⟩ := idx_facts t
  funext j
  rw [View.read_apply]
  refine (cut3 t (out0_3 (iblk0 V c 0 t) (iblk0 V c 1 t)) j).trans ?_
  have hj0 : (j 0).val < 1 := (j 0).isLt
  have hj1 : (j 1).val < 1 := (j 1).isLt
  refine (g3_at (V c main_v2) (V c main_v0) (iblk0 V c 0 t) (iblk0 V c 1 t) j (((cfg0.win 3).blk t).view.emb j) ?_ ?_ ?_).trans
    (cast_eq _ _).symm
  · intro y
    refine img_block V c t y _ ?_ rfl rfl
    show win0_3.index t (0 : Fin 4) * 1 + 1 * (j 0).val = t.val
    omega
  · exact wt_block V c t
  · funext a
    apply Fin.ext
    match a with
    | ⟨0, _⟩ => show (j 0).val = 0; omega
    | ⟨1, _⟩ => show (j 1).val = 0; omega
    | ⟨2, _⟩ => show (j 2).val = win0_3.index t (2 : Fin 4) * 128 + 1 * (j 2).val; omega
    | ⟨3, _⟩ => show (j 3).val = win0_3.index t (3 : Fin 4) * 1 + 1 * (j 3).val; omega

/-- An index lies in block t of the array exactly when each coordinate lies in the block's range on its axis. -/
theorem mem_blk3 (t : Fin cfg0.N) (i : S32x1x128x1.Idx) :
    i ∈ ((cfg0.win 3).blk t).view.set ↔ ∀ a : Fin 4, win0_3.index t a * S1x1x128x1.size a ≤ (i a).val ∧ (i a).val < win0_3.index t a * S1x1x128x1.size a + S1x1x128x1.size a := by
  show i ∈ ((View.whole main_v3_1).slice (win0_3.rect t)).set ↔ _
  rw [View.set_slice_whole, Rect.mem_set_unit]
  exact Iff.rfl

/-- Every entry lies in the block of the point of its image. -/
theorem cover3 (i : S32x1x128x1.Idx) : ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 128 := (i 2).isLt
  have hi3 : (i 3).val < 1 := (i 3).isLt
  obtain ⟨t, ht⟩ : ∃ t : Fin cfg0.N, t.val = (i 0).val := ⟨⟨(i 0).val, by rw [show cfg0.N = 32 from N_0]; exact hi0⟩, rfl⟩
  refine ⟨t, flush0_3 t, ?_⟩
  rw [mem_blk3]
  obtain ⟨-, -, -, -, -, -, -, -, -, e5, e6, e7, e8⟩ := idx_facts t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 128 ≤ (i 2).val ∧ (i 2).val < win0_3.index t (2 : Fin 4) * 128 + 128; omega
  | ⟨3, _⟩ => show win0_3.index t (3 : Fin 4) * 1 ≤ (i 3).val ∧ (i 3).val < win0_3.index t (3 : Fin 4) * 1 + 1; omega

/-- The array after the region: the 32 blocks tile it, so every entry is what its image's point wrote. -/
theorem arr0_3 (c : Dev nD) :
    ((dat0 V c).arrAt 3 cfg0.N : S32x1x128x1.Idx → EReal)
      = fun i => out0_3 (fun y => V c main_v2 (ix3 (i 0) (y 1) (y 2))) (V c main_v0) (ix4 0 0 (i 2) (i 3)) :=
  (dat0 V c).arrAt_eq_of_cover 3 (G3 V c) (fun t _ => flushed3 V c t) cover3

end Cert.ReferenceIdeal.Arr0

end
-- ==== Proof.RRun.lean ====
/-
  The run of the second program read as ONE function of its four argument arrays.

  The result array is what the second kernel leaves (`arr1`): entry (n, co, a, a') is the formula `G1'` of the
  six arrays that kernel reads.  Those six are read back through the run: the images are the argument untouched;
  the weights are the argument reshaped there and back; the two interpolation matrices are the two literal tables;
  the scale and shift arrays are, channel by channel, the specification's chain `scaleOf` / `shiftOf` of
  0 + ∑ over the images of the first kernel's two results, of the gain and of the bias; and the first kernel's
  results at (n, 0, co, 0) are the sums over the 1024 pixels of the activation (and of its square), the activation
  at pixel p being read at row p / 32 and column p % 32 of the image.  Put together this is the specification's
  second arrangement `outB`.
-/
import proofs.«111454_g2000205057013705_pallasbulk_543_2_alg».proof.Proof.Gen.ReferenceIdeal.Frame
import proofs.«111454_g2000205057013705_pallasbulk_543_2_alg».proof.Proof.Spec
import proofs.«111454_g2000205057013705_pallasbulk_543_2_alg».proof.Proof.RStmt
import Idealize.ShloMosaic.Lib.Pipeline.Value
import proofs.«111454_g2000205057013705_pallasbulk_543_2_alg».proof.Proof.RRun1
import proofs.«111454_g2000205057013705_pallasbulk_543_2_alg».proof.Proof.RRunH
import proofs.«111454_g2000205057013705_pallasbulk_543_2_alg».proof.Proof.RArr0

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Run

open Cert.ReferenceIdeal Cert.ReferenceIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The first kernel's two results at (n, 0, co, 0), from the arrays it finds -/

/-- The body's first payload from entrywise readings of its two operands. -/
theorem pay2_of (h1 : Stmt.RM1) (v0 : FVec Ideal S128x256 .f32) (v2 : FVec Ideal S1x256x1024 .f32)
    (Wf : Fin 128 → Fin 256 → EReal) (Xf : Fin 256 → Fin 1024 → EReal)
    (hW : ∀ co ci, v0 (ix2 co ci) = Wf co ci) (hX : ∀ ci p, v2 (ix3 0 ci p) = Xf ci p) (co : Fin 128) :
    (k0_pay2 (F := Ideal) v0 v2 (ix4 0 0 co 0) : EReal)
      = ∑ p : Fin 1024, max (∑ ci : Fin 256, Wf co ci * Xf ci p) (Ideal.ofBits .f32 0x00000000#32) := by
  rw [h1]; unfold Stmt.conv; simp only [hW, hX]

/-- … and its second. -/
theorem pay3_of (h2 : Stmt.RM2) (v0 : FVec Ideal S128x256 .f32) (v2 : FVec Ideal S1x256x1024 .f32)
    (Wf : Fin 128 → Fin 256 → EReal) (Xf : Fin 256 → Fin 1024 → EReal)
    (hW : ∀ co ci, v0 (ix2 co ci) = Wf co ci) (hX : ∀ ci p, v2 (ix3 0 ci p) = Xf ci p) (co : Fin 128) :
    (k0_pay3 (F := Ideal) v0 v2 (ix4 0 0 co 0) : EReal)
      = ∑ p : Fin 1024, max (∑ ci : Fin 256, Wf co ci * Xf ci p) (Ideal.ofBits .f32 0x00000000#32)
          * max (∑ ci : Fin 256, Wf co ci * Xf ci p) (Ideal.ofBits .f32 0x00000000#32) := by
  rw [h2]; unfold Stmt.conv; simp only [hW, hX]

section Region0
variable (V : (c : Dev nD) → (b : Ref sig .tc) → Buf (Elt Ideal) ((c : Thread nD τ).loc b))

/-- The block sum the body stores: over the 1024 pixels, the channel's row of weights against the pixel's column
    of the image, then ReLU. -/
theorem sum0_2 (h1 : Stmt.RM1) (c : Dev nD) (A : S32x1x128x1.Idx → EReal)
    (E : A = fun i => out0_2 (fun y => (V c main_v2 : S32x256x1024.Idx → EReal) (ix3 (i 0) (y 1) (y 2)))
        (V c main_v0) (ix4 0 0 (i 2) (i 3)))
    (Wf : Fin 128 → Fin 256 → EReal) (Xf : Fin 32 → Fin 256 → Fin 1024 → EReal)
    (hW : ∀ co ci, (V c main_v0 : S128x256.Idx → EReal) (ix2 co ci) = Wf co ci)
    (hX : ∀ n ci p, (V c main_v2 : S32x256x1024.Idx → EReal) (ix3 n ci p) = Xf n ci p)
    (n : Fin 32) (co : Fin 128) :
    A (ix4 n 0 co 0) = ∑ p : Fin 1024, max (∑ ci : Fin 256, Wf co ci * Xf n ci p) (Ideal.ofBits .f32 0x00000000#32) := by
  rw [E]
  show out0_2 (fun y => (V c main_v2 : S32x256x1024.Idx → EReal) (ix3 n (y 1) (y 2))) (V c main_v0) (ix4 0 0 co 0) = _
  unfold out0_2
  rw [View.canon_unit_zero hz4]
  simp only [View.ld_unit_zero (S := S128x256) hz2, View.ld_unit_zero (S := S1x256x1024) hz3]
  exact pay2_of h1 _ _ Wf (Xf n) hW (fun ci p => hX n ci p) co

/-- … and the block sum of the squares. -/
theorem sum0_3 (h2 : Stmt.RM2) (c : Dev nD) (A : S32x1x128x1.Idx → EReal)
    (E : A = fun i => out0_3 (fun y => (V c main_v2 : S32x256x1024.Idx → EReal) (ix3 (i 0) (y 1) (y 2)))
        (V c main_v0) (ix4 0 0 (i 2) (i 3)))
    (Wf : Fin 128 → Fin 256 → EReal) (Xf : Fin 32 → Fin 256 → Fin 1024 → EReal)
    (hW : ∀ co ci, (V c main_v0 : S128x256.Idx → EReal) (ix2 co ci) = Wf co ci)
    (hX : ∀ n ci p, (V c main_v2 : S32x256x1024.Idx → EReal) (ix3 n ci p) = Xf n ci p)
    (n : Fin 32) (co : Fin 128) :
    A (ix4 n 0 co 0) = ∑ p : Fin 1024,
        max (∑ ci : Fin 256, Wf co ci * Xf n ci p) (Ideal.ofBits .f32 0x00000000#32)
      * max (∑ ci : Fin 256, Wf co ci * Xf n ci p) (Ideal.ofBits .f32 0x00000000#32) := by
  rw [E]
  show out0_3 (fun y => (V c main_v2 : S32x256x1024.Idx → EReal) (ix3 n (y 1) (y 2))) (V c main_v0) (ix4 0 0 co 0) = _
  unfold out0_3
  rw [View.canon_unit_zero hz4]
  simp only [View.ld_unit_zero (S := S128x256) hz2, View.ld_unit_zero (S := S1x256x1024) hz3]
  exact pay3_of h2 _ _ Wf (Xf n) hW (fun ci p => hX n ci p) co

end Region0

/-! ## The second kernel's formula is the specification's, once its six arrays are read -/

theorem G1'_outB (x : Cert.Spec.SX.Idx → EReal) (wt : Cert.Spec.SW.Idx → EReal) (g b : Cert.Spec.SC.Idx → EReal)
    (Ah : Cert.Spec.SAt.Idx → EReal) (Aw : Cert.Spec.SA.Idx → EReal)
    (A0 : S32x256x32x32.Idx → EReal) (A1 : S128x256x1x1.Idx → EReal) (A2 A3 : S128x1x1.Idx → EReal)
    (A4 : S64x32.Idx → EReal) (A5 : S32x64.Idx → EReal)
    (e0 : A0 = x) (e1 : A1 = wt) (e4 : A4 = Ah) (e5 : A5 = Aw) (n : Fin 32) (co : Fin 128) (a a' : Fin 64)
    (e2 : A2 (ix3 co 0 0) = Cert.Spec.scale x wt g co) (e3 : A3 (ix3 co 0 0) = Cert.Spec.shift x wt g b co) :
    G1' A0 A1 A2 A3 A4 A5 n co a a' = Cert.Spec.outB x wt g b Ah Aw n co a a' := by
  subst e0 e1 e4 e5
  unfold G1' Cert.Spec.outB
  rw [e2, e3]

/-! ## The buffers at the second kernel's entry, through the fold of the run -/

section Assemble
variable (m : (ℓ : Loc nD τ sig) → Buf (Elt Ideal) ℓ) (ρ : Dev nD → PrngReg) (c : Dev nD)

theorem W3_arg0 : W3 m ρ c (Proc.devRef .tc main_arg0) = m ((c : Thread nD τ).loc main_arg0) :=
  (host1_keep_arg0 (W2 m ρ c)).trans ((W2_of_ne m ρ c main_arg0 (by decide)).trans (host0_keep_arg0 (W0 m ρ c)))

theorem W3_v1 : (W3 m ρ c (Proc.devRef .tc main_v1) : S128x256x1x1.Idx → EReal) = m ((c : Thread nD τ).loc main_arg1) :=
  (host1_keep_v1 (W2 m ρ c)).trans ((W2_of_ne m ρ c main_v1 (by decide)).trans (host0_v1 (W0 m ρ c)))

theorem W3_cst : (W3 m ρ c (Proc.devRef .tc main_cst) : S64x32.Idx → EReal)
    = fun j => Ideal.ofBits .f32 (lit0 (S64x32.rowMajor j)) :=
  (host1_keep_cst (W2 m ρ c)).trans ((W2_of_ne m ρ c main_cst (by decide)).trans (host0_cst (W0 m ρ c)))

theorem W3_cst_0 : (W3 m ρ c (Proc.devRef .tc main_cst_0) : S32x64.Idx → EReal)
    = fun j => Ideal.ofBits .f32 (lit1 (S32x64.rowMajor j)) :=
  (host1_keep_cst_0 (W2 m ρ c)).trans ((W2_of_ne m ρ c main_cst_0 (by decide)).trans (host0_cst_0 (W0 m ρ c)))

theorem W2_arg2 : W2 m ρ c (Proc.devRef .tc main_arg2) = m ((c : Thread nD τ).loc main_arg2) :=
  (W2_of_ne m ρ c main_arg2 (by decide)).trans (host0_keep_arg2 (W0 m ρ c))

theorem W2_arg3 : W2 m ρ c (Proc.devRef .tc main_arg3) = m ((c : Thread nD τ).loc main_arg3) :=
  (W2_of_ne m ρ c main_arg3 (by decide)).trans (host0_keep_arg3 (W0 m ρ c))

/-- The first result of the first kernel at (n, 0, co, 0) is the specification's sum of the activations of image n and
    channel co over the pixels. -/
theorem W2_rowSum (h1 : Stmt.RM1)
    (E2 : ((dat0 (F := Ideal) (V1 m ρ) c).arrAt 2 cfg0.N : S32x1x128x1.Idx → EReal)
      = fun i => out0_2 (fun y => (V1 m ρ c main_v2 : S32x256x1024.Idx → EReal) (ix3 (i 0) (y 1) (y 2)))
          (V1 m ρ c main_v0) (ix4 0 0 (i 2) (i 3)))
    (n : Fin 32) (co : Fin 128) :
    (W2 m ρ c (Proc.devRef .tc main_v3_0) : S32x1x128x1.Idx → EReal) (ix4 n 0 co 0)
      = Cert.Spec.rowSum (m ((c : Thread nD τ).loc main_arg0)) (m ((c : Thread nD τ).loc main_arg1)) n co :=
  (sum0_2 (V1 m ρ) h1 c _ ((W2_arr m ρ c 2).trans E2)
    (fun co ci => (m ((c : Thread nD τ).loc main_arg1) : S128x256x1x1.Idx → EReal) (ix4 co ci 0 0))
    (fun n ci p => (m ((c : Thread nD τ).loc main_arg0) : S32x256x32x32.Idx → EReal) (ix4 n ci (Cert.Spec.prow p) (Cert.Spec.pcol p)))
    (fun co ci => host0_v0 (W0 m ρ c) co ci) (fun n ci p => host0_v2 (W0 m ρ c) n ci p) n co).trans rfl

theorem W2_rowSumSq (h2 : Stmt.RM2)
    (E3 : ((dat0 (F := Ideal) (V1 m ρ) c).arrAt 3 cfg0.N : S32x1x128x1.Idx → EReal)
      = fun i => out0_3 (fun y => (V1 m ρ c main_v2 : S32x256x1024.Idx → EReal) (ix3 (i 0) (y 1) (y 2)))
          (V1 m ρ c main_v0) (ix4 0 0 (i 2) (i 3)))
    (n : Fin 32) (co : Fin 128) :
    (W2 m ρ c (Proc.devRef .tc main_v3_1) : S32x1x128x1.Idx → EReal) (ix4 n 0 co 0)
      = Cert.Spec.rowSumSq (m ((c : Thread nD τ).loc main_arg0)) (m ((c : Thread nD τ).loc main_arg1)) n co :=
  (sum0_3 (V1 m ρ) h2 c _ ((W2_arr m ρ c 3).trans E3)
    (fun co ci => (m ((c : Thread nD τ).loc main_arg1) : S128x256x1x1.Idx → EReal) (ix4 co ci 0 0))
    (fun n ci p => (m ((c : Thread nD τ).loc main_arg0) : S32x256x32x32.Idx → EReal) (ix4 n ci (Cert.Spec.prow p) (Cert.Spec.pcol p)))
    (fun co ci => host0_v0 (W0 m ρ c) co ci) (fun n ci p => host0_v2 (W0 m ρ c) n ci p) n co).trans rfl

/-- The scale array at the second kernel's entry is the specification's scale, channel by channel. -/
theorem W3_v22 (h1 : Stmt.RM1) (h2 : Stmt.RM2)
    (E2 : ((dat0 (F := Ideal) (V1 m ρ) c).arrAt 2 cfg0.N : S32x1x128x1.Idx → EReal)
      = fun i => out0_2 (fun y => (V1 m ρ c main_v2 : S32x256x1024.Idx → EReal) (ix3 (i 0) (y 1) (y 2)))
          (V1 m ρ c main_v0) (ix4 0 0 (i 2) (i 3)))
    (E3 : ((dat0 (F := Ideal) (V1 m ρ) c).arrAt 3 cfg0.N : S32x1x128x1.Idx → EReal)
      = fun i => out0_3 (fun y => (V1 m ρ c main_v2 : S32x256x1024.Idx → EReal) (ix3 (i 0) (y 1) (y 2)))
          (V1 m ρ c main_v0) (ix4 0 0 (i 2) (i 3)))
    (co : Fin 128) :
    (W3 m ρ c (Proc.devRef .tc main_v22) : S128x1x1.Idx → EReal) (ix3 co 0 0)
      = Cert.Spec.scale (m ((c : Thread nD τ).loc main_arg0)) (m ((c : Thread nD τ).loc main_arg1))
          (m ((c : Thread nD τ).loc main_arg2)) co := by
  refine (host1_v22 (W2 m ρ c) _ _ _ rfl rfl (W2_arg2 m ρ c) co).trans ?_
  unfold Cert.Spec.scale Cert.Spec.s1 Cert.Spec.s2
  refine congr (congr (congrArg Cert.Spec.scaleOf (congrArg _ (Finset.sum_congr rfl fun n _ => ?_)))
    (congrArg _ (Finset.sum_congr rfl fun n _ => ?_))) rfl
  · exact W2_rowSum m ρ c h1 E2 n co
  · exact W2_rowSumSq m ρ c h2 E3 n co

/-- … and the shift array the specification's shift. -/
theorem W3_v23 (h1 : Stmt.RM1) (h2 : Stmt.RM2)
    (E2 : ((dat0 (F := Ideal) (V1 m ρ) c).arrAt 2 cfg0.N : S32x1x128x1.Idx → EReal)
      = fun i => out0_2 (fun y => (V1 m ρ c main_v2 : S32x256x1024.Idx → EReal) (ix3 (i 0) (y 1) (y 2)))
          (V1 m ρ c main_v0) (ix4 0 0 (i 2) (i 3)))
    (E3 : ((dat0 (F := Ideal) (V1 m ρ) c).arrAt 3 cfg0.N : S32x1x128x1.Idx → EReal)
      = fun i => out0_3 (fun y => (V1 m ρ c main_v2 : S32x256x1024.Idx → EReal) (ix3 (i 0) (y 1) (y 2)))
          (V1 m ρ c main_v0) (ix4 0 0 (i 2) (i 3)))
    (co : Fin 128) :
    (W3 m ρ c (Proc.devRef .tc main_v23) : S128x1x1.Idx → EReal) (ix3 co 0 0)
      = Cert.Spec.shift (m ((c : Thread nD τ).loc main_arg0)) (m ((c : Thread nD τ).loc main_arg1))
          (m ((c : Thread nD τ).loc main_arg2)) (m ((c : Thread nD τ).loc main_arg3)) co := by
  refine (host1_v23 (W2 m ρ c) _ _ _ _ rfl rfl (W2_arg2 m ρ c) (W2_arg3 m ρ c) co).trans ?_
  unfold Cert.Spec.shift Cert.Spec.s1 Cert.Spec.s2
  refine congr (congr (congr (congrArg Cert.Spec.shiftOf (congrArg _ (Finset.sum_congr rfl fun n _ => ?_)))
    (congrArg _ (Finset.sum_congr rfl fun n _ => ?_))) rfl) rfl
  · exact W2_rowSum m ρ c h1 E2 n co
  · exact W2_rowSumSq m ρ c h2 E3 n co

/-- THE RESULT of the second program's run as one function of its four arguments: the specification's second
    arrangement, with the two literal tables as the interpolation matrices. -/
theorem ref_out' (h1 : Stmt.RM1) (h2 : Stmt.RM2) (h3 : Stmt.RM3)
    (E2 : ((dat0 (F := Ideal) (V1 m ρ) c).arrAt 2 cfg0.N : S32x1x128x1.Idx → EReal)
      = fun i => out0_2 (fun y => (V1 m ρ c main_v2 : S32x256x1024.Idx → EReal) (ix3 (i 0) (y 1) (y 2)))
          (V1 m ρ c main_v0) (ix4 0 0 (i 2) (i 3)))
    (E3 : ((dat0 (F := Ideal) (V1 m ρ) c).arrAt 3 cfg0.N : S32x1x128x1.Idx → EReal)
      = fun i => out0_3 (fun y => (V1 m ρ c main_v2 : S32x256x1024.Idx → EReal) (ix3 (i 0) (y 1) (y 2)))
          (V1 m ρ c main_v0) (ix4 0 0 (i 2) (i 3))) :
    (W4 (F := Ideal) m ρ c (Proc.devRef .tc main_v24) : S32x128x64x64.Idx → EReal)
      = fun i => Cert.Spec.outB (m ((c : Thread nD τ).loc main_arg0)) (m ((c : Thread nD τ).loc main_arg1))
          (m ((c : Thread nD τ).loc main_arg2)) (m ((c : Thread nD τ).loc main_arg3))
          (fun j => Ideal.ofBits .f32 (lit0 (S64x32.rowMajor j))) (fun j => Ideal.ofBits .f32 (lit1 (S32x64.rowMajor j)))
          (i 0) (i 1) (i 2) (i 3) := by
  refine ((W4_arr m ρ c 6).trans (arr1 (V3 m ρ) h3 c)).trans ?_
  funext i
  show G1' (V3 m ρ c main_arg0) (V3 m ρ c main_v1) (V3 m ρ c main_v22) (V3 m ρ c main_v23) (V3 m ρ c main_cst)
      (V3 m ρ c main_cst_0) (i 0) (i 1) (i 2) (i 3) = _
  exact G1'_outB _ _ _ _ _ _ _ _ _ _ _ _ (W3_arg0 m ρ c) (W3_v1 m ρ c) (W3_cst m ρ c) (W3_cst_0 m ρ c) (i 0) (i 1) (i 2) (i 3)
    (W3_v22 m ρ c h1 h2 E2 E3 (i 1)) (W3_v23 m ρ c h1 h2 E2 E3 (i 1))

end Assemble

/-- THE RESULT of the second program's run: entry (n, co, a, a') of the result array is the specification's `outB`
    of the four arguments, with the two literal tables as the [64, 32] and [32, 64] interpolation matrices. -/
theorem ref_out (h1 : Cert.ReferenceIdeal.Stmt.RM1) (h2 : Cert.ReferenceIdeal.Stmt.RM2) (h3 : Cert.ReferenceIdeal.Stmt.RM3)
    (m : (ℓ : Loc nD τ sig) → Buf (Elt Ideal) ℓ) (ρ : Dev nD → PrngReg) (c : Dev nD) :
    (Gen.W4 (F := Ideal) m ρ c (Proc.devRef .tc main_v24) : S32x128x64x64.Idx → EReal)
      = fun i => Cert.Spec.outB (m ((c : Thread nD τ).loc main_arg0)) (m ((c : Thread nD τ).loc main_arg1))
          (m ((c : Thread nD τ).loc main_arg2)) (m ((c : Thread nD τ).loc main_arg3))
          (fun j => Ideal.ofBits .f32 (lit0 (S64x32.rowMajor j))) (fun j => Ideal.ofBits .f32 (lit1 (S32x64.rowMajor j)))
          (i 0) (i 1) (i 2) (i 3) :=
  ref_out' m ρ c h1 h2 h3 (Cert.ReferenceIdeal.Arr0.arr0_2 (V1 m ρ) c) (Cert.ReferenceIdeal.Arr0.arr0_3 (V1 m ρ) c)

end Cert.ReferenceIdeal.Run

end
-- ==== Proof.lean ====
/-
  The certificate's five claims.

  Both programs are two pallas_calls around a few host operations: a 1×1 convolution with ReLU whose per-channel sums
  feed batch-normalisation statistics, then the normalised activations upsampled by a separable bilinear interpolation
  (two matrix products against fixed interpolation matrices). The three frames are the generated frame certificates;
  the ideal pass rewrote nothing, so `preserves` is trivial. For `algebraic`, each program's run is read with its result
  array named (ValRun), that array is shown to be one whole-array function of the four arguments (Run, over the
  entry-wise readings of the kernel bodies in Pay), and the two functions are one (Spec.outA_eq_outB): they differ in
  the order of the factors in each product and in whether the rows are contracted against the interpolation matrix
  or against its transpose — the literal tables are transposes of each other word for word (Lits).
-/
import proofs.«111454_g2000205057013705_pallasbulk_543_2_alg».proof.Defs
import proofs.«111454_g2000205057013705_pallasbulk_543_2_alg».proof.Proof.Gen.Kernel
import proofs.«111454_g2000205057013705_pallasbulk_543_2_alg».proof.Proof.Gen.Kernel.Frame
import proofs.«111454_g2000205057013705_pallasbulk_543_2_alg».proof.Proof.Gen.KernelIdeal
import proofs.«111454_g2000205057013705_pallasbulk_543_2_alg».proof.Proof.Gen.KernelIdeal.Frame
import proofs.«111454_g2000205057013705_pallasbulk_543_2_alg».proof.Proof.Gen.ReferenceIdeal
import proofs.«111454_g2000205057013705_pallasbulk_543_2_alg».proof.Proof.Gen.ReferenceIdeal.Frame
import proofs.«111454_g2000205057013705_pallasbulk_543_2_alg».proof.Proof.Gen.Pre_finite_inputs
import proofs.«111454_g2000205057013705_pallasbulk_543_2_alg».proof.Proof.Spec
import proofs.«111454_g2000205057013705_pallasbulk_543_2_alg».proof.Proof.Lits
import proofs.«111454_g2000205057013705_pallasbulk_543_2_alg».proof.Proof.KValRun
import proofs.«111454_g2000205057013705_pallasbulk_543_2_alg».proof.Proof.RValRun
import proofs.«111454_g2000205057013705_pallasbulk_543_2_alg».proof.Proof.KPay
import proofs.«111454_g2000205057013705_pallasbulk_543_2_alg».proof.Proof.RPay0
import proofs.«111454_g2000205057013705_pallasbulk_543_2_alg».proof.Proof.RPay
import proofs.«111454_g2000205057013705_pallasbulk_543_2_alg».proof.Proof.KRun
import proofs.«111454_g2000205057013705_pallasbulk_543_2_alg».proof.Proof.RRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- Both runs end with the result array at one function of the arguments. -/
theorem algebraic : Cert.algebraic_KernelIdeal_ReferenceIdeal := by
  intro m ρ m' ρ' _ hagree
  refine ⟨fun c => Cert.KernelIdeal.Gen.W4 (F := Ideal) m ρ c (Proc.devRef .tc Cert.KernelIdeal.main_v24),
    Cert.KernelIdeal.ValRun.run (F := Ideal) m ρ, ?_⟩
  refine (θ_run Cert.ReferenceIdeal.defs _ _).mono (fun r h c => ⟨(h c).1.trans ?_, (h c).2⟩)
    (Cert.ReferenceIdeal.ValRun.run (F := Ideal) m' ρ')
  have hk := Cert.KernelIdeal.Run.kernel_out Cert.KernelIdeal.Pay.km1 Cert.KernelIdeal.Pay.km2 Cert.KernelIdeal.Pay.km3
    Cert.KernelIdeal.Pay.km4 m ρ c
  have hr := Cert.ReferenceIdeal.Run.ref_out Cert.ReferenceIdeal.Pay0.rm1 Cert.ReferenceIdeal.Pay0.rm2
    Cert.ReferenceIdeal.Pay.rm3 m' ρ' c
  refine hr.trans (Eq.trans ?_ hk.symm)
  rw [(hagree c).1, (hagree c).2.1, (hagree c).2.2.1, (hagree c).2.2.2]
  funext i
  rw [Cert.Spec.outA_eq_outB _ _ _ _ _ _ (fun j => Ideal.ofBits .f32 (Cert.ReferenceIdeal.lit0 (Cert.ReferenceIdeal.S64x32.rowMajor j)))
    Cert.Lits.rows_transposed]
  exact congrArg (fun A1 => Cert.Spec.outB _ _ _ _ _ A1 (i 0) (i 1) (i 2) (i 3)) (funext Cert.Lits.cols_equal)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
